-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S2x128x192 : Shape := ⟨3, ![2, 128, 192]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S2x128x192 : S_.BroadcastsInDim S2x128x192 (![] : Fin 0 → Fin S2x128x192.rank)
  reducesTo_S2x128x192_S_d0_1_2 : S2x128x192.ReducesTo [0, 1, 2] S_
  bcast_S_S2x128 : S_.BroadcastsInDim S2x128 (![] : Fin 0 → Fin S2x128.rank)
  reducesTo_S2x128_S_d0_1 : S2x128.ReducesTo [0, 1] S_
  bcast_S_S2x192x128 : S_.BroadcastsInDim S2x192x128 (![] : Fin 0 → Fin S2x192x128.rank)
  reducesTo_S2x192x128_S_d0_1_2 : S2x192x128.ReducesTo [0, 1, 2] S_
  bcast_S_S2x192x64 : S_.BroadcastsInDim S2x192x64 (![] : Fin 0 → Fin S2x192x64.rank)
  reducesTo_S2x192x64_S_d0_1_2 : S2x192x64.ReducesTo [0, 1, 2] S_
  bcast_S_S2x192 : S_.BroadcastsInDim S2x192 (![] : Fin 0 → Fin S2x192.rank)
  reducesTo_S2x192_S_d0_1 : S2x192.ReducesTo [0, 1] S_

variable [Facts]

def fn_part2 {F : FTy → Type} [FloatOps F] (main_arg9 : FVec F S2x192 .f32) (main_v33 : IVec S_ 1) : IVec S_ 1 :=
  let main_v34 : FVec F S2x192 .f32 := Host.absf main_arg9
  let main_cst_12 : FVec F S_ .f32 := constant S_ .f32 0x7F800000#32
  let main_v35 : FVec F S2x192 .f32 := broadcastInDim S2x192 ![] bcast_S_S2x192 main_cst_12
  let main_v36 : IVec S2x192 1 := cmpf .olt main_v34 main_v35
  let main_c_13 : IVec S_ 1 := constantI S_ 1 1#1
  let main_v37 : IVec S_ 1 := (fun x v => Host.reduce IntOp.andi x v reducesTo_S2x192_S_d0_1 h_S_) main_v36 main_c_13
  let main_v38 : IVec S_ 1 := andi main_v33 main_v37
  main_v38

def fn_part1 {F : FTy → Type} [FloatOps F] (main_arg6 : FVec F S2x192x128 .f32) (main_arg7 : FVec F S2x192x64 .f32) (main_arg8 : FVec F S2x192 .f32) (main_arg9 : FVec F S2x192 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x192x128 .f32 := Host.absf main_arg6
  let main_cst_6 : FVec F S_ .f32 := constant S_ .f32 0x7F800000#32
  let main_v20 : FVec F S2x192x128 .f32 := broadcastInDim S2x192x128 ![] bcast_S_S2x192x128 main_cst_6
  let main_v21 : IVec S2x192x128 1 := cmpf .olt main_v19 main_v20
  let main_c_7 : IVec S_ 1 := constantI S_ 1 1#1
  let main_v22 : IVec S_ 1 := (fun x v => Host.reduce IntOp.andi x v reducesTo_S2x192x128_S_d0_1_2 h_S_) main_v21 main_c_7
  let main_v23 : IVec S_ 1 := andi main_v18 main_v22
  let main_v24 : FVec F S2x192x64 .f32 := Host.absf main_arg7
  let main_cst_8 : FVec F S_ .f32 := constant S_ .f32 0x7F800000#32
  let main_v25 : FVec F S2x192x64 .f32 := broadcastInDim S2x192x64 ![] bcast_S_S2x192x64 main_cst_8
  let main_v26 : IVec S2x192x64 1 := cmpf .olt main_v24 main_v25
  let main_c_9 : IVec S_ 1 := constantI S_ 1 1#1
  let main_v27 : IVec S_ 1 := (fun x v => Host.reduce IntOp.andi x v reducesTo_S2x192x64_S_d0_1_2 h_S_) main_v26 main_c_9
  let main_v28 : IVec S_ 1 := andi main_v23 main_v27
  let main_v29 : FVec F S2x192 .f32 := Host.absf main_arg8
  let main_cst_10 : FVec F S_ .f32 := constant S_ .f32 0x7F800000#32
  let main_v30 : FVec F S2x192 .f32 := broadcastInDim S2x192 ![] bcast_S_S2x192 main_cst_10
  let main_v31 : IVec S2x192 1 := cmpf .olt main_v29 main_v30
  let main_c_11 : IVec S_ 1 := constantI S_ 1 1#1
  let main_v32 : IVec S_ 1 := (fun x v => Host.reduce IntOp.andi x v reducesTo_S2x192_S_d0_1 h_S_) main_v31 main_c_11
  let main_v33 : IVec S_ 1 := andi main_v28 main_v32
  fn_part2 (F := F) main_arg9 main_v33

def fn {F : FTy → Type} [FloatOps F] (main_arg0 : FVec F S50000x64 .f32) (main_arg1 : FVec F S800000x64 .f32) (main_arg2 : IVec S800000 32) (main_arg3 : IVec S800000 32) (main_arg4 : FVec F S2x128x192 .f32) (main_arg5 : FVec F S2x128 .f32) (main_arg6 : FVec F S2x192x128 .f32) (main_arg7 : FVec F S2x192x64 .f32) (main_arg8 : FVec F S2x192 .f32) (main_arg9 : FVec F S2x192 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S2x128x192 .f32 := Host.absf main_arg4
  let main_cst_2 : FVec F S_ .f32 := constant S_ .f32 0x7F800000#32
  let main_v10 : FVec F S2x128x192 .f32 := broadcastInDim S2x128x192 ![] bcast_S_S2x128x192 main_cst_2
  let main_v11 : IVec S2x128x192 1 := cmpf .olt main_v9 main_v10
  let main_c_3 : IVec S_ 1 := constantI S_ 1 1#1
  let main_v12 : IVec S_ 1 := (fun x v => Host.reduce IntOp.andi x v reducesTo_S2x128x192_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg6 main_arg7 main_arg8 main_arg9 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S2x128x192 : Shape := ⟨3, ![2, 128, 192]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x192 : Shape := ⟨3, ![1, 128, 192]⟩
abbrev S128x192 : Shape := ⟨2, ![128, 192]⟩
abbrev S1x128 : Shape := ⟨2, ![1, 128]⟩
abbrev S128 : Shape := ⟨1, ![128]⟩
abbrev S128x64 : Shape := ⟨2, ![128, 64]⟩
abbrev S64x128 : Shape := ⟨2, ![64, 128]⟩
abbrev S800000x128 : Shape := ⟨2, ![800000, 128]⟩
abbrev S50000x128 : Shape := ⟨2, ![50000, 128]⟩
abbrev S1x192x128 : Shape := ⟨3, ![1, 192, 128]⟩
abbrev S192x128 : Shape := ⟨2, ![192, 128]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S64x64 : Shape := ⟨2, ![64, 64]⟩
abbrev S64 : Shape := ⟨1, ![64]⟩
abbrev S1x64 : Shape := ⟨2, ![1, 64]⟩
abbrev S8000x64 : Shape := ⟨2, ![8000, 64]⟩
abbrev S8000x128 : Shape := ⟨2, ![8000, 128]⟩
abbrev S2000x128 : Shape := ⟨2, ![2000, 128]⟩
abbrev S2000x64 : Shape := ⟨2, ![2000, 64]⟩

abbrev nBuf : Space → Nat
  | .hbm => 164
  | .vmem => 60
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S2x128x192, .f32⟩
  | 5 => ⟨S2x128, .f32⟩
  | 6 => ⟨S2x192x128, .f32⟩
  | 7 => ⟨S2x192x64, .f32⟩
  | 8 => ⟨S2x192, .f32⟩
  | 9 => ⟨S2x192, .f32⟩
  | 10 => ⟨S800000x64, .bf16⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S50000x1, .f32⟩
  | 18 => ⟨S50000x64, .bf16⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .bf16⟩
  | 28 => ⟨S50000x64, .f32⟩
  | 29 => ⟨S50000x64, .f32⟩
  | 30 => ⟨S1x128x192, .f32⟩
  | 31 => ⟨S128x192, .f32⟩
  | 32 => ⟨S1x128, .f32⟩
  | 33 => ⟨S128, .f32⟩
  | 34 => ⟨S128x64, .f32⟩
  | 35 => ⟨S64x128, .f32⟩
  | 36 => ⟨S64x128, .bf16⟩
  | 37 => ⟨S128x64, .f32⟩
  | 38 => ⟨S64x128, .f32⟩
  | 39 => ⟨S64x128, .bf16⟩
  | 40 => ⟨S1x128, .f32⟩
  | 41 => ⟨S800000x128, .bf16⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S1x128x192, .f32⟩
  | 48 => ⟨S128x192, .f32⟩
  | 49 => ⟨S1x192x128, .f32⟩
  | 50 => ⟨S192x128, .f32⟩
  | 51 => ⟨S1x192x64, .f32⟩
  | 52 => ⟨S192x64, .f32⟩
  | 53 => ⟨S1x192, .f32⟩
  | 54 => ⟨S192, .f32⟩
  | 55 => ⟨S1x192, .f32⟩
  | 56 => ⟨S192, .f32⟩
  | 57 => ⟨S128x64, .f32⟩
  | 58 => ⟨S64x128, .f32⟩
  | 59 => ⟨S64x128, .bf16⟩
  | 60 => ⟨S64x128, .f32⟩
  | 61 => ⟨S128x64, .f32⟩
  | 62 => ⟨S128x64, .bf16⟩
  | 63 => ⟨S64x128, .f32⟩
  | 64 => ⟨S128x64, .f32⟩
  | 65 => ⟨S128x64, .bf16⟩
  | 66 => ⟨S64x128, .f32⟩
  | 67 => ⟨S128x64, .f32⟩
  | 68 => ⟨S128x64, .bf16⟩
  | 69 => ⟨S64x64, .f32⟩
  | 70 => ⟨S64x64, .f32⟩
  | 71 => ⟨S64x64, .bf16⟩
  | 72 => ⟨S64x64, .f32⟩
  | 73 => ⟨S64x64, .f32⟩
  | 74 => ⟨S64x64, .bf16⟩
  | 75 => ⟨S64x64, .f32⟩
  | 76 => ⟨S64x64, .f32⟩
  | 77 => ⟨S64x64, .bf16⟩
  | 78 => ⟨S64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S50000x64, .f32⟩
  | 91 => ⟨S50000x64, .bf16⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .bf16⟩
  | 101 => ⟨S50000x64, .f32⟩
  | 102 => ⟨S50000x64, .f32⟩
  | 103 => ⟨S1x128x192, .f32⟩
  | 104 => ⟨S128x192, .f32⟩
  | 105 => ⟨S1x128, .f32⟩
  | 106 => ⟨S128, .f32⟩
  | 107 => ⟨S128x64, .f32⟩
  | 108 => ⟨S64x128, .f32⟩
  | 109 => ⟨S64x128, .bf16⟩
  | 110 => ⟨S128x64, .f32⟩
  | 111 => ⟨S64x128, .f32⟩
  | 112 => ⟨S64x128, .bf16⟩
  | 113 => ⟨S1x128, .f32⟩
  | 114 => ⟨S800000x128, .bf16⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128x192, .f32⟩
  | 121 => ⟨S128x192, .f32⟩
  | 122 => ⟨S1x192x128, .f32⟩
  | 123 => ⟨S192x128, .f32⟩
  | 124 => ⟨S1x192x64, .f32⟩
  | 125 => ⟨S192x64, .f32⟩
  | 126 => ⟨S1x192, .f32⟩
  | 127 => ⟨S192, .f32⟩
  | _ => ⟨S50000x64, .f32⟩

abbrev hbmTy0_1 (i : Nat) : BufTy := match i % 128 with
  | 0 => ⟨S1x192, .f32⟩
  | 1 => ⟨S192, .f32⟩
  | 2 => ⟨S128x64, .f32⟩
  | 3 => ⟨S64x128, .f32⟩
  | 4 => ⟨S64x128, .bf16⟩
  | 5 => ⟨S64x128, .f32⟩
  | 6 => ⟨S128x64, .f32⟩
  | 7 => ⟨S128x64, .bf16⟩
  | 8 => ⟨S64x128, .f32⟩
  | 9 => ⟨S128x64, .f32⟩
  | 10 => ⟨S128x64, .bf16⟩
  | 11 => ⟨S64x128, .f32⟩
  | 12 => ⟨S128x64, .f32⟩
  | 13 => ⟨S128x64, .bf16⟩
  | 14 => ⟨S64x64, .f32⟩
  | 15 => ⟨S64x64, .f32⟩
  | 16 => ⟨S64x64, .bf16⟩
  | 17 => ⟨S64x64, .f32⟩
  | 18 => ⟨S64x64, .f32⟩
  | 19 => ⟨S64x64, .bf16⟩
  | 20 => ⟨S64x64, .f32⟩
  | 21 => ⟨S64x64, .f32⟩
  | 22 => ⟨S64x64, .bf16⟩
  | 23 => ⟨S64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S8000x128, .bf16⟩
  | .local _ .vmem, ⟨8, _⟩ => ⟨S8000x128, .bf16⟩
  | .local _ .vmem, ⟨9, _⟩ => ⟨S2000x128, .f32⟩
  | .local _ .vmem, ⟨10, _⟩ => ⟨S2000x128, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S64x128, .bf16⟩
  | .local _ .vmem, ⟨16, _⟩ => ⟨S128x64, .bf16⟩
  | .local _ .vmem, ⟨17, _⟩ => ⟨S128x64, .bf16⟩
  | .local _ .vmem, ⟨18, _⟩ => ⟨S128x64, .bf16⟩
  | .local _ .vmem, ⟨19, _⟩ => ⟨S64x64, .bf16⟩
  | .local _ .vmem, ⟨20, _⟩ => ⟨S64x64, .bf16⟩
  | .local _ .vmem, ⟨21, _⟩ => ⟨S64x64, .bf16⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S8000x64, .bf16⟩
  | .local _ .vmem, ⟨31, _⟩ => ⟨S8000x64, .bf16⟩
  | .local _ .vmem, ⟨32, _⟩ => ⟨S8000x64, .bf16⟩
  | .local _ .vmem, ⟨33, _⟩ => ⟨S8000x64, .bf16⟩
  | .local _ .vmem, ⟨34, _⟩ => ⟨S64x128, .bf16⟩
  | .local _ .vmem, ⟨35, _⟩ => ⟨S64x128, .bf16⟩
  | .local _ .vmem, ⟨36, _⟩ => ⟨S1x128, .f32⟩
  | .local _ .vmem, ⟨37, _⟩ => ⟨S8000x128, .bf16⟩
  | .local _ .vmem, ⟨38, _⟩ => ⟨S8000x128, .bf16⟩
  | .local _ .vmem, ⟨39, _⟩ => ⟨S2000x128, .f32⟩
  | .local _ .vmem, ⟨40, _⟩ => ⟨S2000x128, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S64x128, .bf16⟩
  | .local _ .vmem, ⟨46, _⟩ => ⟨S128x64, .bf16⟩
  | .local _ .vmem, ⟨47, _⟩ => ⟨S128x64, .bf16⟩
  | .local _ .vmem, ⟨48, _⟩ => ⟨S128x64, .bf16⟩
  | .local _ .vmem, ⟨49, _⟩ => ⟨S64x64, .bf16⟩
  | .local _ .vmem, ⟨50, _⟩ => ⟨S64x64, .bf16⟩
  | .local _ .vmem, ⟨51, _⟩ => ⟨S64x64, .bf16⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_c : Ref sig .tc := ⟨.hbm, 19, rfl⟩
abbrev main_call0_v7 : Ref sig .tc := ⟨.hbm, 20, rfl⟩
abbrev main_call0_v8 : Ref sig .tc := ⟨.hbm, 21, rfl⟩
abbrev main_call0_c_1 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_cst_2 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_v38 : Ref sig .tc := ⟨.hbm, 53, rfl⟩
abbrev main_call0_v39 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_call0_v47 : Ref sig .tc := ⟨.hbm, 62, rfl⟩
abbrev main_call0_v48 : Ref sig .tc := ⟨.hbm, 63, rfl⟩
abbrev main_call0_v49 : Ref sig .tc := ⟨.hbm, 64, rfl⟩
abbrev main_call0_v50 : Ref sig .tc := ⟨.hbm, 65, rfl⟩
abbrev main_call0_v51 : Ref sig .tc := ⟨.hbm, 66, rfl⟩
abbrev main_call0_v52 : Ref sig .tc := ⟨.hbm, 67, rfl⟩
abbrev main_call0_v53 : Ref sig .tc := ⟨.hbm, 68, rfl⟩
abbrev main_call0_v54 : Ref sig .tc := ⟨.hbm, 69, rfl⟩
abbrev main_call0_v55 : Ref sig .tc := ⟨.hbm, 70, rfl⟩
abbrev main_call0_v56 : Ref sig .tc := ⟨.hbm, 71, rfl⟩
abbrev main_call0_v57 : Ref sig .tc := ⟨.hbm, 72, rfl⟩
abbrev main_call0_v58 : Ref sig .tc := ⟨.hbm, 73, rfl⟩
abbrev main_call0_v59 : Ref sig .tc := ⟨.hbm, 74, rfl⟩
abbrev main_call0_v60 : Ref sig .tc := ⟨.hbm, 75, rfl⟩
abbrev main_call0_v61 : Ref sig .tc := ⟨.hbm, 76, rfl⟩
abbrev main_call0_v62 : Ref sig .tc := ⟨.hbm, 77, rfl⟩
abbrev main_call0_v63 : Ref sig .tc := ⟨.hbm, 78, rfl⟩
abbrev main_call0_v64 : Ref sig .tc := ⟨.hbm, 79, rfl⟩
abbrev main_call0_v65 : Ref sig .tc := ⟨.hbm, 80, rfl⟩
abbrev main_call0_v66 : Ref sig .tc := ⟨.hbm, 81, rfl⟩
abbrev main_call0_v67 : Ref sig .tc := ⟨.hbm, 82, rfl⟩
abbrev main_call0_v68 : Ref sig .tc := ⟨.hbm, 83, rfl⟩
abbrev main_call0_v69 : Ref sig .tc := ⟨.hbm, 84, rfl⟩
abbrev main_call0_v70 : Ref sig .tc := ⟨.hbm, 85, rfl⟩
abbrev main_call0_v71 : Ref sig .tc := ⟨.hbm, 86, rfl⟩
abbrev main_call0_v72 : Ref sig .tc := ⟨.hbm, 87, rfl⟩
abbrev main_call0_v73 : Ref sig .tc := ⟨.hbm, 88, rfl⟩
abbrev main_call0_v74 : Ref sig .tc := ⟨.hbm, 89, rfl⟩
abbrev main_call0_v75 : Ref sig .tc := ⟨.hbm, 90, rfl⟩
abbrev main_call0_v76 : Ref sig .tc := ⟨.hbm, 91, rfl⟩
abbrev main_call0_c_3 : Ref sig .tc := ⟨.hbm, 92, rfl⟩
abbrev main_call0_v77 : Ref sig .tc := ⟨.hbm, 93, rfl⟩
abbrev main_call0_v78 : Ref sig .tc := ⟨.hbm, 94, rfl⟩
abbrev main_call0_c_4 : Ref sig .tc := ⟨.hbm, 95, rfl⟩
abbrev main_call0_v79 : Ref sig .tc := ⟨.hbm, 96, rfl⟩
abbrev main_call0_v80 : Ref sig .tc := ⟨.hbm, 97, rfl⟩
abbrev main_call0_v81 : Ref sig .tc := ⟨.hbm, 98, rfl⟩
abbrev main_call0_v82 : Ref sig .tc := ⟨.hbm, 99, rfl⟩
abbrev main_call0_v83 : Ref sig .tc := ⟨.hbm, 100, rfl⟩
abbrev main_call0_v84 : Ref sig .tc := ⟨.hbm, 101, rfl⟩
abbrev main_call0_v85 : Ref sig .tc := ⟨.hbm, 102, rfl⟩
abbrev main_call0_v86 : Ref sig .tc := ⟨.hbm, 103, rfl⟩
abbrev main_call0_v87 : Ref sig .tc := ⟨.hbm, 104, rfl⟩
abbrev main_call0_v88 : Ref sig .tc := ⟨.hbm, 105, rfl⟩
abbrev main_call0_v89 : Ref sig .tc := ⟨.hbm, 106, rfl⟩
abbrev main_call0_v90 : Ref sig .tc := ⟨.hbm, 107, rfl⟩
abbrev main_call0_v91 : Ref sig .tc := ⟨.hbm, 108, rfl⟩
abbrev main_call0_v92 : Ref sig .tc := ⟨.hbm, 109, rfl⟩
abbrev main_call0_v93 : Ref sig .tc := ⟨.hbm, 110, rfl⟩
abbrev main_call0_v94 : Ref sig .tc := ⟨.hbm, 111, rfl⟩
abbrev main_call0_v95 : Ref sig .tc := ⟨.hbm, 112, rfl⟩
abbrev main_call0_v96 : Ref sig .tc := ⟨.hbm, 113, rfl⟩
abbrev main_call0_v97 : Ref sig .tc := ⟨.hbm, 114, rfl⟩
abbrev main_call0_v98 : Ref sig .tc := ⟨.hbm, 115, rfl⟩
abbrev main_call0_cst_5 : Ref sig .tc := ⟨.hbm, 116, rfl⟩
abbrev main_call0_v99 : Ref sig .tc := ⟨.hbm, 117, rfl⟩
abbrev main_call0_v100 : Ref sig .tc := ⟨.hbm, 118, rfl⟩
abbrev main_call0_v101 : Ref sig .tc := ⟨.hbm, 119, rfl⟩
abbrev main_call0_v102 : Ref sig .tc := ⟨.hbm, 120, rfl⟩
abbrev main_call0_v103 : Ref sig .tc := ⟨.hbm, 121, rfl⟩
abbrev main_call0_v104 : Ref sig .tc := ⟨.hbm, 122, rfl⟩
abbrev main_call0_v105 : Ref sig .tc := ⟨.hbm, 123, rfl⟩
abbrev main_call0_v106 : Ref sig .tc := ⟨.hbm, 124, rfl⟩
abbrev main_call0_v107 : Ref sig .tc := ⟨.hbm, 125, rfl⟩
abbrev main_call0_v108 : Ref sig .tc := ⟨.hbm, 126, rfl⟩
abbrev main_call0_v109 : Ref sig .tc := ⟨.hbm, 127, rfl⟩
abbrev main_call0_v110 : Ref sig .tc := ⟨.hbm, 128, rfl⟩
abbrev main_call0_v111 : Ref sig .tc := ⟨.hbm, 129, rfl⟩
abbrev main_call0_v112 : Ref sig .tc := ⟨.hbm, 130, rfl⟩
abbrev main_call0_v113 : Ref sig .tc := ⟨.hbm, 131, rfl⟩
abbrev main_call0_v114 : Ref sig .tc := ⟨.hbm, 132, rfl⟩
abbrev main_call0_v115 : Ref sig .tc := ⟨.hbm, 133, rfl⟩
abbrev main_call0_v116 : Ref sig .tc := ⟨.hbm, 134, rfl⟩
abbrev main_call0_v117 : Ref sig .tc := ⟨.hbm, 135, rfl⟩
abbrev main_call0_v118 : Ref sig .tc := ⟨.hbm, 136, rfl⟩
abbrev main_call0_v119 : Ref sig .tc := ⟨.hbm, 137, rfl⟩
abbrev main_call0_v120 : Ref sig .tc := ⟨.hbm, 138, rfl⟩
abbrev main_call0_v121 : Ref sig .tc := ⟨.hbm, 139, rfl⟩
abbrev main_call0_v122 : Ref sig .tc := ⟨.hbm, 140, rfl⟩
abbrev main_call0_v123 : Ref sig .tc := ⟨.hbm, 141, rfl⟩
abbrev main_call0_v124 : Ref sig .tc := ⟨.hbm, 142, rfl⟩
abbrev main_call0_v125 : Ref sig .tc := ⟨.hbm, 143, rfl⟩
abbrev main_call0_v126 : Ref sig .tc := ⟨.hbm, 144, rfl⟩
abbrev main_call0_v127 : Ref sig .tc := ⟨.hbm, 145, rfl⟩
abbrev main_call0_v128 : Ref sig .tc := ⟨.hbm, 146, rfl⟩
abbrev main_call0_v129 : Ref sig .tc := ⟨.hbm, 147, rfl⟩
abbrev main_call0_v130 : Ref sig .tc := ⟨.hbm, 148, rfl⟩
abbrev main_call0_v131 : Ref sig .tc := ⟨.hbm, 149, rfl⟩
abbrev main_call0_v132 : Ref sig .tc := ⟨.hbm, 150, rfl⟩
abbrev main_call0_v133 : Ref sig .tc := ⟨.hbm, 151, rfl⟩
abbrev main_call0_v134 : Ref sig .tc := ⟨.hbm, 152, rfl⟩
abbrev main_call0_v135 : Ref sig .tc := ⟨.hbm, 153, rfl⟩
abbrev main_call0_v136 : Ref sig .tc := ⟨.hbm, 154, rfl⟩
abbrev main_call0_v137 : Ref sig .tc := ⟨.hbm, 155, rfl⟩
abbrev main_call0_v138 : Ref sig .tc := ⟨.hbm, 156, rfl⟩
abbrev main_call0_v139 : Ref sig .tc := ⟨.hbm, 157, rfl⟩
abbrev main_call0_v140 : Ref sig .tc := ⟨.hbm, 158, rfl⟩
abbrev main_call0_v141 : Ref sig .tc := ⟨.hbm, 159, rfl⟩
abbrev main_call0_v142 : Ref sig .tc := ⟨.hbm, 160, rfl⟩
abbrev main_call0_v143 : Ref sig .tc := ⟨.hbm, 161, rfl⟩
abbrev main_call0_v144 : Ref sig .tc := ⟨.hbm, 162, rfl⟩
abbrev main_v0 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg16_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg5_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg11_0 : Ref sig .tc := ⟨.vmem, 53, rfl⟩
abbrev cc3_stg12_0 : Ref sig .tc := ⟨.vmem, 54, rfl⟩
abbrev cc3_stg13_0 : Ref sig .tc := ⟨.vmem, 55, rfl⟩
abbrev cc3_stg14_0 : Ref sig .tc := ⟨.vmem, 56, rfl⟩
abbrev cc3_stg15_0 : Ref sig .tc := ⟨.vmem, 57, rfl⟩
abbrev cc3_stg16_0 : Ref sig .tc := ⟨.vmem, 58, rfl⟩
abbrev cc3_stg16_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem16_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem5_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem10_0 : DmaSem sig := 52
abbrev cc3_sem11_0 : DmaSem sig := 53
abbrev cc3_sem12_0 : DmaSem sig := 54
abbrev cc3_sem13_0 : DmaSem sig := 55
abbrev cc3_sem14_0 : DmaSem sig := 56
abbrev cc3_sem15_0 : DmaSem sig := 57
abbrev cc3_sem16_0 : DmaSem sig := 58
abbrev cc3_sem16_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S2000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x64 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 2 → Memref sig .tc .vmem S2000x64 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

class Facts₀ : Prop where
  bitsLt_bf16_f32 : FTy.bits .bf16 < FTy.bits .f32
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000x1_S50000x64_0_1 : S50000x1.BroadcastsInDim S50000x64 (![0, 1] : Fin 2 → Fin S50000x64.rank)
  slices_S2x128x192_S1x128x192_0_0_0 : S2x128x192.Slices ![0, 0, 0] S1x128x192
  shapeCasts_S1x128x192_S128x192 : S1x128x192.ShapeCasts S128x192
  slices_S2x128_S1x128_0_0 : S2x128.Slices ![0, 0] S1x128
  shapeCasts_S1x128_S128 : S1x128.ShapeCasts S128
  slices_S128x192_S128x64_0_64 : S128x192.Slices ![0, 64] S128x64
  transposes_S128x64_S64x128_1_0 : S128x64.Transposes [1, 0] S64x128
  slices_S128x192_S128x64_0_128 : S128x192.Slices ![0, 128] S128x64
  shapeCasts_S128_S1x128 : S128.ShapeCasts S1x128
  bcast_S_S50000x128 : S_.BroadcastsInDim S50000x128 (![] : Fin 0 → Fin S50000x128.rank)
  slices_S2x192x128_S1x192x128_0_0_0 : S2x192x128.Slices ![0, 0, 0] S1x192x128
  shapeCasts_S1x192x128_S192x128 : S1x192x128.ShapeCasts S192x128
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  slices_S128x192_S128x64_0_0 : S128x192.Slices ![0, 0] S128x64
  slices_S192x128_S64x128_0_0 : S192x128.Slices ![0, 0] S64x128
  transposes_S64x128_S128x64_1_0 : S64x128.Transposes [1, 0] S128x64
  slices_S192x128_S64x128_64_0 : S192x128.Slices ![64, 0] S64x128
  slices_S192x128_S64x128_128_0 : S192x128.Slices ![128, 0] S64x128
  slices_S192x64_S64x64_0_0 : S192x64.Slices ![0, 0] S64x64
  transposes_S64x64_S64x64_1_0 : S64x64.Transposes [1, 0] S64x64
  slices_S192x64_S64x64_64_0 : S192x64.Slices ![64, 0] S64x64
  slices_S192x64_S64x64_128_0 : S192x64.Slices ![128, 0] S64x64
  slices_S192_S64_0 : S192.Slices ![0] S64
  shapeCasts_S64_S1x64 : S64.ShapeCasts S1x64
  slices_S192_S64_64 : S192.Slices ![64] S64
  slices_S192_S64_128 : S192.Slices ![128] S64
  slices_S2x128x192_S1x128x192_1_0_0 : S2x128x192.Slices ![1, 0, 0] S1x128x192
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  dot_S8000x64_S64x128_S8000x128_1_0_0_1_n_n_wf : DotDims.WF S8000x64 S64x128 S8000x128 [1] [0] [0] [1] [] []
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .bf16 = 32 ∨ (Rect.block (s := S800000x128) S8000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .bf16 = 32 ∨ (Rect.block (s := S64x64) S64x64.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .bf16 = 32 ∨ (Rect.block (s := S64x64) S64x64.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .bf16 = 32 ∨ (Rect.block (s := S64x64) S64x64.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x64.size a ≤ S1x64.size a
  hwx1_15 : ∀ i : grid1.Coords, EltTy.bits .f32 = 32 ∨ (Rect.block (s := S1x64) S1x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x64.size a ≤ S50000x64.size a
  hwx1_16 : ∀ i : grid1.Coords, EltTy.bits .f32 = 32 ∨ (Rect.block (s := S50000x64) S2000x64.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .bf16 = 32 ∨ (Rect.block (s := S800000x64) S8000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .bf16 = 32 ∨ (Rect.block (s := S800000x64) S8000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .bf16 = 32 ∨ (Rect.block (s := S64x128) S64x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .bf16 = 32 ∨ (Rect.block (s := S64x128) S64x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S800000x128.size a
  hwx2_5 : ∀ i : grid2.Coords, EltTy.bits .bf16 = 32 ∨ (Rect.block (s := S800000x128) S8000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .bf16 = 32 ∨ (Rect.block (s := S64x128) S64x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .bf16 = 32 ∨ (Rect.block (s := S128x64) S128x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .bf16 = 32 ∨ (Rect.block (s := S128x64) S128x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .bf16 = 32 ∨ (Rect.block (s := S128x64) S128x64.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .bf16 = 32 ∨ (Rect.block (s := S64x64) S64x64.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .bf16 = 32 ∨ (Rect.block (s := S64x64) S64x64.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .bf16 = 32 ∨ (Rect.block (s := S64x64) S64x64.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x64.size a ≤ S1x64.size a
  hwx3_14 : ∀ i : grid3.Coords, EltTy.bits .f32 = 32 ∨ (Rect.block (s := S1x64) S1x64.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x64.size a ≤ S1x64.size a
  hwx3_15 : ∀ i : grid3.Coords, EltTy.bits .f32 = 32 ∨ (Rect.block (s := S1x64) S1x64.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S2000x64.size a ≤ S50000x64.size a
  hwx3_16 : ∀ i : grid3.Coords, EltTy.bits .f32 = 32 ∨ (Rect.block (s := S50000x64) S2000x64.size (cc3_transform_16 i) (hinb3_16 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_call0_v13) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v22) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v25) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v27) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v44) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v47) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v50) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v53) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v56) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v59) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v62) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v64) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_call0_v66) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_call0_v68) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_call0_v70) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_call0_v72) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_call0_v74) S1x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_call0_v75) S2000x64.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_call0_v83) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v0) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v92) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v95) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v96) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v97) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v101) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v85) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v75) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v114) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v117) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v120) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v123) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v126) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v129) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_call0_v132) S64x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_call0_v134) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_call0_v136) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_call0_v138) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_call0_v140) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_call0_v142) S1x64.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_call0_v144) S1x64.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v0) S2000x64.size cc3_transform_16 reads3_16 true false 2 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S2x128x192 : Shape := ⟨3, ![2, 128, 192]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩
abbrev S800000x1 : Shape := ⟨2, ![800000, 1]⟩
abbrev S800000x192 : Shape := ⟨2, ![800000, 192]⟩
abbrev S1x128x192 : Shape := ⟨3, ![1, 128, 192]⟩
abbrev S128x192 : Shape := ⟨2, ![128, 192]⟩
abbrev S192x128 : Shape := ⟨2, ![192, 128]⟩
abbrev S800000x128 : Shape := ⟨2, ![800000, 128]⟩
abbrev S1x128 : Shape := ⟨2, ![1, 128]⟩
abbrev S128 : Shape := ⟨1, ![128]⟩
abbrev S50000x128 : Shape := ⟨2, ![50000, 128]⟩
abbrev S1x192x128 : Shape := ⟨3, ![1, 192, 128]⟩
abbrev S1x192 : Shape := ⟨2, ![1, 192]⟩
abbrev S192 : Shape := ⟨1, ![192]⟩
abbrev S1x192x64 : Shape := ⟨3, ![1, 192, 64]⟩
abbrev S192x64 : Shape := ⟨2, ![192, 64]⟩
abbrev S50000x192 : Shape := ⟨2, ![50000, 192]⟩
abbrev S64x192 : Shape := ⟨2, ![64, 192]⟩

abbrev nBuf : Space → Nat
  | .hbm => 176
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S2x128x192, .f32⟩
  | 5 => ⟨S2x128, .f32⟩
  | 6 => ⟨S2x192x128, .f32⟩
  | 7 => ⟨S2x192x64, .f32⟩
  | 8 => ⟨S2x192, .f32⟩
  | 9 => ⟨S2x192, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x192, .f32⟩
  | 29 => ⟨S1x128x192, .f32⟩
  | 30 => ⟨S128x192, .f32⟩
  | 31 => ⟨S192x128, .f32⟩
  | 32 => ⟨S800000x128, .f32⟩
  | 33 => ⟨S1x128, .f32⟩
  | 34 => ⟨S128, .f32⟩
  | 35 => ⟨S1x128, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x192x128, .f32⟩
  | 43 => ⟨S192x128, .f32⟩
  | 44 => ⟨S1x192, .f32⟩
  | 45 => ⟨S192, .f32⟩
  | 46 => ⟨S1x192x64, .f32⟩
  | 47 => ⟨S192x64, .f32⟩
  | 48 => ⟨S1x192, .f32⟩
  | 49 => ⟨S192, .f32⟩
  | 50 => ⟨S128x192, .f32⟩
  | 51 => ⟨S50000x192, .f32⟩
  | 52 => ⟨S1x192, .f32⟩
  | 53 => ⟨S50000x192, .f32⟩
  | 54 => ⟨S50000x192, .f32⟩
  | 55 => ⟨S64x192, .f32⟩
  | 56 => ⟨S50000x192, .f32⟩
  | 57 => ⟨S1x192, .f32⟩
  | 58 => ⟨S50000x192, .f32⟩
  | 59 => ⟨S50000x192, .f32⟩
  | 60 => ⟨S50000x64, .f32⟩
  | 61 => ⟨S50000x64, .f32⟩
  | 62 => ⟨S50000x64, .f32⟩
  | 63 => ⟨S50000x64, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S50000x64, .f32⟩
  | 92 => ⟨S50000x64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S800000x192, .f32⟩
  | 112 => ⟨S1x128x192, .f32⟩
  | 113 => ⟨S128x192, .f32⟩
  | 114 => ⟨S192x128, .f32⟩
  | 115 => ⟨S800000x128, .f32⟩
  | 116 => ⟨S1x128, .f32⟩
  | 117 => ⟨S128, .f32⟩
  | 118 => ⟨S1x128, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x192x128, .f32⟩
  | 126 => ⟨S192x128, .f32⟩
  | 127 => ⟨S1x192, .f32⟩
  | _ => ⟨S50000x64, .f32⟩

abbrev hbmTy0_1 (i : Nat) : BufTy := match i % 128 with
  | 0 => ⟨S192, .f32⟩
  | 1 => ⟨S1x192x64, .f32⟩
  | 2 => ⟨S192x64, .f32⟩
  | 3 => ⟨S1x192, .f32⟩
  | 4 => ⟨S192, .f32⟩
  | 5 => ⟨S128x192, .f32⟩
  | 6 => ⟨S50000x192, .f32⟩
  | 7 => ⟨S1x192, .f32⟩
  | 8 => ⟨S50000x192, .f32⟩
  | 9 => ⟨S50000x192, .f32⟩
  | 10 => ⟨S64x192, .f32⟩
  | 11 => ⟨S50000x192, .f32⟩
  | 12 => ⟨S1x192, .f32⟩
  | 13 => ⟨S50000x192, .f32⟩
  | 14 => ⟨S50000x192, .f32⟩
  | 15 => ⟨S50000x64, .f32⟩
  | 16 => ⟨S50000x64, .f32⟩
  | 17 => ⟨S50000x64, .f32⟩
  | 18 => ⟨S50000x64, .f32⟩
  | 19 => ⟨S50000x64, .f32⟩
  | 20 => ⟨S50000x64, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S50000x64, .f32⟩
  | 46 => ⟨S50000x64, .f32⟩
  | 47 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_cst_4 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_8 : Ref sig .tc := ⟨.hbm, 93, rfl⟩
abbrev main_v73 : Ref sig .tc := ⟨.hbm, 94, rfl⟩
abbrev main_v74 : Ref sig .tc := ⟨.hbm, 95, rfl⟩
abbrev main_c_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_10 : Ref sig .tc := ⟨.hbm, 102, rfl⟩
abbrev main_v80 : Ref sig .tc := ⟨.hbm, 103, rfl⟩
abbrev main_v81 : Ref sig .tc := ⟨.hbm, 104, rfl⟩
abbrev main_c_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_12 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_13 : Ref sig .tc := ⟨.hbm, 152, rfl⟩
abbrev main_v127 : Ref sig .tc := ⟨.hbm, 153, rfl⟩
abbrev main_v128 : Ref sig .tc := ⟨.hbm, 154, rfl⟩
abbrev main_cst_14 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_15 : Ref sig .tc := ⟨.hbm, 161, rfl⟩
abbrev main_v134 : Ref sig .tc := ⟨.hbm, 162, rfl⟩
abbrev main_v135 : Ref sig .tc := ⟨.hbm, 163, rfl⟩
abbrev main_cst_16 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_17 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  slices_S2x128x192_S1x128x192_0_0_0 : S2x128x192.Slices ![0, 0, 0] S1x128x192
  shapeCasts_S1x128x192_S128x192 : S1x128x192.ShapeCasts S128x192
  transposes_S128x192_S192x128_1_0 : S128x192.Transposes [1, 0] S192x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  slices_S2x192x128_S1x192x128_0_0_0 : S2x192x128.Slices ![0, 0, 0] S1x192x128
  shapeCasts_S1x192x128_S192x128 : S1x192x128.ShapeCasts S192x128
  slices_S2x192_S1x192_0_0 : S2x192.Slices ![0, 0] S1x192
  shapeCasts_S1x192_S192 : S1x192.ShapeCasts S192
  slices_S2x192x64_S1x192x64_0_0_0 : S2x192x64.Slices ![0, 0, 0] S1x192x64
  shapeCasts_S1x192x64_S192x64 : S1x192x64.ShapeCasts S192x64
  transposes_S192x128_S128x192_1_0 : S192x128.Transposes [1, 0] S128x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  transposes_S192x64_S64x192_1_0 : S192x64.Transposes [1, 0] S64x192
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S50000x64 : S_.BroadcastsInDim S50000x64 (![] : Fin 0 → Fin S50000x64.rank)
  slices_S2x128x192_S1x128x192_1_0_0 : S2x128x192.Slices ![1, 0, 0] S1x128x192
  slices_S2x128_S1x128_1_0 : S2x128.Slices ![1, 0] S1x128
  slices_S2x192x128_S1x192x128_1_0_0 : S2x192x128.Slices ![1, 0, 0] S1x192x128
  slices_S2x192_S1x192_1_0 : S2x192.Slices ![1, 0] S1x192
  slices_S2x192x64_S1x192x64_1_0_0 : S2x192x64.Slices ![1, 0, 0] S1x192x64
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  scatter_S50000x128_S800000x1_S800000x128_1_0_0_1_wf : ScatterDims.WF S50000x128 S800000x1 S800000x128 [1] [0] [0] 1
  dot_S50000x128_S128x192_S50000x192_1_0_0_1_n_n_wf : DotDims.WF S50000x128 S128x192 S50000x192 [1] [0] [0] [1] [] []
  dot_S50000x64_S64x192_S50000x192_1_0_0_1_n_n_wf : DotDims.WF S50000x64 S64x192 S50000x192 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf

class Facts : Prop extends Facts₀ where

variable [Facts]
-- ==== Proof.Spec.lean ====
/-
  One round of message passing followed by a gated recurrent update, written index by index over the extended reals,
  in the two arrangements that are to be compared.

  Nodes `v : Fin 50000` carry a state row `hv v : Fin 64 → EReal`; edges `e : Fin 800000` carry a feature row `he e`,
  a source row `gs e`, a destination row `gd e` (both already brought into range) and a raw destination word `dst e`,
  which names the node the edge's message is added to when, read as a signed integer, it is a node at all.
  The message weights `wm : 128 × 192` act on the concatenation (destination state, source state, edge feature).

  * `refRound`: every edge's message is the full 192-term product plus the bias; messages are summed per destination;
    the update's two affine maps are computed 192 wide and split into three gates.
  * `kerRound`: the destination-state third of the product does not depend on the edge, so it is taken out of the
    per-destination sum as (in-degree · state) times that third of the weights; the gates' products are computed
    64 wide each.
-/
import Idealize.ShloMosaic.PureOps.Ideal
import Idealize.ShloMosaic.Lib.ValueIdx

noncomputable section

open Idealize.ShloMosaic

namespace Cert.Gnn

/-- The float word of 1.0, kept as its word. -/
abbrev one32 : EReal := Ideal.ofBits .f32 0x3F800000#32

/-- An index word as a gather reads it: a negative word is first wrapped by adding the number of nodes. -/
def wrapWord (w : BitVec 32) : BitVec 32 := Scalar.select (IntOp.cmpi .slt w 0#32) (IntOp.addi w 50000#32) w

/-- The node row a gather takes for an index word: the wrapped word read signed and clamped into `[0, 49999]`. -/
def rowOf (w : BitVec 32) : Fin 50000 := ⟨min (wrapWord w).toInt.toNat 49999, by omega⟩

/-- The gates combined: `(1 − z) · n + z · h` with `r = σ(i_r + h_r)`, `z = σ(i_z + h_z)`, `n = tanh(i_n + r · h_n)`. -/
def gruOut (ir iz inn hr hz hn h : EReal) : EReal :=
  (one32 - Ideal.logistic (iz + hz)) * Ideal.tanh (inn + Ideal.logistic (ir + hr) * hn) + Ideal.logistic (iz + hz) * h

/-- One edge's message from two 64-term products and a bias: `xs e · ws + xe e · we + b`. -/
def msgRows (xs xe : Fin 800000 → Fin 64 → EReal) (ws we : Fin 64 → Fin 128 → EReal) (b : Fin 128 → EReal)
    (e : Fin 800000) (q : Fin 128) : EReal :=
  ((∑ k : Fin 64, xs e k * ws k q) + ∑ k : Fin 64, xe e k * we k q) + b q

/-- One node's update from its partial aggregate `asrc v`, its scaled state `dhv v` and its state `hv v`:
    the aggregate is completed by `dhv v · wd`, then the six gate pre-activations and `gruOut`. -/
def gruRows (asrc : Fin 50000 → Fin 128 → EReal) (dhv hv : Fin 50000 → Fin 64 → EReal)
    (wd : Fin 64 → Fin 128 → EReal) (wir wiz win : Fin 128 → Fin 64 → EReal) (whr whz whn : Fin 64 → Fin 64 → EReal)
    (bir biz bin bhr bhz bhn : Fin 64 → EReal) (v : Fin 50000) (j : Fin 64) : EReal :=
  gruOut
    ((∑ q : Fin 128, (asrc v q + ∑ k : Fin 64, dhv v k * wd k q) * wir q j) + bir j)
    ((∑ q : Fin 128, (asrc v q + ∑ k : Fin 64, dhv v k * wd k q) * wiz q j) + biz j)
    ((∑ q : Fin 128, (asrc v q + ∑ k : Fin 64, dhv v k * wd k q) * win q j) + bin j)
    ((∑ k : Fin 64, hv v k * whr k j) + bhr j)
    ((∑ k : Fin 64, hv v k * whz k j) + bhz j)
    ((∑ k : Fin 64, hv v k * whn k j) + bhn j)
    (hv v j)

/-- The per-destination sum: the rows `e` whose word, read signed, is `v`. -/
def segSum {n : Nat} (dst : Fin 800000 → BitVec 32) (x : Fin 800000 → Fin n → EReal) (v : Fin 50000) (q : Fin n) : EReal :=
  ∑ e : Fin 800000, if (dst e).toInt = (v.val : Int) then x e q else 0

/-- The in-degree, as the per-destination sum of ones. -/
def degree (dst : Fin 800000 → BitVec 32) (v : Fin 50000) : EReal :=
  ∑ e : Fin 800000, if (dst e).toInt = (v.val : Int) then one32 else 0

/-- THE KERNEL'S ROUND. -/
def kerRound (hv : Fin 50000 → Fin 64 → EReal) (he : Fin 800000 → Fin 64 → EReal) (gs : Fin 800000 → Fin 50000)
    (dst : Fin 800000 → BitVec 32) (wm : Fin 128 → Fin 192 → EReal) (bm : Fin 128 → EReal)
    (wih : Fin 192 → Fin 128 → EReal) (whh : Fin 192 → Fin 64 → EReal) (bih bhh : Fin 192 → EReal) :
    Fin 50000 → Fin 64 → EReal :=
  gruRows
    (segSum dst (msgRows (fun e k => hv (gs e) k) he (fun k q => wm q ⟨64 + k.val, by omega⟩)
      (fun k q => wm q ⟨128 + k.val, by omega⟩) bm))
    (fun v k => degree dst v * hv v k) hv
    (fun k q => wm q ⟨k.val, by omega⟩)
    (fun q j => wih ⟨j.val, by omega⟩ q) (fun q j => wih ⟨64 + j.val, by omega⟩ q) (fun q j => wih ⟨128 + j.val, by omega⟩ q)
    (fun k j => whh ⟨j.val, by omega⟩ k) (fun k j => whh ⟨64 + j.val, by omega⟩ k) (fun k j => whh ⟨128 + j.val, by omega⟩ k)
    (fun j => bih ⟨j.val, by omega⟩) (fun j => bih ⟨64 + j.val, by omega⟩) (fun j => bih ⟨128 + j.val, by omega⟩)
    (fun j => bhh ⟨j.val, by omega⟩) (fun j => bhh ⟨64 + j.val, by omega⟩) (fun j => bhh ⟨128 + j.val, by omega⟩)

/-- An edge's concatenated input row: destination state, source state, edge feature. -/
def catRow (hv : Fin 50000 → Fin 64 → EReal) (he : Fin 800000 → Fin 64 → EReal) (gs gd : Fin 800000 → Fin 50000)
    (e : Fin 800000) (k : Fin 192) : EReal :=
  if h : k.val < 64 then hv (gd e) ⟨k.val, h⟩
  else if h2 : k.val < 128 then hv (gs e) ⟨k.val - 64, by omega⟩
  else he e ⟨k.val - 128, by omega⟩

/-- The reference's aggregate: per destination, the sum of the full messages. -/
def refAgg (hv : Fin 50000 → Fin 64 → EReal) (he : Fin 800000 → Fin 64 → EReal) (gs gd : Fin 800000 → Fin 50000)
    (dst : Fin 800000 → BitVec 32) (wm : Fin 128 → Fin 192 → EReal) (bm : Fin 128 → EReal) :
    Fin 50000 → Fin 128 → EReal :=
  segSum dst fun e q => (∑ k : Fin 192, catRow hv he gs gd e k * wm q k) + bm q

/-- THE REFERENCE'S ROUND. -/
def refRound (hv : Fin 50000 → Fin 64 → EReal) (he : Fin 800000 → Fin 64 → EReal) (gs gd : Fin 800000 → Fin 50000)
    (dst : Fin 800000 → BitVec 32) (wm : Fin 128 → Fin 192 → EReal) (bm : Fin 128 → EReal)
    (wih : Fin 192 → Fin 128 → EReal) (whh : Fin 192 → Fin 64 → EReal) (bih bhh : Fin 192 → EReal)
    (v : Fin 50000) (j : Fin 64) : EReal :=
  gruOut
    ((∑ q : Fin 128, refAgg hv he gs gd dst wm bm v q * wih ⟨j.val, by omega⟩ q) + bih ⟨j.val, by omega⟩)
    ((∑ q : Fin 128, refAgg hv he gs gd dst wm bm v q * wih ⟨64 + j.val, by omega⟩ q) + bih ⟨64 + j.val, by omega⟩)
    ((∑ q : Fin 128, refAgg hv he gs gd dst wm bm v q * wih ⟨128 + j.val, by omega⟩ q) + bih ⟨128 + j.val, by omega⟩)
    ((∑ k : Fin 64, hv v k * whh ⟨j.val, by omega⟩ k) + bhh ⟨j.val, by omega⟩)
    ((∑ k : Fin 64, hv v k * whh ⟨64 + j.val, by omega⟩ k) + bhh ⟨64 + j.val, by omega⟩)
    ((∑ k : Fin 64, hv v k * whh ⟨128 + j.val, by omega⟩ k) + bhh ⟨128 + j.val, by omega⟩)
    (hv v j)

/-- The ten argument arrays, as the programs hold them. -/
structure Args where
  hv : (⟨2, ![50000, 64]⟩ : Shape).Idx → EReal
  he : (⟨2, ![800000, 64]⟩ : Shape).Idx → EReal
  src : (⟨1, ![800000]⟩ : Shape).Idx → BitVec 32
  dst : (⟨1, ![800000]⟩ : Shape).Idx → BitVec 32
  wm : (⟨3, ![2, 128, 192]⟩ : Shape).Idx → EReal
  bm : (⟨2, ![2, 128]⟩ : Shape).Idx → EReal
  wih : (⟨3, ![2, 192, 128]⟩ : Shape).Idx → EReal
  whh : (⟨3, ![2, 192, 64]⟩ : Shape).Idx → EReal
  bih : (⟨2, ![2, 192]⟩ : Shape).Idx → EReal
  bhh : (⟨2, ![2, 192]⟩ : Shape).Idx → EReal

namespace Args

open Idealize.ShloMosaic.ValueIdx

variable (A : Args)

/-- The state the first round starts from. -/
def hv0 : Fin 50000 → Fin 64 → EReal := fun v k => A.hv (ix2 v k)

/-- Round `t` of the reference from the state `h`, the round's weights read off the arrays. -/
def refRoundOf (t : Fin 2) (h : Fin 50000 → Fin 64 → EReal) : Fin 50000 → Fin 64 → EReal :=
  refRound h (fun e k => A.he (ix2 e k)) (fun e => rowOf (A.src (ix1 e))) (fun e => rowOf (A.dst (ix1 e)))
    (fun e => A.dst (ix1 e)) (fun q k => A.wm (ix3 t q k)) (fun q => A.bm (ix2 t q))
    (fun p q => A.wih (ix3 t p q)) (fun p k => A.whh (ix3 t p k)) (fun p => A.bih (ix2 t p)) (fun p => A.bhh (ix2 t p))

/-- Round `t` of the kernel from the state `h`. -/
def kerRoundOf (t : Fin 2) (h : Fin 50000 → Fin 64 → EReal) : Fin 50000 → Fin 64 → EReal :=
  kerRound h (fun e k => A.he (ix2 e k)) (fun e => rowOf (A.src (ix1 e)))
    (fun e => A.dst (ix1 e)) (fun q k => A.wm (ix3 t q k)) (fun q => A.bm (ix2 t q))
    (fun p q => A.wih (ix3 t p q)) (fun p k => A.whh (ix3 t p k)) (fun p => A.bih (ix2 t p)) (fun p => A.bhh (ix2 t p))

/-- Two rounds of the reference. -/
def refResult : Fin 50000 → Fin 64 → EReal := A.refRoundOf 1 (A.refRoundOf 0 A.hv0)

/-- Two rounds of the kernel. -/
def kerResult : Fin 50000 → Fin 64 → EReal := A.kerRoundOf 1 (A.kerRoundOf 0 A.hv0)

/-- The reference's result as an array. -/
def refArr : (⟨2, ![50000, 64]⟩ : Shape).Idx → EReal := fun i => A.refResult (i 0) (i 1)

/-- The kernel's result as an array. -/
def kerArr : (⟨2, ![50000, 64]⟩ : Shape).Idx → EReal := fun i => A.kerResult (i 0) (i 1)

theorem refArr_ix2 (v : Fin 50000) (j : Fin 64) : A.refArr (ix2 v j) = A.refResult v j := rfl

theorem kerArr_ix2 (v : Fin 50000) (j : Fin 64) : A.kerArr (ix2 v j) = A.kerResult v j := rfl

end Args

end Cert.Gnn

end
-- ==== Proof.RoundAlgebra.lean ====
/-
  The two arrangements of one round agree over the extended reals.

  The kernel takes the destination-state third of every message's 192-term product out of the per-destination sum,
  as (in-degree · state) times that third of the weights. No entry is assumed finite, so the argument uses only that
  the extended reals form a commutative additive monoid with a commutative, associative multiplication, and one
  distributivity fact: a sum of nonnegative terms (here zeros and ones) times any x is the sum of the products.
-/
import proofs.«163931_j15083925143987_2_alg».proof.Proof.Spec

noncomputable section

open Idealize.ShloMosaic

namespace Cert.Gnn

/-- The word `0x3F800000` denotes the extended real one. -/
theorem one32_eq_one : one32 = 1 := by
  show Ideal.ofBits .f32 0x3F800000#32 = 1
  simp [Ideal.ofBits, Ideal.ieee, -EReal.coe_mul]; norm_num

/-- A word that, read signed, is a node number is not wrapped, and the clamp leaves it alone. -/
theorem rowOf_of_toInt (w : BitVec 32) (v : Fin 50000) (h : w.toInt = (v.val : Int)) : rowOf w = v := by
  have hs : w.slt 0#32 = false := by
    simp [BitVec.slt, h]
  have hw : wrapWord w = w := by
    simp [wrapWord, Scalar.select, IntOp.cmpi, hs]
  apply Fin.ext
  have hv := v.isLt
  simp only [rowOf, hw, h]
  omega

/-- A 192-term sum is the sum of its three 64-term thirds. -/
theorem sum_thirds (f : Fin 192 → EReal) :
    ∑ k : Fin 192, f k
      = ((∑ k : Fin 64, f ⟨k.val, by omega⟩) + ∑ k : Fin 64, f ⟨64 + k.val, by omega⟩)
          + ∑ k : Fin 64, f ⟨128 + k.val, by omega⟩ := by
  have h1 := Fin.sum_univ_add (fun i : Fin (64 + 128) => f i)
  have h2 := Fin.sum_univ_add (fun i : Fin (64 + 64) => f (Fin.natAdd 64 i))
  refine h1.trans ?_
  rw [add_assoc]
  refine congrArg₂ (· + ·) rfl (h2.trans ?_)
  refine congrArg₂ (· + ·) rfl ?_
  refine Finset.sum_congr rfl fun k _ => congrArg f (Fin.ext ?_)
  simp [Fin.natAdd]
  omega

/-- A sum of zeros and ones, times `x`, is the sum of the corresponding zeros and `x`s: distributivity over
    nonnegative summands, by induction on the index set. -/
theorem boole_sum_mul {ι : Type} (s : Finset ι) (c : ι → Prop) [DecidablePred c] (x : EReal) :
    (∑ e ∈ s, if c e then (1 : EReal) else 0) * x = ∑ e ∈ s, if c e then x else 0 := by
  classical
  induction s using Finset.induction_on with
  | empty => simp
  | insert a s ha ih =>
    rw [Finset.sum_insert ha, Finset.sum_insert ha, EReal.right_distrib_of_nonneg, ih]
    · congr 1
      split_ifs <;> simp
    · split_ifs <;> simp
    · exact Finset.sum_nonneg fun e _ => by split_ifs <;> simp

/-- The in-degree times `x` is the per-destination sum of `x`. -/
theorem degree_mul (dst : Fin 800000 → BitVec 32) (v : Fin 50000) (x : EReal) :
    degree dst v * x = ∑ e : Fin 800000, if (dst e).toInt = (v.val : Int) then x else 0 := by
  unfold degree
  rw [one32_eq_one]
  exact boole_sum_mul _ _ x

/-- The first third of an edge's concatenated row is the destination's state. -/
theorem catRow_lo (hv : Fin 50000 → Fin 64 → EReal) (he : Fin 800000 → Fin 64 → EReal) (gs gd : Fin 800000 → Fin 50000)
    (e : Fin 800000) (k : Fin 64) : catRow hv he gs gd e ⟨k.val, by omega⟩ = hv (gd e) k := by
  unfold catRow
  rw [dif_pos (show (⟨k.val, by omega⟩ : Fin 192).val < 64 from k.isLt)]

/-- The second third is the source's state. -/
theorem catRow_mid (hv : Fin 50000 → Fin 64 → EReal) (he : Fin 800000 → Fin 64 → EReal) (gs gd : Fin 800000 → Fin 50000)
    (e : Fin 800000) (k : Fin 64) : catRow hv he gs gd e ⟨64 + k.val, by omega⟩ = hv (gs e) k := by
  unfold catRow
  have hk := k.isLt
  rw [dif_neg (show ¬ (⟨64 + k.val, by omega⟩ : Fin 192).val < 64 by show ¬ 64 + k.val < 64; omega),
    dif_pos (show (⟨64 + k.val, by omega⟩ : Fin 192).val < 128 by show 64 + k.val < 128; omega)]
  exact congrArg (hv (gs e)) (Fin.ext (by simp))

/-- The last third is the edge's feature row. -/
theorem catRow_hi (hv : Fin 50000 → Fin 64 → EReal) (he : Fin 800000 → Fin 64 → EReal) (gs gd : Fin 800000 → Fin 50000)
    (e : Fin 800000) (k : Fin 64) : catRow hv he gs gd e ⟨128 + k.val, by omega⟩ = he e k := by
  unfold catRow
  have hk := k.isLt
  rw [dif_neg (show ¬ (⟨128 + k.val, by omega⟩ : Fin 192).val < 64 by show ¬ 128 + k.val < 64; omega),
    dif_neg (show ¬ (⟨128 + k.val, by omega⟩ : Fin 192).val < 128 by show ¬ 128 + k.val < 128; omega)]
  exact congrArg (he e) (Fin.ext (by simp))

/-- The completed aggregate of the kernel's arrangement is the reference's aggregate: at a destination `v` every
    edge of its segment contributes the same destination third `∑ k, hv v k * wm q k`, and the in-degree times that
    third is the segment's sum of it. -/
theorem agg_eq (hv : Fin 50000 → Fin 64 → EReal) (he : Fin 800000 → Fin 64 → EReal) (gs gd : Fin 800000 → Fin 50000)
    (dst : Fin 800000 → BitVec 32) (wm : Fin 128 → Fin 192 → EReal) (bm : Fin 128 → EReal)
    (hgd : ∀ (e : Fin 800000) (v : Fin 50000), (dst e).toInt = (v.val : Int) → gd e = v)
    (v : Fin 50000) (q : Fin 128) :
    segSum dst (msgRows (fun e k => hv (gs e) k) he (fun k q => wm q ⟨64 + k.val, by omega⟩)
        (fun k q => wm q ⟨128 + k.val, by omega⟩) bm) v q
      + ∑ k : Fin 64, (degree dst v * hv v k) * wm q ⟨k.val, by omega⟩
      = refAgg hv he gs gd dst wm bm v q := by
  have hdeg : ∑ k : Fin 64, (degree dst v * hv v k) * wm q ⟨k.val, by omega⟩
      = ∑ e : Fin 800000, if (dst e).toInt = (v.val : Int) then ∑ k : Fin 64, hv v k * wm q ⟨k.val, by omega⟩ else 0 := by
    have h1 : ∀ k : Fin 64, (degree dst v * hv v k) * wm q ⟨k.val, by omega⟩
        = ∑ e : Fin 800000, if (dst e).toInt = (v.val : Int) then hv v k * wm q ⟨k.val, by omega⟩ else 0 := fun k => by
      rw [mul_assoc, degree_mul]
    rw [Finset.sum_congr rfl fun k _ => h1 k, Finset.sum_comm]
    refine Finset.sum_congr rfl fun e _ => ?_
    split_ifs
    · rfl
    · exact Finset.sum_const_zero
  unfold refAgg segSum
  rw [hdeg, ← Finset.sum_add_distrib]
  refine Finset.sum_congr rfl fun e _ => ?_
  split_ifs with hc
  · have hg : gd e = v := hgd e v hc
    dsimp only
    rw [sum_thirds]
    simp only [catRow_lo, catRow_mid, catRow_hi, hg, msgRows]
    abel
  · exact add_zero 0

/-- The two arrangements of one round give the same new state at every node and column. -/
theorem kerRound_eq_refRound (hv : Fin 50000 → Fin 64 → EReal) (he : Fin 800000 → Fin 64 → EReal) (gs gd : Fin 800000 → Fin 50000)
    (dst : Fin 800000 → BitVec 32) (wm : Fin 128 → Fin 192 → EReal) (bm : Fin 128 → EReal)
    (wih : Fin 192 → Fin 128 → EReal) (whh : Fin 192 → Fin 64 → EReal) (bih bhh : Fin 192 → EReal)
    (hgd : ∀ (e : Fin 800000) (v : Fin 50000), (dst e).toInt = (v.val : Int) → gd e = v) :
    kerRound hv he gs dst wm bm wih whh bih bhh = refRound hv he gs gd dst wm bm wih whh bih bhh := by
  funext v j
  unfold kerRound refRound gruRows
  simp only [agg_eq hv he gs gd dst wm bm hgd]

/-- Two rounds in the kernel's arrangement give the same array as two rounds in the reference's. -/
theorem Args.kerArr_eq_refArr (A : Args) : A.kerArr = A.refArr := by
  have hround : ∀ (t : Fin 2) (h : Fin 50000 → Fin 64 → EReal), A.kerRoundOf t h = A.refRoundOf t h := fun t h =>
    kerRound_eq_refRound _ _ _ _ _ _ _ _ _ _ _ (fun e v hh => rowOf_of_toInt _ v hh)
  funext i
  simp only [Args.kerArr, Args.refArr, Args.kerResult, Args.refResult, hround]

end Cert.Gnn
-- ==== Proof.KernelRun.lean ====
/-
  The idealized kernel program's run with its result named: every weakly fair execution of @main terminates
  without a fault, the argument arrays end as launched, and the result array ends at what the last region's
  write-backs leave in it — the contents at the last boundary of @main, read at the result's buffer.
-/
import proofs.«163931_j15083925143987_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the eight segments of @main, read at the result's buffer as well as at the arguments': the final
    thread state holds every unscoped buffer at the last boundary's contents. -/
theorem run_value : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.LibIdealEntries.lean ====
/-
  The rank-one accumulating float scatter at the ideal instance, read at an entry.

  `zeros(N).at[idx].add(v)` for a float vector `v : [B]` and a column `[B, 1]` of scatter indices is printed as the
  float scatter-add. At the ideal instance its value at entry `i` is the operand's entry plus the exact sum of the
  updates landing on `i`; update `j` lands at `idx j`, read as a signed integer and not clamped, when that is an index
  of the operand, and is dropped otherwise. So entry `i` is the operand's entry plus the sum of `v j` over the `j` whose
  index word, read signed, is `i` — with `v` all ones, the segment count.
-/
import proofs.«163931_j15083925143987_2_alg».proof.Proof.LibHostScatterAdd
import Idealize.ShloMosaic.PureOps.Ideal

noncomputable section

open Idealize.ShloMosaic Idealize.ShloMosaic.ValueIdx

namespace Cert.HostInt

/-- THE RANK-ONE FLOAT SCATTER-ADD AT AN ENTRY, at the ideal instance: the operand's entry plus the updates whose start
    index, read signed, is `i`. -/
theorem scatterAdd_col_apply {N B w : Nat} {φ : FTy}
    (wf : ScatterDims.WF ⟨1, ![N]⟩ ⟨2, ![B, 1]⟩ ⟨1, ![B]⟩ [] [0] [0] 1)
    (x : FVec Ideal ⟨1, ![N]⟩ φ) (idx : IVec ⟨2, ![B, 1]⟩ w) (upd : FVec Ideal ⟨1, ![B]⟩ φ) (i : Fin N) :
    Host.scatterAdd (F := Ideal) (colScatterDims N B wf) x idx upd (ix1 i)
      = x (ix1 i) + ∑ j : Fin B, if (idx (colEntry j)).toInt = (i.val : Int) then upd (ix1 j) else 0 := by
  show Ideal.hostScatterAdd (colScatterDims N B wf) x idx upd (ix1 i) = _
  unfold Ideal.hostScatterAdd
  refine congrArg (x (ix1 i) + ·) ?_
  rw [Finset.sum_filter]
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val :=
        congrArg (fun y : (⟨1, ![N]⟩ : Shape).Idx => (y 0).val) (Option.some.inj hh)
      omega
  · rw [dif_neg h, if_neg (by simp), if_neg (by omega)]

end Cert.HostInt

end
-- ==== Proof.HostReads.lean ====
/-
  The host operations on the kernel program's data path, read at an entry at the ideal instance: the row gather
  through wrapped index words, the per-destination sum of message rows, the in-degree as a per-destination sum of
  ones, and the in-degree column times the state.
-/
import proofs.«163931_j15083925143987_2_alg».proof.KernelIdeal
import proofs.«163931_j15083925143987_2_alg».proof.Proof.Gen.KernelIdeal
import proofs.«163931_j15083925143987_2_alg».proof.Proof.Spec
import proofs.«163931_j15083925143987_2_alg».proof.Proof.LibHostGather
import proofs.«163931_j15083925143987_2_alg».proof.Proof.LibHostSegmentSum
import proofs.«163931_j15083925143987_2_alg».proof.Proof.LibIdealEntries
import Idealize.ShloMosaic.Lib.Pipeline.Value
import Idealize.ShloMosaic.Lib.ValueIdx
import Idealize.ShloMosaic.PureOps.Ideal.Laws

set_option maxRecDepth 16384

noncomputable section

namespace Cert.KernelIdeal.HostReads

open Idealize.ShloMosaic Idealize.ShloMosaic.ValueIdx Cert.KernelIdeal Cert.KernelIdeal.Facts₀ Cert.HostInt

/-- A vector of words broadcast to a column, read at a row. -/
theorem col_apply (w : S800000.Idx → BitVec 32) (e : Fin 800000) :
    broadcastInDim S800000x1 ![0] bcast_S800000_S800000x1_0 w (ix2 e (0 : Fin 1)) = w (ix1 e) :=
  broadcastInDim_apply _ _ _ _ (ix1 e) (fun a => by match a with | ⟨0, _⟩ => rfl)

/-- The wrapped index words at an entry: a negative word has the number of nodes added. -/
theorem wrap_apply (w : S800000.Idx → BitVec 32) (e : Fin 800000) :
    select (cmpi .slt w (broadcastInDim S800000 ![] bcast_S_S800000 (constantI S_ 32 0#32)))
      (addi w (broadcastInDim S800000 ![] bcast_S_S800000 (constantI S_ 32 50000#32))) w (ix1 e)
      = Cert.Gnn.wrapWord (w (ix1 e)) := rfl

/-- THE ROW GATHER: row `e` of the result is the table's row for `e`'s index word. -/
theorem gatherRows_apply (x : S50000x64.Idx → EReal) (w : S800000.Idx → BitVec 32) (e : Fin 800000) (k : Fin 64) :
    Host.gather gather_S50000x64_S800000x1_S800000x64_1_0_n_n_0_1_164 x
      (broadcastInDim S800000x1 ![0] bcast_S800000_S800000x1_0
        (select (cmpi .slt w (broadcastInDim S800000 ![] bcast_S_S800000 (constantI S_ 32 0#32)))
          (addi w (broadcastInDim S800000 ![] bcast_S_S800000 (constantI S_ 32 50000#32))) w)) (ix2 e k)
      = x (ix2 (Cert.Gnn.rowOf (w (ix1 e))) k) := by
  refine (gather_rows_apply (B := 50000) (F := 64) (N := 800000) (by norm_num)
    gather_S50000x64_S800000x1_S800000x64_1_0_n_n_0_1_164.wf x _ e k).trans ?_
  refine congrArg (fun r => x (ix2 r k)) (Fin.ext ?_)
  show min (_ : BitVec 32).toInt.toNat (50000 - 1) = min (Cert.Gnn.wrapWord (w (ix1 e))).toInt.toNat 49999
  rw [show colIdx e = ix2 e (0 : Fin 1) from rfl, col_apply, wrap_apply]

/-- THE PER-DESTINATION SUM of 128-wide rows, onto the zero array, through the raw destination words. -/
theorem segSum_apply (upd : S800000x128.Idx → EReal) (dst : S800000.Idx → BitVec 32) (v : Fin 50000) (q : Fin 128) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst) upd (ix2 v q)
      = Cert.Gnn.segSum (fun e => dst (ix1 e)) (fun e q => upd (ix2 e q)) v q := by
  refine (scatterAdd_rows_apply (B := 50000) (F := 128) (N := 800000)
    scatter_S50000x128_S800000x1_S800000x128_1_0_0_1.wf _ _ upd v q).trans ?_
  have hz : broadcastInDim S50000x128 ![] bcast_S_S50000x128 (constant (F := Ideal) S_ .f32 0x00000000#32) (ix2 v q) = 0 :=
    Ideal.ofBits_zero_f32
  rw [hz, zero_add]
  unfold Cert.Gnn.segSum
  refine Finset.sum_congr rfl fun e _ => ?_
  rw [show rowIdx e = ix2 e (0 : Fin 1) from rfl, col_apply]

/-- THE IN-DEGREE: the per-destination sum of ones. -/
theorem degree_apply (dst : S800000.Idx → BitVec 32) (v : Fin 50000) :
    Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)) (ix1 v)
      = Cert.Gnn.degree (fun e => dst (ix1 e)) v := by
  refine (scatterAdd_col_apply (N := 50000) (B := 800000)
    scatter_S50000_S800000x1_S800000_n_0_0_1.wf _ _ _ v).trans ?_
  have hz : broadcastInDim S50000 ![] bcast_S_S50000 (constant (F := Ideal) S_ .f32 0x00000000#32) (ix1 v) = 0 :=
    Ideal.ofBits_zero_f32
  rw [hz, zero_add]
  unfold Cert.Gnn.degree
  refine Finset.sum_congr rfl fun e _ => ?_
  rw [show colEntry e = ix2 e (0 : Fin 1) from rfl, col_apply]
  rfl

/-- THE IN-DEGREE TIMES THE STATE: the degree vector as a column, broadcast along the rows, times the state. -/
theorem degCol_mul_apply (d : FVec Ideal S50000 .f32) (x : FVec Ideal S50000x64 .f32) (v : Fin 50000) (k : Fin 64) :
    mulf (F := Ideal) (φ := .f32) (broadcastInDim S50000x64 ![0, 1] bcast_S50000x1_S50000x64_0_1
      (shapeCast S50000x1 d shapeCasts_S50000_S50000x1)) x (ix2 v k) = (d (ix1 v) * x (ix2 v k) : EReal) := by
  show (broadcastInDim S50000x64 ![0, 1] bcast_S50000x1_S50000x64_0_1
      (shapeCast S50000x1 d shapeCasts_S50000_S50000x1) (ix2 v k) * x (ix2 v k) : EReal) = _
  refine congrArg (fun y : EReal => y * x (ix2 v k)) ?_
  rw [broadcastInDim_apply _ _ _ _ (ix2 v (0 : Fin 1)) (fun a => by match a with | ⟨0, _⟩ => rfl | ⟨1, _⟩ => rfl)]
  refine shapeCast_apply _ _ _ (ix1 v) ?_
  rw [Shape.rowMajor_val_one, Shape.rowMajor_val_two]
  show v.val = v.val * 1 + 0
  omega

end Cert.KernelIdeal.HostReads

end
-- ==== Proof.KeptArgs.lean ====
/-
  Which buffers the host side of the kernel program leaves alone.

  The program's main function alternates stretches of host operations with four kernel launches.  A host stretch
  changes exactly the buffers its operations write; a launch changes exactly its output array.  Hence a buffer that
  no operation of a stretch writes holds after the stretch what it held before, and an array that a launch does not
  write (one it never touches, or one it only reads through an input window) holds after the launch what it held
  before.  This module proves, boundary by boundary, that each of the ten argument arrays holds its launch contents at
  every boundary of the main function, and that the five intermediate buffers that are produced in one segment and
  consumed in a later one (the converted edge features, the in-degree column, the two degree-scaled node states, and
  the first update's result) are carried unchanged across the segments in between.
-/
import proofs.«163931_j15083925143987_2_alg».proof.Proof.Gen.KernelIdeal.Frame

set_option maxRecDepth 16384

noncomputable section

namespace Cert.KernelIdeal.HostSide

open Idealize.ShloMosaic Idealize.ShloMosaic.TcCoe Idealize.SL.Sem Cert.KernelIdeal Cert.KernelIdeal.Gen

variable {F : FTy → Type} [FloatOps F]

/-! ## What each host stretch writes -/

/-- The buffers written by the operations of the first host stretch, in order. -/
abbrev written0 : List (Ref sig .tc) :=
  [main_call0_v0, main_call0_cst, main_call0_v1, main_call0_cst_0, main_call0_v2, main_call0_v3, main_call0_v4, main_call0_v5, main_call0_v6, main_call0_c, main_call0_v7, main_call0_v8, main_call0_c_1, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24, main_call0_v25, main_call0_v26]

/-- Every operation of the first host stretch writes one of the listed buffers. -/
theorem hostOps0_writes : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers written by the operations of the second host stretch, in order. -/
abbrev written1 : List (Ref sig .tc) :=
  [main_call0_v28, main_call0_cst_2, main_call0_v29, main_call0_v30, main_call0_v31, main_call0_v32, main_call0_v33, main_call0_v34, main_call0_v35, main_call0_v36, main_call0_v37, main_call0_v38, main_call0_v39, main_call0_v40, main_call0_v41, main_call0_v42, main_call0_v43, main_call0_v44, main_call0_v45, main_call0_v46, main_call0_v47, main_call0_v48, main_call0_v49, main_call0_v50, main_call0_v51, main_call0_v52, main_call0_v53, main_call0_v54, main_call0_v55, main_call0_v56, main_call0_v57, main_call0_v58, main_call0_v59, main_call0_v60, main_call0_v61, main_call0_v62, main_call0_v63, main_call0_v64, main_call0_v65, main_call0_v66, main_call0_v67, main_call0_v68, main_call0_v69, main_call0_v70, main_call0_v71, main_call0_v72, main_call0_v73, main_call0_v74]

/-- Every operation of the second host stretch writes one of the listed buffers. -/
theorem hostOps1_writes : (hostOps1 : List (HloOp τ sig (Elt F))).Forall fun op => op.writes ⊆ ((written1).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers written by the operations of the third host stretch, in order. -/
abbrev written2 : List (Ref sig .tc) :=
  [main_call0_v76, main_call0_c_3, main_call0_v77, main_call0_v78, main_call0_c_4, main_call0_v79, main_call0_v80, main_call0_v81, main_call0_v82, main_call0_v83, main_call0_v84, main_call0_v85, main_call0_v86, main_call0_v87, main_call0_v88, main_call0_v89, main_call0_v90, main_call0_v91, main_call0_v92, main_call0_v93, main_call0_v94, main_call0_v95, main_call0_v96]

/-- Every operation of the third host stretch writes one of the listed buffers. -/
theorem hostOps2_writes : (hostOps2 : List (HloOp τ sig (Elt F))).Forall fun op => op.writes ⊆ ((written2).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- The buffers written by the operations of the fourth host stretch, in order. -/
abbrev written3 : List (Ref sig .tc) :=
  [main_call0_v98, main_call0_cst_5, main_call0_v99, main_call0_v100, main_call0_v101, main_call0_v102, main_call0_v103, main_call0_v104, main_call0_v105, main_call0_v106, main_call0_v107, main_call0_v108, main_call0_v109, main_call0_v110, main_call0_v111, main_call0_v112, main_call0_v113, main_call0_v114, main_call0_v115, main_call0_v116, main_call0_v117, main_call0_v118, main_call0_v119, main_call0_v120, main_call0_v121, main_call0_v122, main_call0_v123, main_call0_v124, main_call0_v125, main_call0_v126, main_call0_v127, main_call0_v128, main_call0_v129, main_call0_v130, main_call0_v131, main_call0_v132, main_call0_v133, main_call0_v134, main_call0_v135, main_call0_v136, main_call0_v137, main_call0_v138, main_call0_v139, main_call0_v140, main_call0_v141, main_call0_v142, main_call0_v143, main_call0_v144]

/-- Every operation of the fourth host stretch writes one of the listed buffers. -/
theorem hostOps3_writes : (hostOps3 : List (HloOp τ sig (Elt F))).Forall fun op => op.writes ⊆ ((written3).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

variable (m : (ℓ : Loc nD τ sig) → Buf (Elt F) ℓ) (ρ : Dev nD → PrngReg)

/-! ## One step of the walk: a host stretch, or a launch -/

/-- A buffer the first host stretch does not write holds after it what it held at the launch of the program. -/
theorem keep_host0 (c : Dev nD) (b : Ref sig .tc) (h : b ∉ written0) :
    W1 m ρ c (Proc.devRef .tc b) = W0 m ρ c (Proc.devRef .tc b) :=
  StableHlo.after_of_writes_sub hostOps0 _ hostOps0_writes h
/-- A buffer the second host stretch does not write holds after it what it held when the first kernel ended. -/
theorem keep_host1 (c : Dev nD) (b : Ref sig .tc) (h : b ∉ written1) :
    W3 m ρ c (Proc.devRef .tc b) = W2 m ρ c (Proc.devRef .tc b) :=
  StableHlo.after_of_writes_sub hostOps1 _ hostOps1_writes h
/-- A buffer the third host stretch does not write holds after it what it held when the second kernel ended. -/
theorem keep_host2 (c : Dev nD) (b : Ref sig .tc) (h : b ∉ written2) :
    W5 m ρ c (Proc.devRef .tc b) = W4 m ρ c (Proc.devRef .tc b) :=
  StableHlo.after_of_writes_sub hostOps2 _ hostOps2_writes h
/-- A buffer the fourth host stretch does not write holds after it what it held when the third kernel ended. -/
theorem keep_host3 (c : Dev nD) (b : Ref sig .tc) (h : b ∉ written3) :
    W7 m ρ c (Proc.devRef .tc b) = W6 m ρ c (Proc.devRef .tc b) :=
  StableHlo.after_of_writes_sub hostOps3 _ hostOps3_writes h

/-- An array the first kernel only reads (an input window's array) ends the launch as it entered it. -/
theorem keep_in0 (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An array the second kernel only reads ends the launch as it entered it. -/
theorem keep_in1 (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- An array the third kernel only reads ends the launch as it entered it. -/
theorem keep_in2 (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ## The argument arrays at every boundary -/

/-- Argument 0 (the node states) holds its launch contents at each boundary of the main function. -/
theorem W1_main_arg0 (c : Dev nD) : W1 m ρ c (Proc.devRef .tc main_arg0) = m ((c : Thread nD τ).loc main_arg0) :=
  (keep_host0 m ρ c main_arg0 (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (keep_host1 m ρ c main_arg0 (by decide)).trans (W2_main_arg0 m ρ c)
theorem W4_main_arg0 (c : Dev nD) : W4 m ρ c (Proc.devRef .tc main_arg0) = m ((c : Thread nD τ).loc main_arg0) :=
  (keep_in1 m ρ c 2 rfl).trans (W3_main_arg0 m ρ c)
theorem W5_main_arg0 (c : Dev nD) : W5 m ρ c (Proc.devRef .tc main_arg0) = m ((c : Thread nD τ).loc main_arg0) :=
  (keep_host2 m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (keep_host3 m ρ c main_arg0 (by decide)).trans (W6_main_arg0 m ρ c)

/-- Argument 1 (the edge features) holds its launch contents at each boundary of the main function. -/
theorem W1_main_arg1 (c : Dev nD) : W1 m ρ c (Proc.devRef .tc main_arg1) = m ((c : Thread nD τ).loc main_arg1) :=
  (keep_host0 m ρ c main_arg1 (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (keep_host1 m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (keep_host2 m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (keep_host3 m ρ c main_arg1 (by decide)).trans (W6_main_arg1 m ρ c)

/-- Argument 2 (the source indices) holds its launch contents at each boundary of the main function. -/
theorem W1_main_arg2 (c : Dev nD) : W1 m ρ c (Proc.devRef .tc main_arg2) = m ((c : Thread nD τ).loc main_arg2) :=
  (keep_host0 m ρ c main_arg2 (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (keep_host1 m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (keep_host2 m ρ c main_arg2 (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (keep_host3 m ρ c main_arg2 (by decide)).trans (W6_main_arg2 m ρ c)

/-- Argument 3 (the destination indices) holds its launch contents at each boundary of the main function. -/
theorem W1_main_arg3 (c : Dev nD) : W1 m ρ c (Proc.devRef .tc main_arg3) = m ((c : Thread nD τ).loc main_arg3) :=
  (keep_host0 m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (keep_host1 m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (keep_host2 m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (keep_host3 m ρ c main_arg3 (by decide)).trans (W6_main_arg3 m ρ c)

/-- Argument 4 (the message weights) holds its launch contents at each boundary of the main function. -/
theorem W1_main_arg4 (c : Dev nD) : W1 m ρ c (Proc.devRef .tc main_arg4) = m ((c : Thread nD τ).loc main_arg4) :=
  (keep_host0 m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (keep_host1 m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (keep_host2 m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (keep_host3 m ρ c main_arg4 (by decide)).trans (W6_main_arg4 m ρ c)

/-- Argument 5 (the message biases) holds its launch contents at each boundary of the main function. -/
theorem W1_main_arg5 (c : Dev nD) : W1 m ρ c (Proc.devRef .tc main_arg5) = m ((c : Thread nD τ).loc main_arg5) :=
  (keep_host0 m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (keep_host1 m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (keep_host2 m ρ c main_arg5 (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (keep_host3 m ρ c main_arg5 (by decide)).trans (W6_main_arg5 m ρ c)

/-- Argument 6 (the input-to-hidden weights) holds its launch contents at each boundary of the main function. -/
theorem W1_main_arg6 (c : Dev nD) : W1 m ρ c (Proc.devRef .tc main_arg6) = m ((c : Thread nD τ).loc main_arg6) :=
  (keep_host0 m ρ c main_arg6 (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (keep_host1 m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (keep_host2 m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (keep_host3 m ρ c main_arg6 (by decide)).trans (W6_main_arg6 m ρ c)

/-- Argument 7 (the hidden-to-hidden weights) holds its launch contents at each boundary of the main function. -/
theorem W1_main_arg7 (c : Dev nD) : W1 m ρ c (Proc.devRef .tc main_arg7) = m ((c : Thread nD τ).loc main_arg7) :=
  (keep_host0 m ρ c main_arg7 (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (keep_host1 m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (keep_host2 m ρ c main_arg7 (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (keep_host3 m ρ c main_arg7 (by decide)).trans (W6_main_arg7 m ρ c)

/-- Argument 8 (the input-to-hidden biases) holds its launch contents at each boundary of the main function. -/
theorem W1_main_arg8 (c : Dev nD) : W1 m ρ c (Proc.devRef .tc main_arg8) = m ((c : Thread nD τ).loc main_arg8) :=
  (keep_host0 m ρ c main_arg8 (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (keep_host1 m ρ c main_arg8 (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (keep_host2 m ρ c main_arg8 (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (keep_host3 m ρ c main_arg8 (by decide)).trans (W6_main_arg8 m ρ c)

/-- Argument 9 (the hidden-to-hidden biases) holds its launch contents at each boundary of the main function. -/
theorem W1_main_arg9 (c : Dev nD) : W1 m ρ c (Proc.devRef .tc main_arg9) = m ((c : Thread nD τ).loc main_arg9) :=
  (keep_host0 m ρ c main_arg9 (by decide)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (keep_host1 m ρ c main_arg9 (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (keep_host2 m ρ c main_arg9 (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (keep_host3 m ρ c main_arg9 (by decide)).trans (W6_main_arg9 m ρ c)

/-! ## The intermediate buffers that cross segments -/

/-- The converted edge features, produced by the first host stretch, are still in place when the third kernel
    starts: the first and the third kernel only read them, nothing in between writes them. -/
theorem W2_v0 (c : Dev nD) : W2 m ρ c (Proc.devRef .tc main_call0_v0) = W1 m ρ c (Proc.devRef .tc main_call0_v0) :=
  keep_in0 m ρ c 1 rfl
theorem W3_v0 (c : Dev nD) : W3 m ρ c (Proc.devRef .tc main_call0_v0) = W1 m ρ c (Proc.devRef .tc main_call0_v0) :=
  (keep_host1 m ρ c main_call0_v0 (by decide)).trans (W2_v0 m ρ c)
theorem W4_v0 (c : Dev nD) : W4 m ρ c (Proc.devRef .tc main_call0_v0) = W1 m ρ c (Proc.devRef .tc main_call0_v0) :=
  (W4_of_ne m ρ c main_call0_v0 (by decide)).trans (W3_v0 m ρ c)
theorem W5_v0 (c : Dev nD) : W5 m ρ c (Proc.devRef .tc main_call0_v0) = W1 m ρ c (Proc.devRef .tc main_call0_v0) :=
  (keep_host2 m ρ c main_call0_v0 (by decide)).trans (W4_v0 m ρ c)
/-- The same, read as the entry contents of the third kernel against those of the first. -/
theorem V5_v0 (c : Dev nD) : V5 m ρ c main_call0_v0 = V1 m ρ c main_call0_v0 :=
  W5_v0 m ρ c

/-- The in-degree column, produced by the first host stretch, is still in place when the third host stretch
    reads it. -/
theorem W2_v5 (c : Dev nD) : W2 m ρ c (Proc.devRef .tc main_call0_v5) = W1 m ρ c (Proc.devRef .tc main_call0_v5) :=
  W2_of_ne m ρ c main_call0_v5 (by decide)
theorem W3_v5 (c : Dev nD) : W3 m ρ c (Proc.devRef .tc main_call0_v5) = W1 m ρ c (Proc.devRef .tc main_call0_v5) :=
  (keep_host1 m ρ c main_call0_v5 (by decide)).trans (W2_v5 m ρ c)
theorem W4_v5 (c : Dev nD) : W4 m ρ c (Proc.devRef .tc main_call0_v5) = W1 m ρ c (Proc.devRef .tc main_call0_v5) :=
  (W4_of_ne m ρ c main_call0_v5 (by decide)).trans (W3_v5 m ρ c)

/-- The degree-scaled node states of the first round, produced by the first host stretch, are still in place
    when the second kernel reads them. -/
theorem W2_v15 (c : Dev nD) : W2 m ρ c (Proc.devRef .tc main_call0_v15) = W1 m ρ c (Proc.devRef .tc main_call0_v15) :=
  W2_of_ne m ρ c main_call0_v15 (by decide)
theorem W3_v15 (c : Dev nD) : W3 m ρ c (Proc.devRef .tc main_call0_v15) = W1 m ρ c (Proc.devRef .tc main_call0_v15) :=
  (keep_host1 m ρ c main_call0_v15 (by decide)).trans (W2_v15 m ρ c)

/-- The node states after the first round (the second kernel's output) are still in place when the fourth kernel
    reads them. -/
theorem W5_v75 (c : Dev nD) : W5 m ρ c (Proc.devRef .tc main_call0_v75) = W4 m ρ c (Proc.devRef .tc main_call0_v75) :=
  keep_host2 m ρ c main_call0_v75 (by decide)
theorem W6_v75 (c : Dev nD) : W6 m ρ c (Proc.devRef .tc main_call0_v75) = W4 m ρ c (Proc.devRef .tc main_call0_v75) :=
  (W6_of_ne m ρ c main_call0_v75 (by decide)).trans (W5_v75 m ρ c)
theorem W7_v75 (c : Dev nD) : W7 m ρ c (Proc.devRef .tc main_call0_v75) = W4 m ρ c (Proc.devRef .tc main_call0_v75) :=
  (keep_host3 m ρ c main_call0_v75 (by decide)).trans (W6_v75 m ρ c)

/-- The degree-scaled node states of the second round, produced by the third host stretch, are still in place
    when the fourth kernel reads them. -/
theorem W6_v85 (c : Dev nD) : W6 m ρ c (Proc.devRef .tc main_call0_v85) = W5 m ρ c (Proc.devRef .tc main_call0_v85) :=
  W6_of_ne m ρ c main_call0_v85 (by decide)
theorem W7_v85 (c : Dev nD) : W7 m ρ c (Proc.devRef .tc main_call0_v85) = W5 m ρ c (Proc.devRef .tc main_call0_v85) :=
  (keep_host3 m ρ c main_call0_v85 (by decide)).trans (W6_v85 m ρ c)

end Cert.KernelIdeal.HostSide
-- ==== Proof.DataPath.lean ====
/-
  What the kernel program's data-carrying windows hold when each region is entered, read at an entry in terms of
  the argument arrays and of the arrays the earlier regions left: the gathered source rows, the edge features,
  the per-destination sums of the message rows, the in-degree times the state, and the state itself.
-/
import proofs.«163931_j15083925143987_2_alg».proof.Proof.Gen.KernelIdeal.Frame
import proofs.«163931_j15083925143987_2_alg».proof.Proof.HostReads
import proofs.«163931_j15083925143987_2_alg».proof.Proof.KeptArgs

set_option maxRecDepth 16384

noncomputable section

namespace Cert.KernelIdeal.DataPath

open Idealize.ShloMosaic Idealize.ShloMosaic.TcCoe Idealize.ShloMosaic.Tactic Idealize.ShloMosaic.ValueIdx Idealize.SL.Sem
open Cert.KernelIdeal Cert.KernelIdeal.Gen Cert.KernelIdeal.HostReads Cert.KernelIdeal.HostSide

variable (m : (ℓ : Loc nD τ sig) → Buf (Elt Ideal) ℓ) (ρ : Dev nD → PrngReg)

/-- The ten argument arrays of core `c` in the launch memory. -/
def argsOf (c : Dev nD) : Cert.Gnn.Args where
  hv := m ((c : Thread nD τ).loc main_arg0)
  he := m ((c : Thread nD τ).loc main_arg1)
  src := m ((c : Thread nD τ).loc main_arg2)
  dst := m ((c : Thread nD τ).loc main_arg3)
  wm := m ((c : Thread nD τ).loc main_arg4)
  bm := m ((c : Thread nD τ).loc main_arg5)
  wih := m ((c : Thread nD τ).loc main_arg6)
  whh := m ((c : Thread nD τ).loc main_arg7)
  bih := m ((c : Thread nD τ).loc main_arg8)
  bhh := m ((c : Thread nD τ).loc main_arg9)

/-- The state array region 1 leaves (the first round's result). -/
abbrev state1 (c : Dev nD) : S50000x64.Idx → EReal := (dat1 (F := Ideal) (V3 m ρ) c).arrAt 16 cfg1.N

/-- The message array region 0 leaves. -/
abbrev msgs0 (c : Dev nD) : S800000x128.Idx → EReal := (dat0 (F := Ideal) (V1 m ρ) c).arrAt 5 cfg0.N

/-- The message array region 2 leaves. -/
abbrev msgs2 (c : Dev nD) : S800000x128.Idx → EReal := (dat2 (F := Ideal) (V5 m ρ) c).arrAt 5 cfg2.N

/-- The in-degree vector as the host computes it: ones scattered by addition through the destination words. -/
def degVec (c : Dev nD) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (argsOf m c).dst)
    (broadcastInDim S800000 ![] bcast_S_S800000 (constant (F := Ideal) S_ .f32 0x3F800000#32))

theorem degVec_apply (c : Dev nD) (v : Fin 50000) :
    degVec m c (ix1 v) = Cert.Gnn.degree (fun e => (argsOf m c).dst (ix1 e)) v :=
  degree_apply _ v

/-! ## The data results of the first and third host stretches, from arbitrary starting contents

Each is read off the stretch's operations with the starting contents a variable, so that the comparison of the two
sides never looks inside the contents of an array. -/

/-- Contents carried to the in-degree vector's buffer are the contents. -/
theorem toBuf_v4 (X : FVec Ideal S50000 .f32) :
    @Eq (FVec Ideal S50000 .f32)
      ((StableHlo.TRef.of main_call0_v4 : StableHlo.TRef sig ⟨S50000, .f32⟩).toBuf (Val := Elt Ideal) X) X := rfl

/-- Ones scattered by addition through the destination words `d`. -/
abbrev degOf (d : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The source words wrapped into range: a negative word has the number of nodes added. -/
abbrev wrapOf (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- After the first host stretch the in-degree column is the in-degree vector as a column. -/
theorem stretch0_degCol (Wv : Valuation τ sig (Elt Ideal)) :
    @Eq (S50000x1.Idx → EReal) (StableHlo.after hostOps0 Wv (Proc.devRef .tc main_call0_v5))
      (shapeCast S50000x1 ((StableHlo.TRef.of main_call0_v4 : StableHlo.TRef sig ⟨S50000, .f32⟩).toBuf (Val := Elt Ideal)
        (degOf (Wv (Proc.devRef .tc main_arg3) : IVec S800000 32))) shapeCasts_S50000_S50000x1) := by
  after_results
  rfl

/-- Contents carried to a buffer's own type, or read back from it, are the contents (the buffers of the scaled state's
    chain). -/
theorem toBuf_v15 (X : FVec Ideal S50000x64 .f32) :
    @Eq (FVec Ideal S50000x64 .f32)
      ((StableHlo.TRef.of main_call0_v15 : StableHlo.TRef sig ⟨S50000x64, .f32⟩).toBuf (Val := Elt Ideal) X) X := rfl
theorem toBuf_v14 (X : FVec Ideal S50000x64 .f32) :
    @Eq (FVec Ideal S50000x64 .f32)
      ((StableHlo.TRef.of main_call0_v14 : StableHlo.TRef sig ⟨S50000x64, .f32⟩).toBuf (Val := Elt Ideal) X) X := rfl
theorem ofBuf_v14 (X : FVec Ideal S50000x64 .f32) :
    @Eq (FVec Ideal S50000x64 .f32)
      ((StableHlo.TRef.of main_call0_v14 : StableHlo.TRef sig ⟨S50000x64, .f32⟩).ofBuf (Val := Elt Ideal) X) X := rfl
theorem ofBuf_v5 (X : FVec Ideal S50000x1 .f32) :
    @Eq (FVec Ideal S50000x1 .f32)
      ((StableHlo.TRef.of main_call0_v5 : StableHlo.TRef sig ⟨S50000x1, .f32⟩).ofBuf (Val := Elt Ideal) X) X := rfl
theorem ofBuf_arg0 (X : FVec Ideal S50000x64 .f32) :
    @Eq (FVec Ideal S50000x64 .f32)
      ((StableHlo.TRef.of main_arg0 : StableHlo.TRef sig ⟨S50000x64, .f32⟩).ofBuf (Val := Elt Ideal) X) X := rfl

set_option maxHeartbeats 1000000 in
/-- After the first host stretch the scaled state is the in-degree column the stretch leaves, spread along the rows,
    times the state. -/
theorem stretch0_scaled (Wv : Valuation τ sig (Elt Ideal)) :
    @Eq (S50000x64.Idx → EReal) (StableHlo.after hostOps0 Wv (Proc.devRef .tc main_call0_v15))
      (mulf (F := Ideal) (φ := .f32) (broadcastInDim S50000x64 ![0, 1] bcast_S50000x1_S50000x64_0_1
        (StableHlo.after hostOps0 Wv (Proc.devRef .tc main_call0_v5) : FVec Ideal S50000x1 .f32))
        (Wv (Proc.devRef .tc main_arg0) : FVec Ideal S50000x64 .f32)) := by
  after_results_simp
  rw [toBuf_v15, ofBuf_v14, toBuf_v14, ofBuf_v5, ofBuf_arg0]

/-- After the third host stretch the gathered rows are the rows of the converted first-round state at the wrapped
    source words. -/
theorem stretch2_gathered (Wv : Valuation τ sig (Elt Ideal)) :
    @Eq (S800000x64.Idx → EReal) (StableHlo.after hostOps2 Wv (Proc.devRef .tc main_call0_v83))
      (Host.gather gather_S50000x64_S800000x1_S800000x64_1_0_n_n_0_1_164
          (truncf (F := Ideal) .bf16 (Wv (Proc.devRef .tc main_call0_v75) : FVec Ideal S50000x64 .f32) bitsLt_bf16_f32)
          (broadcastInDim S800000x1 ![0] bcast_S800000_S800000x1_0
            (wrapOf (Wv (Proc.devRef .tc main_arg2) : IVec S800000 32)))) := by
  after_results
  rfl

/-- After the third host stretch the scaled state is the in-degree column, spread along the rows, times the
    first-round state. -/
theorem stretch2_scaled (Wv : Valuation τ sig (Elt Ideal)) :
    @Eq (S50000x64.Idx → EReal) (StableHlo.after hostOps2 Wv (Proc.devRef .tc main_call0_v85))
      (mulf (F := Ideal) (φ := .f32) (broadcastInDim S50000x64 ![0, 1] bcast_S50000x1_S50000x64_0_1
        (Wv (Proc.devRef .tc main_call0_v5) : FVec Ideal S50000x1 .f32))
        (Wv (Proc.devRef .tc main_call0_v75) : FVec Ideal S50000x64 .f32)) := by
  after_results
  rfl

/-- The in-degree column the first stretch leaves. -/
theorem degCol (c : Dev nD) :
    @Eq (S50000x1.Idx → EReal) (W1 m ρ c (Proc.devRef .tc main_call0_v5))
      (shapeCast S50000x1 (degVec m c) shapeCasts_S50000_S50000x1) := by
  have h := stretch0_degCol (W0 m ρ c)
  rw [toBuf_v4] at h
  exact h

/-! ## Round 0 -/

/-- Region 0's first window holds the state rows gathered through the source words. -/
theorem src_rows0 (c : Dev nD) (e : Fin 800000) (k : Fin 64) :
    (V1 m ρ c (Pipeline.arrRef spec0 0) : S800000x64.Idx → EReal) (ix2 e k)
      = (argsOf m c).hv (ix2 (Cert.Gnn.rowOf ((argsOf m c).src (ix1 e))) k) := by
  have h : @Eq (S800000x64.Idx → EReal) (V1 m ρ c (Pipeline.arrRef spec0 0))
      (Host.gather gather_S50000x64_S800000x1_S800000x64_1_0_n_n_0_1_164
          (truncf (F := Ideal) .bf16 ((argsOf m c).hv : FVec Ideal S50000x64 .f32) bitsLt_bf16_f32)
          (broadcastInDim S800000x1 ![0] bcast_S800000_S800000x1_0
            (select (cmpi .slt (argsOf m c).src (broadcastInDim S800000 ![] bcast_S_S800000 (constantI S_ 32 0#32)))
              (addi (argsOf m c).src (broadcastInDim S800000 ![] bcast_S_S800000 (constantI S_ 32 50000#32))) (argsOf m c).src))) := by
    show StableHlo.after hostOps0 (W0 m ρ c) (Proc.devRef .tc main_call0_v13) = _
    after_results
    rfl
  rw [h]
  exact gatherRows_apply _ _ e k

/-- Region 0's second window holds the edge features. -/
theorem he_rows0 (c : Dev nD) (e : Fin 800000) (k : Fin 64) :
    (V1 m ρ c (Pipeline.arrRef spec0 1) : S800000x64.Idx → EReal) (ix2 e k) = (argsOf m c).he (ix2 e k) := by
  have h : @Eq (S800000x64.Idx → EReal) (V1 m ρ c (Pipeline.arrRef spec0 1))
      (truncf (F := Ideal) .bf16 ((argsOf m c).he : FVec Ideal S800000x64 .f32) bitsLt_bf16_f32) := by
    show StableHlo.after hostOps0 (W0 m ρ c) (Proc.devRef .tc main_call0_v0) = _
    after_results
    rfl
  rw [h]
  rfl

/-- Region 1's first window holds the per-destination sums of region 0's message rows. -/
theorem agg1 (c : Dev nD) (v : Fin 50000) (q : Fin 128) :
    (V3 m ρ c (Pipeline.arrRef spec1 0) : S50000x128.Idx → EReal) (ix2 v q)
      = Cert.Gnn.segSum (fun e => (argsOf m c).dst (ix1 e)) (fun e q => msgs0 m ρ c (ix2 e q)) v q := by
  have h : @Eq (S50000x128.Idx → EReal) (V3 m ρ c (Pipeline.arrRef spec1 0))
      (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0
          (W2 m ρ c (Proc.devRef .tc main_arg3) : IVec S800000 32))
        (extf (F := Ideal) .f32 (W2 m ρ c (Proc.devRef .tc main_call0_v27) : FVec Ideal S800000x128 .bf16) bitsLt_bf16_f32)) := by
    show StableHlo.after hostOps1 (W2 m ρ c) (Proc.devRef .tc main_call0_v31) = _
    after_results
    rfl
  rw [h, W2_main_arg3 m ρ c, show W2 m ρ c (Proc.devRef .tc main_call0_v27) = msgs0 m ρ c from W2_arr m ρ c 5]
  exact segSum_apply _ _ v q

/-- Region 1's second window holds the in-degree times the state. -/
theorem dhv1 (c : Dev nD) (v : Fin 50000) (k : Fin 64) :
    (V3 m ρ c (Pipeline.arrRef spec1 1) : S50000x64.Idx → EReal) (ix2 v k)
      = Cert.Gnn.degree (fun e => (argsOf m c).dst (ix1 e)) v * (argsOf m c).hv (ix2 v k) := by
  have h : @Eq (S50000x64.Idx → EReal) (W1 m ρ c (Proc.devRef .tc main_call0_v15))
      (mulf (F := Ideal) (φ := .f32) (broadcastInDim S50000x64 ![0, 1] bcast_S50000x1_S50000x64_0_1
        (shapeCast S50000x1 (degVec m c) shapeCasts_S50000_S50000x1)) ((argsOf m c).hv : FVec Ideal S50000x64 .f32)) := by
    have h0 : @Eq (S50000x64.Idx → EReal) (W1 m ρ c (Proc.devRef .tc main_call0_v15))
        (mulf (F := Ideal) (φ := .f32) (broadcastInDim S50000x64 ![0, 1] bcast_S50000x1_S50000x64_0_1
          (W1 m ρ c (Proc.devRef .tc main_call0_v5) : FVec Ideal S50000x1 .f32))
          (W0 m ρ c (Proc.devRef .tc main_arg0) : FVec Ideal S50000x64 .f32)) := stretch0_scaled (W0 m ρ c)
    rw [degCol m ρ c] at h0
    exact h0
  show (W3 m ρ c (Proc.devRef .tc main_call0_v15) : S50000x64.Idx → EReal) (ix2 v k) = _
  rw [W3_v15 m ρ c, h, degCol_mul_apply, degVec_apply]

/-- Region 1's third window holds the state. -/
theorem hv1 (c : Dev nD) : @Eq (S50000x64.Idx → EReal) (V3 m ρ c (Pipeline.arrRef spec1 2)) (argsOf m c).hv :=
  W3_main_arg0 m ρ c

/-! ## Round 1 -/

/-- Region 2's first window holds the first round's state rows gathered through the source words. -/
theorem src_rows2 (c : Dev nD) (e : Fin 800000) (k : Fin 64) :
    (V5 m ρ c (Pipeline.arrRef spec2 0) : S800000x64.Idx → EReal) (ix2 e k)
      = state1 m ρ c (ix2 (Cert.Gnn.rowOf ((argsOf m c).src (ix1 e))) k) := by
  have h : @Eq (S800000x64.Idx → EReal) (V5 m ρ c (Pipeline.arrRef spec2 0))
      (Host.gather gather_S50000x64_S800000x1_S800000x64_1_0_n_n_0_1_164
          (truncf (F := Ideal) .bf16 (W4 m ρ c (Proc.devRef .tc main_call0_v75) : FVec Ideal S50000x64 .f32) bitsLt_bf16_f32)
          (broadcastInDim S800000x1 ![0] bcast_S800000_S800000x1_0
            (select (cmpi .slt (W4 m ρ c (Proc.devRef .tc main_arg2) : IVec S800000 32) (broadcastInDim S800000 ![] bcast_S_S800000 (constantI S_ 32 0#32)))
              (addi (W4 m ρ c (Proc.devRef .tc main_arg2) : IVec S800000 32) (broadcastInDim S800000 ![] bcast_S_S800000 (constantI S_ 32 50000#32)))
              (W4 m ρ c (Proc.devRef .tc main_arg2) : IVec S800000 32)))) := by
    exact stretch2_gathered (W4 m ρ c)
  rw [h, W4_main_arg2 m ρ c, show W4 m ρ c (Proc.devRef .tc main_call0_v75) = state1 m ρ c from W4_arr m ρ c 16]
  exact gatherRows_apply _ _ e k

/-- Region 2's second window still holds the edge features. -/
theorem he_rows2 (c : Dev nD) (e : Fin 800000) (k : Fin 64) :
    (V5 m ρ c (Pipeline.arrRef spec2 1) : S800000x64.Idx → EReal) (ix2 e k) = (argsOf m c).he (ix2 e k) := by
  show (V5 m ρ c main_call0_v0 : S800000x64.Idx → EReal) (ix2 e k) = _
  rw [V5_v0 m ρ c]
  exact he_rows0 m ρ c e k

/-- Region 3's first window holds the per-destination sums of region 2's message rows. -/
theorem agg3 (c : Dev nD) (v : Fin 50000) (q : Fin 128) :
    (V7 m ρ c (Pipeline.arrRef spec3 0) : S50000x128.Idx → EReal) (ix2 v q)
      = Cert.Gnn.segSum (fun e => (argsOf m c).dst (ix1 e)) (fun e q => msgs2 m ρ c (ix2 e q)) v q := by
  have h : @Eq (S50000x128.Idx → EReal) (V7 m ρ c (Pipeline.arrRef spec3 0))
      (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0
          (W6 m ρ c (Proc.devRef .tc main_arg3) : IVec S800000 32))
        (extf (F := Ideal) .f32 (W6 m ρ c (Proc.devRef .tc main_call0_v97) : FVec Ideal S800000x128 .bf16) bitsLt_bf16_f32)) := by
    show StableHlo.after hostOps3 (W6 m ρ c) (Proc.devRef .tc main_call0_v101) = _
    after_results
    rfl
  rw [h, W6_main_arg3 m ρ c, show W6 m ρ c (Proc.devRef .tc main_call0_v97) = msgs2 m ρ c from W6_arr m ρ c 5]
  exact segSum_apply _ _ v q

/-- Region 3's second window holds the in-degree times the first round's state. -/
theorem dhv3 (c : Dev nD) (v : Fin 50000) (k : Fin 64) :
    (V7 m ρ c (Pipeline.arrRef spec3 1) : S50000x64.Idx → EReal) (ix2 v k)
      = Cert.Gnn.degree (fun e => (argsOf m c).dst (ix1 e)) v * state1 m ρ c (ix2 v k) := by
  have h : @Eq (S50000x64.Idx → EReal) (W5 m ρ c (Proc.devRef .tc main_call0_v85))
      (mulf (F := Ideal) (φ := .f32) (broadcastInDim S50000x64 ![0, 1] bcast_S50000x1_S50000x64_0_1
        (W4 m ρ c (Proc.devRef .tc main_call0_v5) : FVec Ideal S50000x1 .f32))
        (W4 m ρ c (Proc.devRef .tc main_call0_v75) : FVec Ideal S50000x64 .f32)) := by
    exact stretch2_scaled (W4 m ρ c)
  show (W7 m ρ c (Proc.devRef .tc main_call0_v85) : S50000x64.Idx → EReal) (ix2 v k) = _
  rw [W7_v85 m ρ c, h, W4_v5 m ρ c, degCol m ρ c,
    show W4 m ρ c (Proc.devRef .tc main_call0_v75) = state1 m ρ c from W4_arr m ρ c 16, degCol_mul_apply, degVec_apply]

/-- Region 3's third window holds the first round's state. -/
theorem hv3 (c : Dev nD) : @Eq (S50000x64.Idx → EReal) (V7 m ρ c (Pipeline.arrRef spec3 2)) (state1 m ρ c) := by
  show W7 m ρ c (Proc.devRef .tc main_call0_v75) = _
  rw [W7_v75 m ρ c]
  exact W4_arr m ρ c 16

end Cert.KernelIdeal.DataPath

end
-- ==== Proof.MsgValue.lean ====
/-
  The message kernel's output array as one function of the buffers the region starts from.

  At a grid point the body loads a block of 8000 rows of each of the two row inputs and the whole of the two weight
  matrices and of the bias row, and stores, at row r and column q of the block,
  (∑ k, xs r k · ws k q) + (∑ k, xe r k · we k q) + b q:
  two products into zero accumulators, added, plus the bias row broadcast down the rows; the changes of format are the
  identity on extended reals. Block t of the row windows holds rows 8000·t … 8000·t + 7999 and the weight and bias
  windows stay at block 0, so the 100 blocks written back tile the output array and every entry (e, q) of it is the
  message of edge e in column q.
-/
import proofs.«163931_j15083925143987_2_alg».proof.Proof.Gen.KernelIdeal.Frame
import proofs.«163931_j15083925143987_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MsgValue

open Idealize.ShloMosaic Idealize.ShloMosaic.TcCoe Idealize.ShloMosaic.ValueIdx Idealize.SL.Sem Cert.KernelIdeal Cert.KernelIdeal.Gen

/-- The block product's dimension numbers: rows × contraction times contraction × columns. -/
abbrev D : DotDims S8000x64 S64x128 S8000x128 := dot_S8000x64_S64x128_S8000x128_1_0_0_1_n_n

/-- The operands' coordinates at an output index and a contraction index. -/
theorem lhs_0 (i : S8000x128.Idx) (p : D.contr.Idx) : (D.lhsIdx i p 0).val = (i 0).val := by
  unfold DotDims.lhsIdx
  rw [dif_neg (show ¬(0 : Fin S8000x64.rank) ∈ D.lhsBatch by decide), dif_pos (show (0 : Fin S8000x64.rank) ∈ D.lhsNonContracting by decide)]
  rfl
theorem lhs_1 (i : S8000x128.Idx) (p : D.contr.Idx) : (D.lhsIdx i p 1).val = (p ⟨0, by decide⟩).val :=
  D.lhsIdx_val_of_single rfl i p
theorem rhs_0 (i : S8000x128.Idx) (p : D.contr.Idx) : (D.rhsIdx i p 0).val = (p ⟨0, by decide⟩).val :=
  D.rhsIdx_val_of_single rfl i p
theorem rhs_1 (i : S8000x128.Idx) (p : D.contr.Idx) : (D.rhsIdx i p 1).val = (i 1).val := by
  unfold DotDims.rhsIdx
  rw [dif_neg (show ¬(1 : Fin S64x128.rank) ∈ D.rhsBatch by decide), dif_pos (show (1 : Fin S64x128.rank) ∈ D.rhsNonContracting by decide)]
  rfl

/-- One block product into a zero accumulator, read at row `r` and column `q`: the 64-term sum. -/
theorem matmul_zero_apply (x : FVec Ideal S8000x64 .bf16) (w : FVec Ideal S64x128 .bf16) (r : Fin 8000) (q : Fin 128) :
    matmul D none x w (constant (F := Ideal) S8000x128 .f32 0x00000000#32) (ix2 r q)
      = ∑ k : Fin 64, x (ix2 r k) * w (ix2 k q) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 r q) ((contrEquiv1 D 64 rfl rfl).symm k) = ix2 r k := funext fun a => Fin.ext (by
    match a with
    | ⟨0, _⟩ => exact lhs_0 _ _
    | ⟨1, _⟩ => exact (lhs_1 _ _).trans hk)
  have er : D.rhsIdx (ix2 r q) ((contrEquiv1 D 64 rfl rfl).symm k) = ix2 k q := funext fun a => Fin.ext (by
    match a with
    | ⟨0, _⟩ => exact (rhs_0 _ _).trans hk
    | ⟨1, _⟩ => exact rhs_1 _ _)
  rw [el, er]

/-- The bias row broadcast down the rows, read at `(r, q)`, is the bias at column `q`. -/
theorem bias_apply (b : FVec Ideal S1x128 .f32) (r : Fin 8000) (q : Fin 128) :
    broadcastTo S8000x128 b broadcasts_S1x128_S8000x128 (ix2 r q) = b (ix2 (0 : Fin 1) q) := by
  refine broadcastTo_apply b _ (ix2 r q) (ix2 (0 : Fin 1) q) fun a => ?_
  match a with
  | ⟨0, _⟩ => rfl
  | ⟨1, _⟩ => rfl

/-- THE BODY'S STORED VALUE at row `r` and column `q` of the block, from the loaded blocks. -/
theorem pay_apply (x0 : Vec Ideal S8000x64 .bf16) (w0 : Vec Ideal S64x128 .bf16) (x1 : Vec Ideal S8000x64 .bf16)
    (w1 : Vec Ideal S64x128 .bf16) (b : Vec Ideal S1x128 .f32) (r : Fin 8000) (q : Fin 128) :
    k0_pay1 (F := Ideal) x0 w0 x1 w1 b (ix2 r q)
      = ((∑ k : Fin 64, x0 (ix2 r k) * w0 (ix2 k q)) + ∑ k : Fin 64, x1 (ix2 r k) * w1 (ix2 k q)) + b (ix2 (0 : Fin 1) q) := by
  unfold k0_pay1
  simp only [shapeCast_self]
  show (matmul D none x0 w0 (constant (F := Ideal) S8000x128 .f32 0x00000000#32) (ix2 r q)
      + matmul D none x1 w1 (constant (F := Ideal) S8000x128 .f32 0x00000000#32) (ix2 r q))
      + broadcastTo S8000x128 b broadcasts_S1x128_S8000x128 (ix2 r q) = _
  rw [matmul_zero_apply, matmul_zero_apply, bias_apply]

/-- Region 2's body stores the same value. -/
theorem pay2_apply (x0 : Vec Ideal S8000x64 .bf16) (w0 : Vec Ideal S64x128 .bf16) (x1 : Vec Ideal S8000x64 .bf16)
    (w1 : Vec Ideal S64x128 .bf16) (b : Vec Ideal S1x128 .f32) (r : Fin 8000) (q : Fin 128) :
    k2_pay1 (F := Ideal) x0 w0 x1 w1 b (ix2 r q)
      = ((∑ k : Fin 64, x0 (ix2 r k) * w0 (ix2 k q)) + ∑ k : Fin 64, x1 (ix2 r k) * w1 (ix2 k q)) + b (ix2 (0 : Fin 1) q) :=
  pay_apply x0 w0 x1 w1 b r q

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-! ## Region 0 -/

/-- The printed index maps of region 0, decided over its 100 grid points: the two row windows and the output window are
    at block `t` of the row axis, the weight and bias windows stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output array's entries as one function of the buffers the region starts from. -/
def G0 (c : Dev nD) : S800000x128.Idx → EReal := fun i =>
  Cert.Gnn.msgRows
    (fun e k => (V c (Pipeline.arrRef spec0 0) : S800000x64.Idx → EReal) (ix2 e k))
    (fun e k => (V c (Pipeline.arrRef spec0 1) : S800000x64.Idx → EReal) (ix2 e k))
    (fun k q => (V c (Pipeline.arrRef spec0 2) : S64x128.Idx → EReal) (ix2 k q))
    (fun k q => (V c (Pipeline.arrRef spec0 3) : S64x128.Idx → EReal) (ix2 k q))
    (fun q => (V c (Pipeline.arrRef spec0 4) : S1x128.Idx → EReal) (ix2 (0 : Fin 1) q)) (i 0) (i 1)

/-- Row `r` of the first row window's block at point `t` is row `8000·t + r` of its array. -/
theorem blk0_0_apply (c : Dev nD) (t : Fin cfg0.N) (r : Fin 8000) (k : Fin 64) (e : Fin 800000)
    (he : e.val = 8000 * t.val + r.val) :
    (iblk0 (F := Ideal) V c 0 t : S8000x64.Idx → EReal) (ix2 r k)
      = (V c (Pipeline.arrRef spec0 0) : S800000x64.Idx → EReal) (ix2 e k) := by
  obtain ⟨h0, h1, -⟩ := idx_facts0 t
  unfold iblk0
  rw [View.read_apply]
  show (V c (Pipeline.arrRef spec0 0) : S800000x64.Idx → EReal) _ = _
  refine congrArg _ (funext fun a => Fin.ext ?_)
  match a with
  | ⟨0, _⟩ => show win0_0.index t (0 : Fin 2) * 8000 + 1 * r.val = e.val; rw [h0, he]; omega
  | ⟨1, _⟩ => show win0_0.index t (1 : Fin 2) * 64 + 1 * k.val = k.val; rw [h1]; omega

/-- Row `r` of the second row window's block at point `t` is row `8000·t + r` of its array. -/
theorem blk0_1_apply (c : Dev nD) (t : Fin cfg0.N) (r : Fin 8000) (k : Fin 64) (e : Fin 800000)
    (he : e.val = 8000 * t.val + r.val) :
    (iblk0 (F := Ideal) V c 1 t : S8000x64.Idx → EReal) (ix2 r k)
      = (V c (Pipeline.arrRef spec0 1) : S800000x64.Idx → EReal) (ix2 e k) := by
  obtain ⟨-, -, h0, h1, -⟩ := idx_facts0 t
  unfold iblk0
  rw [View.read_apply]
  show (V c (Pipeline.arrRef spec0 1) : S800000x64.Idx → EReal) _ = _
  refine congrArg _ (funext fun a => Fin.ext ?_)
  match a with
  | ⟨0, _⟩ => show win0_1.index t (0 : Fin 2) * 8000 + 1 * r.val = e.val; rw [h0, he]; omega
  | ⟨1, _⟩ => show win0_1.index t (1 : Fin 2) * 64 + 1 * k.val = k.val; rw [h1]; omega

/-- The first weight window's block at every point is its whole array. -/
theorem blk0_2_apply (c : Dev nD) (t : Fin cfg0.N) (k : Fin 64) (q : Fin 128) :
    (iblk0 (F := Ideal) V c 2 t : S64x128.Idx → EReal) (ix2 k q)
      = (V c (Pipeline.arrRef spec0 2) : S64x128.Idx → EReal) (ix2 k q) := by
  obtain ⟨-, -, -, -, h0, h1, -⟩ := idx_facts0 t
  unfold iblk0
  rw [View.read_apply]
  show (V c (Pipeline.arrRef spec0 2) : S64x128.Idx → EReal) _ = _
  refine congrArg _ (funext fun a => Fin.ext ?_)
  match a with
  | ⟨0, _⟩ => show win0_2.index t (0 : Fin 2) * 64 + 1 * k.val = k.val; rw [h0]; omega
  | ⟨1, _⟩ => show win0_2.index t (1 : Fin 2) * 128 + 1 * q.val = q.val; rw [h1]; omega

/-- The second weight window's block at every point is its whole array. -/
theorem blk0_3_apply (c : Dev nD) (t : Fin cfg0.N) (k : Fin 64) (q : Fin 128) :
    (iblk0 (F := Ideal) V c 3 t : S64x128.Idx → EReal) (ix2 k q)
      = (V c (Pipeline.arrRef spec0 3) : S64x128.Idx → EReal) (ix2 k q) := by
  obtain ⟨-, -, -, -, -, -, h0, h1, -⟩ := idx_facts0 t
  unfold iblk0
  rw [View.read_apply]
  show (V c (Pipeline.arrRef spec0 3) : S64x128.Idx → EReal) _ = _
  refine congrArg _ (funext fun a => Fin.ext ?_)
  match a with
  | ⟨0, _⟩ => show win0_3.index t (0 : Fin 2) * 64 + 1 * k.val = k.val; rw [h0]; omega
  | ⟨1, _⟩ => show win0_3.index t (1 : Fin 2) * 128 + 1 * q.val = q.val; rw [h1]; omega

/-- The bias window's block at every point is its whole array. -/
theorem blk0_4_apply (c : Dev nD) (t : Fin cfg0.N) (z : Fin 1) (q : Fin 128) :
    (iblk0 (F := Ideal) V c 4 t : S1x128.Idx → EReal) (ix2 z q)
      = (V c (Pipeline.arrRef spec0 4) : S1x128.Idx → EReal) (ix2 z q) := by
  obtain ⟨-, -, -, -, -, -, -, -, h0, h1, -⟩ := idx_facts0 t
  unfold iblk0
  rw [View.read_apply]
  show (V c (Pipeline.arrRef spec0 4) : S1x128.Idx → EReal) _ = _
  refine congrArg _ (funext fun a => Fin.ext ?_)
  match a with
  | ⟨0, _⟩ => show win0_4.index t (0 : Fin 2) * 1 + 1 * z.val = z.val; rw [h0]; omega
  | ⟨1, _⟩ => show win0_4.index t (1 : Fin 2) * 128 + 1 * q.val = q.val; rw [h1]; omega

/-- WHAT POINT `t` WRITES BACK is block `t` of `G0`. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S8000x64) hz, View.ld_unit_zero (S := S64x128) hz, View.ld_unit_zero (S := S1x128) hz]
  funext j
  obtain ⟨r, q, rfl⟩ : ∃ (r : Fin 8000) (q : Fin 128), j = ix2 r q := ⟨j 0, j 1, eq_ix2 j⟩
  obtain ⟨-, -, -, -, -, -, -, -, -, -, h0, h1⟩ := idx_facts0 t
  have hlt : 8000 * t.val + r.val < 800000 := by
    have h1 : t.val < 100 := t.isLt
    have h2 := r.isLt
    omega
  have hemb : ((cfg0.win 5).blk t).view.emb (ix2 r q) = (ix2 (⟨8000 * t.val + r.val, hlt⟩ : Fin 800000) q : S800000x128.Idx) := by
    funext a; apply Fin.ext
    match a with
    | ⟨0, _⟩ => show win0_5.index t (0 : Fin 2) * 8000 + 1 * r.val = 8000 * t.val + r.val; rw [h0]; omega
    | ⟨1, _⟩ => show win0_5.index t (1 : Fin 2) * 128 + 1 * q.val = q.val; rw [h1]; omega
  rw [View.read_apply]
  show k0_pay1 (F := Ideal) (iblk0 V c 0 t) (iblk0 V c 2 t) (iblk0 V c 1 t) (iblk0 V c 3 t) (iblk0 V c 4 t) (ix2 r q)
    = G0 V c (((cfg0.win 5).blk t).view.emb (ix2 r q))
  rw [hemb]
  refine (pay_apply _ _ _ _ _ r q).trans ?_
  show _ = Cert.Gnn.msgRows _ _ _ _ _ (⟨8000 * t.val + r.val, hlt⟩ : Fin 800000) q
  unfold Cert.Gnn.msgRows
  simp only [blk0_0_apply V c t r _ ⟨8000 * t.val + r.val, hlt⟩ rfl, blk0_1_apply V c t r _ ⟨8000 * t.val + r.val, hlt⟩ rfl,
    blk0_2_apply V c t, blk0_3_apply V c t, blk0_4_apply V c t]

/-- Every entry of the output array is in the block of the point its row falls to. -/
theorem cover0 (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 100 := N_0
  have ht : (i 0).val / 8000 < cfg0.N := by rw [hN]; omega
  obtain ⟨-, -, -, -, -, -, -, -, -, -, h0, h1⟩ := idx_facts0 ⟨(i 0).val / 8000, ht⟩
  refine ⟨⟨(i 0).val / 8000, ht⟩, flush0_5 _, ?_⟩
  show i ∈ ((View.whole main_call0_v27).slice (win0_5.rect ⟨(i 0).val / 8000, ht⟩)).set
  rw [View.set_slice_whole, Rect.mem_set_unit]
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    rw [h0]; show (i 0).val / 8000 * 8000 ≤ (i 0).val ∧ (i 0).val < (i 0).val / 8000 * 8000 + 8000; omega
  | ⟨1, _⟩ =>
    show win0_5.index ⟨(i 0).val / 8000, ht⟩ (1 : Fin 2) * 128 ≤ (i 1).val ∧ (i 1).val < win0_5.index ⟨(i 0).val / 8000, ht⟩ (1 : Fin 2) * 128 + 128
    rw [h1]; omega

/-- THE ARRAY region 0 leaves in its output window: entry `(e, q)` is edge `e`'s message in column `q`, computed from the
    buffers the region starts from. -/
theorem final0 (c : Dev nD) (e : Fin 800000) (q : Fin 128) :
    ((dat0 (F := Ideal) V c).arrAt 5 cfg0.N : S800000x128.Idx → EReal) (ix2 e q)
      = Cert.Gnn.msgRows
          (fun e k => (V c (Pipeline.arrRef spec0 0) : S800000x64.Idx → EReal) (ix2 e k))
          (fun e k => (V c (Pipeline.arrRef spec0 1) : S800000x64.Idx → EReal) (ix2 e k))
          (fun k q => (V c (Pipeline.arrRef spec0 2) : S64x128.Idx → EReal) (ix2 k q))
          (fun k q => (V c (Pipeline.arrRef spec0 3) : S64x128.Idx → EReal) (ix2 k q))
          (fun q => (V c (Pipeline.arrRef spec0 4) : S1x128.Idx → EReal) (ix2 (0 : Fin 1) q)) e q := by
  have h := (dat0 (F := Ideal) V c).arrAt_eq_of_cover 5 (G0 V c) (fun t _ => flushed0_eq V c t) (cover0)
  exact congrFun h (ix2 e q)

/-! ## Region 2 -/

/-- The printed index maps of region 2, decided over its 100 grid points: the two row windows and the output window are
    at block `t` of the row axis, the weight and bias windows stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The output array's entries as one function of the buffers the region starts from. -/
def G2 (c : Dev nD) : S800000x128.Idx → EReal := fun i =>
  Cert.Gnn.msgRows
    (fun e k => (V c (Pipeline.arrRef spec2 0) : S800000x64.Idx → EReal) (ix2 e k))
    (fun e k => (V c (Pipeline.arrRef spec2 1) : S800000x64.Idx → EReal) (ix2 e k))
    (fun k q => (V c (Pipeline.arrRef spec2 2) : S64x128.Idx → EReal) (ix2 k q))
    (fun k q => (V c (Pipeline.arrRef spec2 3) : S64x128.Idx → EReal) (ix2 k q))
    (fun q => (V c (Pipeline.arrRef spec2 4) : S1x128.Idx → EReal) (ix2 (0 : Fin 1) q)) (i 0) (i 1)

/-- Row `r` of the first row window's block at point `t` is row `8000·t + r` of its array. -/
theorem blk2_0_apply (c : Dev nD) (t : Fin cfg2.N) (r : Fin 8000) (k : Fin 64) (e : Fin 800000)
    (he : e.val = 8000 * t.val + r.val) :
    (iblk2 (F := Ideal) V c 0 t : S8000x64.Idx → EReal) (ix2 r k)
      = (V c (Pipeline.arrRef spec2 0) : S800000x64.Idx → EReal) (ix2 e k) := by
  obtain ⟨h0, h1, -⟩ := idx_facts2 t
  unfold iblk2
  rw [View.read_apply]
  show (V c (Pipeline.arrRef spec2 0) : S800000x64.Idx → EReal) _ = _
  refine congrArg _ (funext fun a => Fin.ext ?_)
  match a with
  | ⟨0, _⟩ => show win2_0.index t (0 : Fin 2) * 8000 + 1 * r.val = e.val; rw [h0, he]; omega
  | ⟨1, _⟩ => show win2_0.index t (1 : Fin 2) * 64 + 1 * k.val = k.val; rw [h1]; omega

/-- Row `r` of the second row window's block at point `t` is row `8000·t + r` of its array. -/
theorem blk2_1_apply (c : Dev nD) (t : Fin cfg2.N) (r : Fin 8000) (k : Fin 64) (e : Fin 800000)
    (he : e.val = 8000 * t.val + r.val) :
    (iblk2 (F := Ideal) V c 1 t : S8000x64.Idx → EReal) (ix2 r k)
      = (V c (Pipeline.arrRef spec2 1) : S800000x64.Idx → EReal) (ix2 e k) := by
  obtain ⟨-, -, h0, h1, -⟩ := idx_facts2 t
  unfold iblk2
  rw [View.read_apply]
  show (V c (Pipeline.arrRef spec2 1) : S800000x64.Idx → EReal) _ = _
  refine congrArg _ (funext fun a => Fin.ext ?_)
  match a with
  | ⟨0, _⟩ => show win2_1.index t (0 : Fin 2) * 8000 + 1 * r.val = e.val; rw [h0, he]; omega
  | ⟨1, _⟩ => show win2_1.index t (1 : Fin 2) * 64 + 1 * k.val = k.val; rw [h1]; omega

/-- The first weight window's block at every point is its whole array. -/
theorem blk2_2_apply (c : Dev nD) (t : Fin cfg2.N) (k : Fin 64) (q : Fin 128) :
    (iblk2 (F := Ideal) V c 2 t : S64x128.Idx → EReal) (ix2 k q)
      = (V c (Pipeline.arrRef spec2 2) : S64x128.Idx → EReal) (ix2 k q) := by
  obtain ⟨-, -, -, -, h0, h1, -⟩ := idx_facts2 t
  unfold iblk2
  rw [View.read_apply]
  show (V c (Pipeline.arrRef spec2 2) : S64x128.Idx → EReal) _ = _
  refine congrArg _ (funext fun a => Fin.ext ?_)
  match a with
  | ⟨0, _⟩ => show win2_2.index t (0 : Fin 2) * 64 + 1 * k.val = k.val; rw [h0]; omega
  | ⟨1, _⟩ => show win2_2.index t (1 : Fin 2) * 128 + 1 * q.val = q.val; rw [h1]; omega

/-- The second weight window's block at every point is its whole array. -/
theorem blk2_3_apply (c : Dev nD) (t : Fin cfg2.N) (k : Fin 64) (q : Fin 128) :
    (iblk2 (F := Ideal) V c 3 t : S64x128.Idx → EReal) (ix2 k q)
      = (V c (Pipeline.arrRef spec2 3) : S64x128.Idx → EReal) (ix2 k q) := by
  obtain ⟨-, -, -, -, -, -, h0, h1, -⟩ := idx_facts2 t
  unfold iblk2
  rw [View.read_apply]
  show (V c (Pipeline.arrRef spec2 3) : S64x128.Idx → EReal) _ = _
  refine congrArg _ (funext fun a => Fin.ext ?_)
  match a with
  | ⟨0, _⟩ => show win2_3.index t (0 : Fin 2) * 64 + 1 * k.val = k.val; rw [h0]; omega
  | ⟨1, _⟩ => show win2_3.index t (1 : Fin 2) * 128 + 1 * q.val = q.val; rw [h1]; omega

/-- The bias window's block at every point is its whole array. -/
theorem blk2_4_apply (c : Dev nD) (t : Fin cfg2.N) (z : Fin 1) (q : Fin 128) :
    (iblk2 (F := Ideal) V c 4 t : S1x128.Idx → EReal) (ix2 z q)
      = (V c (Pipeline.arrRef spec2 4) : S1x128.Idx → EReal) (ix2 z q) := by
  obtain ⟨-, -, -, -, -, -, -, -, h0, h1, -⟩ := idx_facts2 t
  unfold iblk2
  rw [View.read_apply]
  show (V c (Pipeline.arrRef spec2 4) : S1x128.Idx → EReal) _ = _
  refine congrArg _ (funext fun a => Fin.ext ?_)
  match a with
  | ⟨0, _⟩ => show win2_4.index t (0 : Fin 2) * 1 + 1 * z.val = z.val; rw [h0]; omega
  | ⟨1, _⟩ => show win2_4.index t (1 : Fin 2) * 128 + 1 * q.val = q.val; rw [h1]; omega

/-- WHAT POINT `t` WRITES BACK is block `t` of `G2`. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz]
  simp only [View.ld_unit_zero (S := S8000x64) hz, View.ld_unit_zero (S := S64x128) hz, View.ld_unit_zero (S := S1x128) hz]
  funext j
  obtain ⟨r, q, rfl⟩ : ∃ (r : Fin 8000) (q : Fin 128), j = ix2 r q := ⟨j 0, j 1, eq_ix2 j⟩
  obtain ⟨-, -, -, -, -, -, -, -, -, -, h0, h1⟩ := idx_facts2 t
  have hlt : 8000 * t.val + r.val < 800000 := by
    have h1 : t.val < 100 := t.isLt
    have h2 := r.isLt
    omega
  have hemb : ((cfg2.win 5).blk t).view.emb (ix2 r q) = (ix2 (⟨8000 * t.val + r.val, hlt⟩ : Fin 800000) q : S800000x128.Idx) := by
    funext a; apply Fin.ext
    match a with
    | ⟨0, _⟩ => show win2_5.index t (0 : Fin 2) * 8000 + 1 * r.val = 8000 * t.val + r.val; rw [h0]; omega
    | ⟨1, _⟩ => show win2_5.index t (1 : Fin 2) * 128 + 1 * q.val = q.val; rw [h1]; omega
  rw [View.read_apply]
  show k2_pay1 (F := Ideal) (iblk2 V c 0 t) (iblk2 V c 2 t) (iblk2 V c 1 t) (iblk2 V c 3 t) (iblk2 V c 4 t) (ix2 r q)
    = G2 V c (((cfg2.win 5).blk t).view.emb (ix2 r q))
  rw [hemb]
  refine (pay2_apply _ _ _ _ _ r q).trans ?_
  show _ = Cert.Gnn.msgRows _ _ _ _ _ (⟨8000 * t.val + r.val, hlt⟩ : Fin 800000) q
  unfold Cert.Gnn.msgRows
  simp only [blk2_0_apply V c t r _ ⟨8000 * t.val + r.val, hlt⟩ rfl, blk2_1_apply V c t r _ ⟨8000 * t.val + r.val, hlt⟩ rfl,
    blk2_2_apply V c t, blk2_3_apply V c t, blk2_4_apply V c t]

/-- Every entry of the output array is in the block of the point its row falls to. -/
theorem cover2 (i : S800000x128.Idx) :
    ∃ t : Fin cfg2.N, (cfg2.win 5).flush t = true ∧ i ∈ ((cfg2.win 5).blk t).view.set := by
  have hi0 : (i 0).val < 800000 := (i 0).isLt
  have hi1 : (i 1).val < 128 := (i 1).isLt
  have hN : cfg2.N = 100 := N_2
  have ht : (i 0).val / 8000 < cfg2.N := by rw [hN]; omega
  obtain ⟨-, -, -, -, -, -, -, -, -, -, h0, h1⟩ := idx_facts2 ⟨(i 0).val / 8000, ht⟩
  refine ⟨⟨(i 0).val / 8000, ht⟩, flush2_5 _, ?_⟩
  show i ∈ ((View.whole main_call0_v97).slice (win2_5.rect ⟨(i 0).val / 8000, ht⟩)).set
  rw [View.set_slice_whole, Rect.mem_set_unit]
  intro a
  match a with
  | ⟨0, _⟩ =>
    show win2_5.index ⟨(i 0).val / 8000, ht⟩ (0 : Fin 2) * 8000 ≤ (i 0).val ∧ (i 0).val < win2_5.index ⟨(i 0).val / 8000, ht⟩ (0 : Fin 2) * 8000 + 8000
    rw [h0]; show (i 0).val / 8000 * 8000 ≤ (i 0).val ∧ (i 0).val < (i 0).val / 8000 * 8000 + 8000; omega
  | ⟨1, _⟩ =>
    show win2_5.index ⟨(i 0).val / 8000, ht⟩ (1 : Fin 2) * 128 ≤ (i 1).val ∧ (i 1).val < win2_5.index ⟨(i 0).val / 8000, ht⟩ (1 : Fin 2) * 128 + 128
    rw [h1]; omega

/-- THE ARRAY region 2 leaves in its output window: entry `(e, q)` is edge `e`'s message in column `q`, computed from the
    buffers the region starts from. -/
theorem final2 (c : Dev nD) (e : Fin 800000) (q : Fin 128) :
    ((dat2 (F := Ideal) V c).arrAt 5 cfg2.N : S800000x128.Idx → EReal) (ix2 e q)
      = Cert.Gnn.msgRows
          (fun e k => (V c (Pipeline.arrRef spec2 0) : S800000x64.Idx → EReal) (ix2 e k))
          (fun e k => (V c (Pipeline.arrRef spec2 1) : S800000x64.Idx → EReal) (ix2 e k))
          (fun k q => (V c (Pipeline.arrRef spec2 2) : S64x128.Idx → EReal) (ix2 k q))
          (fun k q => (V c (Pipeline.arrRef spec2 3) : S64x128.Idx → EReal) (ix2 k q))
          (fun q => (V c (Pipeline.arrRef spec2 4) : S1x128.Idx → EReal) (ix2 (0 : Fin 1) q)) e q := by
  have h := (dat2 (F := Ideal) V c).arrAt_eq_of_cover 5 (G2 V c) (fun t _ => flushed2_eq V c t) (cover2)
  exact congrFun h (ix2 e q)

end Cert.KernelIdeal.MsgValue
-- ==== Proof.GruValue.lean ====
/-
  The node-update kernel's output array, as one function of the arrays the kernel finds.

  The kernel works on 25 blocks of 2000 node rows.  For a node row it completes the partial aggregate by the
  product of the scaled state with the destination third of the message weights, forms the six gate
  pre-activations (three from the completed aggregate, three from the node's state) as products with the gate
  weights plus biases, and combines them with the node's state by the gated update
  (1 − z) · n + z · h,  r = σ(i_r + h_r),  z = σ(i_z + h_z),  n = tanh(i_n + r · h_n).

  The argument has three steps.  First, over arbitrary blocks: a block product into a zero accumulator is, entry by
  entry, the sum over the contracted coordinate of the products of the entries; a change of float format and a cast
  to the same shape change nothing; a bias row is read at its column; so the value the body stores at entry (r, j)
  of its block is the gated update of row r of its input blocks.  Second, at a grid point t the three row-blocked
  inputs and the output hold rows 2000·t … 2000·t + 1999 of their arrays and the thirteen weight and bias windows
  hold their whole arrays, so what point t writes back is block t of ONE function of the arrays: the gated update
  row by row.  Third, row v is written by point v / 2000, so the blocks cover the output array, which therefore
  ends holding that function.  The same is done for both calls of the update kernel.
-/
import proofs.«163931_j15083925143987_2_alg».proof.Proof.Gen.KernelIdeal.Frame
import proofs.«163931_j15083925143987_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GruValue

open Idealize.ShloMosaic Idealize.ShloMosaic.TcCoe Idealize.ShloMosaic.ValueIdx Idealize.SL.Sem Cert.KernelIdeal Cert.KernelIdeal.Gen

/-! ## Block products at an entry -/

/-- The product of a 2000×64 block by a 64×128 matrix into a zero accumulator, entry by entry. -/
theorem mm_state_wd {φ₁ φ₂ : FTy} (A : FVec Ideal S2000x64 φ₁) (B : FVec Ideal S64x128 φ₂) (a : Fin 2000) (b : Fin 128) :
    matmul dot_S2000x64_S64x128_S2000x128_1_0_0_1_n_n none A B (constant S2000x128 .f32 0x00000000#32) (ix2 a b)
      = ∑ c : Fin 64, A (ix2 a c) * B (ix2 c b) := by
  show FloatOps.matmul dot_S2000x64_S64x128_S2000x128_1_0_0_1_n_n none A B (constant S2000x128 .f32 0x00000000#32) (ix2 a b) = _
  rw [Ideal.matmul_constant_zero_apply, ← Equiv.sum_comp (contrEquiv1 dot_S2000x64_S64x128_S2000x128_1_0_0_1_n_n 64 rfl rfl).symm]
  refine Finset.sum_congr rfl fun c _ => ?_
  have c2 := contrEquiv1_symm_val dot_S2000x64_S64x128_S2000x128_1_0_0_1_n_n 64 rfl rfl c
  have l2 : dot_S2000x64_S64x128_S2000x128_1_0_0_1_n_n.lhsIdx (ix2 a b) ((contrEquiv1 _ 64 rfl rfl).symm c) = ix2 a c := by
    funext ax; apply Fin.ext
    match ax with
    | ⟨0, _⟩ => simp [DotDims.lhsIdx, dot_S2000x64_S64x128_S2000x128_1_0_0_1_n_n]; rfl
    | ⟨1, _⟩ => simp [DotDims.lhsIdx, dot_S2000x64_S64x128_S2000x128_1_0_0_1_n_n]; exact c2
  have r2 : dot_S2000x64_S64x128_S2000x128_1_0_0_1_n_n.rhsIdx (ix2 a b) ((contrEquiv1 _ 64 rfl rfl).symm c) = ix2 c b := by
    funext ax; apply Fin.ext
    match ax with
    | ⟨0, _⟩ => simp [DotDims.rhsIdx, dot_S2000x64_S64x128_S2000x128_1_0_0_1_n_n]; exact c2
    | ⟨1, _⟩ => simp [DotDims.rhsIdx, dot_S2000x64_S64x128_S2000x128_1_0_0_1_n_n]; rfl
  rw [l2, r2]

/-- The product of a 2000×128 block by a 128×64 matrix into a zero accumulator, entry by entry. -/
theorem mm_agg_gate {φ₁ φ₂ : FTy} (A : FVec Ideal S2000x128 φ₁) (B : FVec Ideal S128x64 φ₂) (a : Fin 2000) (b : Fin 64) :
    matmul dot_S2000x128_S128x64_S2000x64_1_0_0_1_n_n none A B (constant S2000x64 .f32 0x00000000#32) (ix2 a b)
      = ∑ c : Fin 128, A (ix2 a c) * B (ix2 c b) := by
  show FloatOps.matmul dot_S2000x128_S128x64_S2000x64_1_0_0_1_n_n none A B (constant S2000x64 .f32 0x00000000#32) (ix2 a b) = _
  rw [Ideal.matmul_constant_zero_apply, ← Equiv.sum_comp (contrEquiv1 dot_S2000x128_S128x64_S2000x64_1_0_0_1_n_n 128 rfl rfl).symm]
  refine Finset.sum_congr rfl fun c _ => ?_
  have c2 := contrEquiv1_symm_val dot_S2000x128_S128x64_S2000x64_1_0_0_1_n_n 128 rfl rfl c
  have l2 : dot_S2000x128_S128x64_S2000x64_1_0_0_1_n_n.lhsIdx (ix2 a b) ((contrEquiv1 _ 128 rfl rfl).symm c) = ix2 a c := by
    funext ax; apply Fin.ext
    match ax with
    | ⟨0, _⟩ => simp [DotDims.lhsIdx, dot_S2000x128_S128x64_S2000x64_1_0_0_1_n_n]; rfl
    | ⟨1, _⟩ => simp [DotDims.lhsIdx, dot_S2000x128_S128x64_S2000x64_1_0_0_1_n_n]; exact c2
  have r2 : dot_S2000x128_S128x64_S2000x64_1_0_0_1_n_n.rhsIdx (ix2 a b) ((contrEquiv1 _ 128 rfl rfl).symm c) = ix2 c b := by
    funext ax; apply Fin.ext
    match ax with
    | ⟨0, _⟩ => simp [DotDims.rhsIdx, dot_S2000x128_S128x64_S2000x64_1_0_0_1_n_n]; exact c2
    | ⟨1, _⟩ => simp [DotDims.rhsIdx, dot_S2000x128_S128x64_S2000x64_1_0_0_1_n_n]; rfl
  rw [l2, r2]

/-- The product of a 2000×64 block by a 64×64 matrix into a zero accumulator, entry by entry. -/
theorem mm_state_gate {φ₁ φ₂ : FTy} (A : FVec Ideal S2000x64 φ₁) (B : FVec Ideal S64x64 φ₂) (a : Fin 2000) (b : Fin 64) :
    matmul dot_S2000x64_S64x64_S2000x64_1_0_0_1_n_n none A B (constant S2000x64 .f32 0x00000000#32) (ix2 a b)
      = ∑ c : Fin 64, A (ix2 a c) * B (ix2 c b) := by
  show FloatOps.matmul dot_S2000x64_S64x64_S2000x64_1_0_0_1_n_n none A B (constant S2000x64 .f32 0x00000000#32) (ix2 a b) = _
  rw [Ideal.matmul_constant_zero_apply, ← Equiv.sum_comp (contrEquiv1 dot_S2000x64_S64x64_S2000x64_1_0_0_1_n_n 64 rfl rfl).symm]
  refine Finset.sum_congr rfl fun c _ => ?_
  have c2 := contrEquiv1_symm_val dot_S2000x64_S64x64_S2000x64_1_0_0_1_n_n 64 rfl rfl c
  have l2 : dot_S2000x64_S64x64_S2000x64_1_0_0_1_n_n.lhsIdx (ix2 a b) ((contrEquiv1 _ 64 rfl rfl).symm c) = ix2 a c := by
    funext ax; apply Fin.ext
    match ax with
    | ⟨0, _⟩ => simp [DotDims.lhsIdx, dot_S2000x64_S64x64_S2000x64_1_0_0_1_n_n]; rfl
    | ⟨1, _⟩ => simp [DotDims.lhsIdx, dot_S2000x64_S64x64_S2000x64_1_0_0_1_n_n]; exact c2
  have r2 : dot_S2000x64_S64x64_S2000x64_1_0_0_1_n_n.rhsIdx (ix2 a b) ((contrEquiv1 _ 64 rfl rfl).symm c) = ix2 c b := by
    funext ax; apply Fin.ext
    match ax with
    | ⟨0, _⟩ => simp [DotDims.rhsIdx, dot_S2000x64_S64x64_S2000x64_1_0_0_1_n_n]; exact c2
    | ⟨1, _⟩ => simp [DotDims.rhsIdx, dot_S2000x64_S64x64_S2000x64_1_0_0_1_n_n]; rfl
  rw [l2, r2]

/-! ## The gates combined -/

/-- The pointwise combination the body ends with, at an entry: the gated update of the seven values there. -/
theorem combine_apply (h ir iz inn Mr Br Mz Bz Mn Bn : FVec Ideal S2000x64 .f32) (i : S2000x64.Idx) :
    (addf (mulf (subf (broadcast S2000x64 (Scalar.ofBits .f32 0x3F800000#32)) (logistic (addf iz (addf Mz Bz))))
        (tanh (addf inn (mulf (logistic (addf ir (addf Mr Br))) (addf Mn Bn)))))
      (mulf (logistic (addf iz (addf Mz Bz))) h)) i
      = Cert.Gnn.gruOut (ir i) (iz i) (inn i) (Mr i + Br i) (Mz i + Bz i) (Mn i + Bn i) (h i) := rfl

/-! ## The first update kernel's body at an entry, over arbitrary blocks -/

/-- The completed aggregate of a row: the partial aggregate plus the scaled state times the destination third of the
    message weights. -/
theorem agg_apply_1 (x1 : Vec Ideal S2000x64 .f32) (x0 : Vec Ideal S2000x128 .f32) (x3 : Vec Ideal S64x128 .bf16)
    (r : Fin 2000) (q : Fin 128) :
    k1_pay2 x1 x0 x3 (ix2 r q) = x0 (ix2 r q) + ∑ k : Fin 64, x1 (ix2 r k) * x3 (ix2 k q) := by
  unfold k1_pay2
  simp only [shapeCast_self]
  exact congrArg (x0 (ix2 r q) + ·) (mm_state_wd (φ₁ := .bf16) (φ₂ := .bf16) _ x3 r q)

/-- The reset gate's input-side pre-activation: the completed aggregate times the gate's weights plus its bias. -/
theorem gate_in_r_apply_1 (x1 : Vec Ideal S2000x64 .f32) (x0 : Vec Ideal S2000x128 .f32) (x3 : Vec Ideal S64x128 .bf16)
    (w : Vec Ideal S128x64 .bf16) (b : Vec Ideal S1x64 .f32) (r : Fin 2000) (j : Fin 64) :
    k1_pay4 x1 x0 x3 w b (ix2 r j)
      = (∑ q : Fin 128, (x0 (ix2 r q) + ∑ k : Fin 64, x1 (ix2 r k) * x3 (ix2 k q)) * w (ix2 q j)) + b (ix2 (0 : Fin 1) j) := by
  unfold k1_pay4
  simp only [shapeCast_self]
  refine (congrArg₂ (· + ·) (mm_agg_gate (φ₁ := .bf16) (φ₂ := .bf16) (k1_pay2 x1 x0 x3) w r j) (broadcastTo_1b_ab_apply b broadcasts_S1x64_S2000x64 r j)).trans ?_
  refine congrArg (· + b (ix2 (0 : Fin 1) j)) (Finset.sum_congr rfl fun q _ => ?_)
  exact congrArg (· * w (ix2 q j)) (agg_apply_1 x1 x0 x3 r q)

/-- The update gate's input-side pre-activation, likewise. -/
theorem gate_in_z_apply_1 (x1 : Vec Ideal S2000x64 .f32) (x0 : Vec Ideal S2000x128 .f32) (x3 : Vec Ideal S64x128 .bf16)
    (w : Vec Ideal S128x64 .bf16) (b : Vec Ideal S1x64 .f32) (r : Fin 2000) (j : Fin 64) :
    k1_pay5 x1 x0 x3 w b (ix2 r j)
      = (∑ q : Fin 128, (x0 (ix2 r q) + ∑ k : Fin 64, x1 (ix2 r k) * x3 (ix2 k q)) * w (ix2 q j)) + b (ix2 (0 : Fin 1) j) := by
  unfold k1_pay5
  simp only [shapeCast_self]
  refine (congrArg₂ (· + ·) (mm_agg_gate (φ₁ := .bf16) (φ₂ := .bf16) (k1_pay2 x1 x0 x3) w r j) (broadcastTo_1b_ab_apply b broadcasts_S1x64_S2000x64 r j)).trans ?_
  refine congrArg (· + b (ix2 (0 : Fin 1) j)) (Finset.sum_congr rfl fun q _ => ?_)
  exact congrArg (· * w (ix2 q j)) (agg_apply_1 x1 x0 x3 r q)

/-- The candidate's input-side pre-activation, likewise. -/
theorem gate_in_n_apply_1 (x1 : Vec Ideal S2000x64 .f32) (x0 : Vec Ideal S2000x128 .f32) (x3 : Vec Ideal S64x128 .bf16)
    (w : Vec Ideal S128x64 .bf16) (b : Vec Ideal S1x64 .f32) (r : Fin 2000) (j : Fin 64) :
    k1_pay6 x1 x0 x3 w b (ix2 r j)
      = (∑ q : Fin 128, (x0 (ix2 r q) + ∑ k : Fin 64, x1 (ix2 r k) * x3 (ix2 k q)) * w (ix2 q j)) + b (ix2 (0 : Fin 1) j) := by
  unfold k1_pay6
  simp only [shapeCast_self]
  refine (congrArg₂ (· + ·) (mm_agg_gate (φ₁ := .bf16) (φ₂ := .bf16) (k1_pay2 x1 x0 x3) w r j) (broadcastTo_1b_ab_apply b broadcasts_S1x64_S2000x64 r j)).trans ?_
  refine congrArg (· + b (ix2 (0 : Fin 1) j)) (Finset.sum_congr rfl fun q _ => ?_)
  exact congrArg (· * w (ix2 q j)) (agg_apply_1 x1 x0 x3 r q)

/-- The stored value at an entry: the three state-side pre-activations are the state's row times the gate's weights plus
    the bias, and the gates are combined with the state's entry. -/
theorem update_apply_1 (h : Vec Ideal S2000x64 .f32) (ir iz inn : FVec Ideal S2000x64 .f32)
    (wr : Vec Ideal S64x64 .bf16) (br : Vec Ideal S1x64 .f32) (wz : Vec Ideal S64x64 .bf16) (bz : Vec Ideal S1x64 .f32)
    (wn : Vec Ideal S64x64 .bf16) (bn : Vec Ideal S1x64 .f32) (r : Fin 2000) (j : Fin 64) :
    k1_pay1 h (k1_pay3 h) ir iz inn wr br wz bz wn bn (ix2 r j)
      = Cert.Gnn.gruOut (ir (ix2 r j)) (iz (ix2 r j)) (inn (ix2 r j))
          ((∑ k : Fin 64, h (ix2 r k) * wr (ix2 k j)) + br (ix2 (0 : Fin 1) j))
          ((∑ k : Fin 64, h (ix2 r k) * wz (ix2 k j)) + bz (ix2 (0 : Fin 1) j))
          ((∑ k : Fin 64, h (ix2 r k) * wn (ix2 k j)) + bn (ix2 (0 : Fin 1) j))
          (h (ix2 r j)) := by
  unfold k1_pay1 k1_pay3
  simp only [shapeCast_self]
  have er := mm_state_gate (φ₁ := .bf16) (φ₂ := .bf16) (truncf .bf16 h bitsLt_bf16_f32) wr r j
  have ez := mm_state_gate (φ₁ := .bf16) (φ₂ := .bf16) (truncf .bf16 h bitsLt_bf16_f32) wz r j
  have en := mm_state_gate (φ₁ := .bf16) (φ₂ := .bf16) (truncf .bf16 h bitsLt_bf16_f32) wn r j
  have fr := broadcastTo_1b_ab_apply br broadcasts_S1x64_S2000x64 r j
  have fz := broadcastTo_1b_ab_apply bz broadcasts_S1x64_S2000x64 r j
  have fn := broadcastTo_1b_ab_apply bn broadcasts_S1x64_S2000x64 r j
  refine (combine_apply h ir iz inn _ _ _ _ _ _ (ix2 r j)).trans ?_
  rw [er, ez, en, fr, fz, fn]
  rfl

/-! ## The second update kernel's body at an entry, over arbitrary blocks -/

/-- The completed aggregate of a row: the partial aggregate plus the scaled state times the destination third of the
    message weights. -/
theorem agg_apply_3 (x1 : Vec Ideal S2000x64 .f32) (x0 : Vec Ideal S2000x128 .f32) (x3 : Vec Ideal S64x128 .bf16)
    (r : Fin 2000) (q : Fin 128) :
    k3_pay2 x1 x0 x3 (ix2 r q) = x0 (ix2 r q) + ∑ k : Fin 64, x1 (ix2 r k) * x3 (ix2 k q) := by
  unfold k3_pay2
  simp only [shapeCast_self]
  exact congrArg (x0 (ix2 r q) + ·) (mm_state_wd (φ₁ := .bf16) (φ₂ := .bf16) _ x3 r q)

/-- The reset gate's input-side pre-activation: the completed aggregate times the gate's weights plus its bias. -/
theorem gate_in_r_apply_3 (x1 : Vec Ideal S2000x64 .f32) (x0 : Vec Ideal S2000x128 .f32) (x3 : Vec Ideal S64x128 .bf16)
    (w : Vec Ideal S128x64 .bf16) (b : Vec Ideal S1x64 .f32) (r : Fin 2000) (j : Fin 64) :
    k3_pay5 x1 x0 x3 w b (ix2 r j)
      = (∑ q : Fin 128, (x0 (ix2 r q) + ∑ k : Fin 64, x1 (ix2 r k) * x3 (ix2 k q)) * w (ix2 q j)) + b (ix2 (0 : Fin 1) j) := by
  unfold k3_pay5
  simp only [shapeCast_self]
  refine (congrArg₂ (· + ·) (mm_agg_gate (φ₁ := .bf16) (φ₂ := .bf16) (k3_pay2 x1 x0 x3) w r j) (broadcastTo_1b_ab_apply b broadcasts_S1x64_S2000x64 r j)).trans ?_
  refine congrArg (· + b (ix2 (0 : Fin 1) j)) (Finset.sum_congr rfl fun q _ => ?_)
  exact congrArg (· * w (ix2 q j)) (agg_apply_3 x1 x0 x3 r q)

/-- The update gate's input-side pre-activation, likewise. -/
theorem gate_in_z_apply_3 (x1 : Vec Ideal S2000x64 .f32) (x0 : Vec Ideal S2000x128 .f32) (x3 : Vec Ideal S64x128 .bf16)
    (w : Vec Ideal S128x64 .bf16) (b : Vec Ideal S1x64 .f32) (r : Fin 2000) (j : Fin 64) :
    k3_pay6 x1 x0 x3 w b (ix2 r j)
      = (∑ q : Fin 128, (x0 (ix2 r q) + ∑ k : Fin 64, x1 (ix2 r k) * x3 (ix2 k q)) * w (ix2 q j)) + b (ix2 (0 : Fin 1) j) := by
  unfold k3_pay6
  simp only [shapeCast_self]
  refine (congrArg₂ (· + ·) (mm_agg_gate (φ₁ := .bf16) (φ₂ := .bf16) (k3_pay2 x1 x0 x3) w r j) (broadcastTo_1b_ab_apply b broadcasts_S1x64_S2000x64 r j)).trans ?_
  refine congrArg (· + b (ix2 (0 : Fin 1) j)) (Finset.sum_congr rfl fun q _ => ?_)
  exact congrArg (· * w (ix2 q j)) (agg_apply_3 x1 x0 x3 r q)

/-- The candidate's input-side pre-activation, likewise. -/
theorem gate_in_n_apply_3 (x1 : Vec Ideal S2000x64 .f32) (x0 : Vec Ideal S2000x128 .f32) (x3 : Vec Ideal S64x128 .bf16)
    (w : Vec Ideal S128x64 .bf16) (b : Vec Ideal S1x64 .f32) (r : Fin 2000) (j : Fin 64) :
    k3_pay7 x1 x0 x3 w b (ix2 r j)
      = (∑ q : Fin 128, (x0 (ix2 r q) + ∑ k : Fin 64, x1 (ix2 r k) * x3 (ix2 k q)) * w (ix2 q j)) + b (ix2 (0 : Fin 1) j) := by
  unfold k3_pay7
  simp only [shapeCast_self]
  refine (congrArg₂ (· + ·) (mm_agg_gate (φ₁ := .bf16) (φ₂ := .bf16) (k3_pay2 x1 x0 x3) w r j) (broadcastTo_1b_ab_apply b broadcasts_S1x64_S2000x64 r j)).trans ?_
  refine congrArg (· + b (ix2 (0 : Fin 1) j)) (Finset.sum_congr rfl fun q _ => ?_)
  exact congrArg (· * w (ix2 q j)) (agg_apply_3 x1 x0 x3 r q)

/-- The stored value at an entry: the three state-side pre-activations are the state's row times the gate's weights plus
    the bias, and the gates are combined with the state's entry. -/
theorem update_apply_3 (h : Vec Ideal S2000x64 .f32) (ir iz inn : FVec Ideal S2000x64 .f32)
    (wr : Vec Ideal S64x64 .bf16) (br : Vec Ideal S1x64 .f32) (wz : Vec Ideal S64x64 .bf16) (bz : Vec Ideal S1x64 .f32)
    (wn : Vec Ideal S64x64 .bf16) (bn : Vec Ideal S1x64 .f32) (r : Fin 2000) (j : Fin 64) :
    k3_pay1 (k3_pay3 h) (k3_pay4 h) ir iz inn wr br wz bz wn bn (ix2 r j)
      = Cert.Gnn.gruOut (ir (ix2 r j)) (iz (ix2 r j)) (inn (ix2 r j))
          ((∑ k : Fin 64, h (ix2 r k) * wr (ix2 k j)) + br (ix2 (0 : Fin 1) j))
          ((∑ k : Fin 64, h (ix2 r k) * wz (ix2 k j)) + bz (ix2 (0 : Fin 1) j))
          ((∑ k : Fin 64, h (ix2 r k) * wn (ix2 k j)) + bn (ix2 (0 : Fin 1) j))
          (h (ix2 r j)) := by
  unfold k3_pay1 k3_pay4 k3_pay3
  simp only [shapeCast_self]
  have er := mm_state_gate (φ₁ := .bf16) (φ₂ := .bf16) (truncf .bf16 h bitsLt_bf16_f32) wr r j
  have ez := mm_state_gate (φ₁ := .bf16) (φ₂ := .bf16) (truncf .bf16 h bitsLt_bf16_f32) wz r j
  have en := mm_state_gate (φ₁ := .bf16) (φ₂ := .bf16) (truncf .bf16 h bitsLt_bf16_f32) wn r j
  have fr := broadcastTo_1b_ab_apply br broadcasts_S1x64_S2000x64 r j
  have fz := broadcastTo_1b_ab_apply bz broadcasts_S1x64_S2000x64 r j
  have fn := broadcastTo_1b_ab_apply bn broadcasts_S1x64_S2000x64 r j
  refine (combine_apply h ir iz inn _ _ _ _ _ _ (ix2 r j)).trans ?_
  rw [er, ez, en, fr, fz, fn]
  rfl

/-- The zero offsets of a whole-block access. -/
theorem hz : (![0, 0] : Fin 2 → Nat) = fun _ => 0 := funext fun a => by fin_cases a <;> rfl

/-- What the body leaves at entry (r, j) of its output block, when row r of the three row-blocked inputs is row v of
    three arrays and the other thirteen blocks are whole arrays: the gated update of row v, column j. -/
theorem point_1 (x0 : Vec Ideal S2000x128 .f32) (x1 x2 : Vec Ideal S2000x64 .f32) (x3 : Vec Ideal S64x128 .bf16)
    (x4 x5 x6 : Vec Ideal S128x64 .bf16) (x7 x8 x9 : Vec Ideal S64x64 .bf16) (x10 x11 x12 x13 x14 x15 : Vec Ideal S1x64 .f32)
    (A0 : S50000x128.Idx → EReal) (A1 A2 : S50000x64.Idx → EReal) (A3 : S64x128.Idx → EReal) (A4 A5 A6 : S128x64.Idx → EReal)
    (A7 A8 A9 : S64x64.Idx → EReal) (A10 A11 A12 A13 A14 A15 : S1x64.Idx → EReal)
    (v : Fin 50000) (r : Fin 2000) (j : Fin 64)
    (h0 : ∀ q : Fin 128, x0 (ix2 r q) = A0 (ix2 v q)) (h1 : ∀ k : Fin 64, x1 (ix2 r k) = A1 (ix2 v k))
    (h2 : ∀ k : Fin 64, x2 (ix2 r k) = A2 (ix2 v k))
    (h3 : x3 = A3) (h4 : x4 = A4) (h5 : x5 = A5) (h6 : x6 = A6) (h7 : x7 = A7) (h8 : x8 = A8) (h9 : x9 = A9)
    (h10 : x10 = A10) (h11 : x11 = A11) (h12 : x12 = A12) (h13 : x13 = A13) (h14 : x14 = A14) (h15 : x15 = A15) :
    out1_16 x0 x1 x2 x3 x4 x5 x6 x7 x8 x9 x10 x11 x12 x13 x14 x15 (ix2 r j)
      = Cert.Gnn.gruRows (fun v q => A0 (ix2 v q)) (fun v k => A1 (ix2 v k)) (fun v k => A2 (ix2 v k))
          (fun k q => A3 (ix2 k q)) (fun q j => A4 (ix2 q j)) (fun q j => A5 (ix2 q j)) (fun q j => A6 (ix2 q j))
          (fun k j => A7 (ix2 k j)) (fun k j => A8 (ix2 k j)) (fun k j => A9 (ix2 k j))
          (fun j => A10 (ix2 (0 : Fin 1) j)) (fun j => A11 (ix2 (0 : Fin 1) j)) (fun j => A12 (ix2 (0 : Fin 1) j))
          (fun j => A13 (ix2 (0 : Fin 1) j)) (fun j => A14 (ix2 (0 : Fin 1) j)) (fun j => A15 (ix2 (0 : Fin 1) j)) v j := by
  subst h3 h4 h5 h6 h7 h8 h9 h10 h11 h12 h13 h14 h15
  unfold out1_16
  rw [View.canon_unit_zero hz]
  simp only [View.ld_unit_zero (S := S2000x64) hz, View.ld_unit_zero (S := S2000x128) hz, View.ld_unit_zero (S := S64x128) hz,
    View.ld_unit_zero (S := S128x64) hz, View.ld_unit_zero (S := S1x64) hz, View.ld_unit_zero (S := S64x64) hz]
  refine (update_apply_1 x2 _ _ _ x7 x13 x8 x14 x9 x15 r j).trans ?_
  rw [gate_in_r_apply_1, gate_in_z_apply_1, gate_in_n_apply_1]
  unfold Cert.Gnn.gruRows
  simp only [h0, h1, h2]

/-- What the body leaves at entry (r, j) of its output block, when row r of the three row-blocked inputs is row v of
    three arrays and the other thirteen blocks are whole arrays: the gated update of row v, column j. -/
theorem point_3 (x0 : Vec Ideal S2000x128 .f32) (x1 x2 : Vec Ideal S2000x64 .f32) (x3 : Vec Ideal S64x128 .bf16)
    (x4 x5 x6 : Vec Ideal S128x64 .bf16) (x7 x8 x9 : Vec Ideal S64x64 .bf16) (x10 x11 x12 x13 x14 x15 : Vec Ideal S1x64 .f32)
    (A0 : S50000x128.Idx → EReal) (A1 A2 : S50000x64.Idx → EReal) (A3 : S64x128.Idx → EReal) (A4 A5 A6 : S128x64.Idx → EReal)
    (A7 A8 A9 : S64x64.Idx → EReal) (A10 A11 A12 A13 A14 A15 : S1x64.Idx → EReal)
    (v : Fin 50000) (r : Fin 2000) (j : Fin 64)
    (h0 : ∀ q : Fin 128, x0 (ix2 r q) = A0 (ix2 v q)) (h1 : ∀ k : Fin 64, x1 (ix2 r k) = A1 (ix2 v k))
    (h2 : ∀ k : Fin 64, x2 (ix2 r k) = A2 (ix2 v k))
    (h3 : x3 = A3) (h4 : x4 = A4) (h5 : x5 = A5) (h6 : x6 = A6) (h7 : x7 = A7) (h8 : x8 = A8) (h9 : x9 = A9)
    (h10 : x10 = A10) (h11 : x11 = A11) (h12 : x12 = A12) (h13 : x13 = A13) (h14 : x14 = A14) (h15 : x15 = A15) :
    out3_16 x0 x1 x2 x3 x4 x5 x6 x7 x8 x9 x10 x11 x12 x13 x14 x15 (ix2 r j)
      = Cert.Gnn.gruRows (fun v q => A0 (ix2 v q)) (fun v k => A1 (ix2 v k)) (fun v k => A2 (ix2 v k))
          (fun k q => A3 (ix2 k q)) (fun q j => A4 (ix2 q j)) (fun q j => A5 (ix2 q j)) (fun q j => A6 (ix2 q j))
          (fun k j => A7 (ix2 k j)) (fun k j => A8 (ix2 k j)) (fun k j => A9 (ix2 k j))
          (fun j => A10 (ix2 (0 : Fin 1) j)) (fun j => A11 (ix2 (0 : Fin 1) j)) (fun j => A12 (ix2 (0 : Fin 1) j))
          (fun j => A13 (ix2 (0 : Fin 1) j)) (fun j => A14 (ix2 (0 : Fin 1) j)) (fun j => A15 (ix2 (0 : Fin 1) j)) v j := by
  subst h3 h4 h5 h6 h7 h8 h9 h10 h11 h12 h13 h14 h15
  unfold out3_16
  rw [View.canon_unit_zero hz]
  simp only [View.ld_unit_zero (S := S2000x64) hz, View.ld_unit_zero (S := S2000x128) hz, View.ld_unit_zero (S := S64x128) hz,
    View.ld_unit_zero (S := S128x64) hz, View.ld_unit_zero (S := S1x64) hz, View.ld_unit_zero (S := S64x64) hz]
  refine (update_apply_3 x2 _ _ _ x7 x13 x8 x14 x9 x15 r j).trans ?_
  rw [gate_in_r_apply_3, gate_in_z_apply_3, gate_in_n_apply_3]
  unfold Cert.Gnn.gruRows
  simp only [h0, h1, h2]

variable (V : (c : Dev nD) → (b : Ref sig .tc) → Buf (Elt Ideal) ((c : Thread nD τ).loc b))

/-! ## The first update kernel: from blocks to the array -/

/-- Window 0's block index over the grid: block t at point t. -/
theorem idx_1_0 : ∀ t : Fin cfg1.N, win1_0.index t (0 : Fin 2) = t.val ∧ win1_0.index t (1 : Fin 2) = 0 :=
  (by decide +kernel : ∀ t : Fin grid1.N, _)

/-- Window 1's block index over the grid: block t at point t. -/
theorem idx_1_1 : ∀ t : Fin cfg1.N, win1_1.index t (0 : Fin 2) = t.val ∧ win1_1.index t (1 : Fin 2) = 0 :=
  (by decide +kernel : ∀ t : Fin grid1.N, _)

/-- Window 2's block index over the grid: block t at point t. -/
theorem idx_1_2 : ∀ t : Fin cfg1.N, win1_2.index t (0 : Fin 2) = t.val ∧ win1_2.index t (1 : Fin 2) = 0 :=
  (by decide +kernel : ∀ t : Fin grid1.N, _)

/-- Window 3's block index over the grid: always block 0. -/
theorem idx_1_3 : ∀ t : Fin cfg1.N, win1_3.index t (0 : Fin 2) = 0 ∧ win1_3.index t (1 : Fin 2) = 0 :=
  (by decide +kernel : ∀ t : Fin grid1.N, _)

/-- Window 4's block index over the grid: always block 0. -/
theorem idx_1_4 : ∀ t : Fin cfg1.N, win1_4.index t (0 : Fin 2) = 0 ∧ win1_4.index t (1 : Fin 2) = 0 :=
  (by decide +kernel : ∀ t : Fin grid1.N, _)

/-- Window 5's block index over the grid: always block 0. -/
theorem idx_1_5 : ∀ t : Fin cfg1.N, win1_5.index t (0 : Fin 2) = 0 ∧ win1_5.index t (1 : Fin 2) = 0 :=
  (by decide +kernel : ∀ t : Fin grid1.N, _)

/-- Window 6's block index over the grid: always block 0. -/
theorem idx_1_6 : ∀ t : Fin cfg1.N, win1_6.index t (0 : Fin 2) = 0 ∧ win1_6.index t (1 : Fin 2) = 0 :=
  (by decide +kernel : ∀ t : Fin grid1.N, _)

/-- Window 7's block index over the grid: always block 0. -/
theorem idx_1_7 : ∀ t : Fin cfg1.N, win1_7.index t (0 : Fin 2) = 0 ∧ win1_7.index t (1 : Fin 2) = 0 :=
  (by decide +kernel : ∀ t : Fin grid1.N, _)

/-- Window 8's block index over the grid: always block 0. -/
theorem idx_1_8 : ∀ t : Fin cfg1.N, win1_8.index t (0 : Fin 2) = 0 ∧ win1_8.index t (1 : Fin 2) = 0 :=
  (by decide +kernel : ∀ t : Fin grid1.N, _)

/-- Window 9's block index over the grid: always block 0. -/
theorem idx_1_9 : ∀ t : Fin cfg1.N, win1_9.index t (0 : Fin 2) = 0 ∧ win1_9.index t (1 : Fin 2) = 0 :=
  (by decide +kernel : ∀ t : Fin grid1.N, _)

/-- Window 10's block index over the grid: always block 0. -/
theorem idx_1_10 : ∀ t : Fin cfg1.N, win1_10.index t (0 : Fin 2) = 0 ∧ win1_10.index t (1 : Fin 2) = 0 :=
  (by decide +kernel : ∀ t : Fin grid1.N, _)

/-- Window 11's block index over the grid: always block 0. -/
theorem idx_1_11 : ∀ t : Fin cfg1.N, win1_11.index t (0 : Fin 2) = 0 ∧ win1_11.index t (1 : Fin 2) = 0 :=
  (by decide +kernel : ∀ t : Fin grid1.N, _)

/-- Window 12's block index over the grid: always block 0. -/
theorem idx_1_12 : ∀ t : Fin cfg1.N, win1_12.index t (0 : Fin 2) = 0 ∧ win1_12.index t (1 : Fin 2) = 0 :=
  (by decide +kernel : ∀ t : Fin grid1.N, _)

/-- Window 13's block index over the grid: always block 0. -/
theorem idx_1_13 : ∀ t : Fin cfg1.N, win1_13.index t (0 : Fin 2) = 0 ∧ win1_13.index t (1 : Fin 2) = 0 :=
  (by decide +kernel : ∀ t : Fin grid1.N, _)

/-- Window 14's block index over the grid: always block 0. -/
theorem idx_1_14 : ∀ t : Fin cfg1.N, win1_14.index t (0 : Fin 2) = 0 ∧ win1_14.index t (1 : Fin 2) = 0 :=
  (by decide +kernel : ∀ t : Fin grid1.N, _)

/-- Window 15's block index over the grid: always block 0. -/
theorem idx_1_15 : ∀ t : Fin cfg1.N, win1_15.index t (0 : Fin 2) = 0 ∧ win1_15.index t (1 : Fin 2) = 0 :=
  (by decide +kernel : ∀ t : Fin grid1.N, _)

/-- Window 16's block index over the grid: block t at point t. -/
theorem idx_1_16 : ∀ t : Fin cfg1.N, win1_16.index t (0 : Fin 2) = t.val ∧ win1_16.index t (1 : Fin 2) = 0 :=
  (by decide +kernel : ∀ t : Fin grid1.N, _)

/-- Row r of window 0's block at point t is row 2000·t + r of its array. -/
theorem rowblk_1_0 (c : Dev nD) (t : Fin cfg1.N) (r : Fin 2000) (q : Fin 128) (hv : 2000 * t.val + r.val < 50000) :
    (iblk1 V c 0 t : S2000x128.Idx → EReal) (ix2 r q)
      = (V c (Pipeline.arrRef spec1 0) : S50000x128.Idx → EReal) (ix2 ⟨2000 * t.val + r.val, hv⟩ q) := by
  obtain ⟨e0, e1⟩ := idx_1_0 t
  show V c (Pipeline.arrRef spec1 0) (((cfg1.win 0).blk t).view.emb (ix2 r q))
    = V c (Pipeline.arrRef spec1 0) (ix2 ⟨2000 * t.val + r.val, hv⟩ q)
  refine congrArg _ (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * q.val = q.val; omega

/-- Row r of window 1's block at point t is row 2000·t + r of its array. -/
theorem rowblk_1_1 (c : Dev nD) (t : Fin cfg1.N) (r : Fin 2000) (q : Fin 64) (hv : 2000 * t.val + r.val < 50000) :
    (iblk1 V c 1 t : S2000x64.Idx → EReal) (ix2 r q)
      = (V c (Pipeline.arrRef spec1 1) : S50000x64.Idx → EReal) (ix2 ⟨2000 * t.val + r.val, hv⟩ q) := by
  obtain ⟨e0, e1⟩ := idx_1_1 t
  show V c (Pipeline.arrRef spec1 1) (((cfg1.win 1).blk t).view.emb (ix2 r q))
    = V c (Pipeline.arrRef spec1 1) (ix2 ⟨2000 * t.val + r.val, hv⟩ q)
  refine congrArg _ (funext fun a => Fin.ext ?_)
  match a with
  | ⟨0, _⟩ => show win1_1.index t (0 : Fin 2) * 2000 + 1 * r.val = 2000 * t.val + r.val; omega
  | ⟨1, _⟩ => show win1_1.index t (1 : Fin 2) * 64 + 1 * q.val = q.val; omega

/-- Row r of window 2's block at point t is row 2000·t + r of its array. -/
theorem rowblk_1_2 (c : Dev nD) (t : Fin cfg1.N) (r : Fin 2000) (q : Fin 64) (hv : 2000 * t.val + r.val < 50000) :
    (iblk1 V c 2 t : S2000x64.Idx → EReal) (ix2 r q)
      = (V c (Pipeline.arrRef spec1 2) : S50000x64.Idx → EReal) (ix2 ⟨2000 * t.val + r.val, hv⟩ q) := by
  obtain ⟨e0, e1⟩ := idx_1_2 t
  show V c (Pipeline.arrRef spec1 2) (((cfg1.win 2).blk t).view.emb (ix2 r q))
    = V c (Pipeline.arrRef spec1 2) (ix2 ⟨2000 * t.val + r.val, hv⟩ q)
  refine congrArg _ (funext fun a => Fin.ext ?_)
  match a with
  | ⟨0, _⟩ => show win1_2.index t (0 : Fin 2) * 2000 + 1 * r.val = 2000 * t.val + r.val; omega
  | ⟨1, _⟩ => show win1_2.index t (1 : Fin 2) * 64 + 1 * q.val = q.val; omega

/-- Window 3's block is its whole array at every point. -/
theorem resblk_1_3 (c : Dev nD) (t : Fin cfg1.N) :
    (iblk1 V c 3 t : S64x128.Idx → EReal) = (V c (Pipeline.arrRef spec1 3) : S64x128.Idx → EReal) := by
  obtain ⟨e0, e1⟩ := idx_1_3 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 128 + 1 * (y 1).val = (y 1).val; omega

/-- Window 4's block is its whole array at every point. -/
theorem resblk_1_4 (c : Dev nD) (t : Fin cfg1.N) :
    (iblk1 V c 4 t : S128x64.Idx → EReal) = (V c (Pipeline.arrRef spec1 4) : S128x64.Idx → EReal) := by
  obtain ⟨e0, e1⟩ := idx_1_4 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- Window 5's block is its whole array at every point. -/
theorem resblk_1_5 (c : Dev nD) (t : Fin cfg1.N) :
    (iblk1 V c 5 t : S128x64.Idx → EReal) = (V c (Pipeline.arrRef spec1 5) : S128x64.Idx → EReal) := by
  obtain ⟨e0, e1⟩ := idx_1_5 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- Window 6's block is its whole array at every point. -/
theorem resblk_1_6 (c : Dev nD) (t : Fin cfg1.N) :
    (iblk1 V c 6 t : S128x64.Idx → EReal) = (V c (Pipeline.arrRef spec1 6) : S128x64.Idx → EReal) := by
  obtain ⟨e0, e1⟩ := idx_1_6 t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 64 + 1 * (y 1).val = (y 1).val; omega

/-- Window 7's block is its whole array at every point. -/
theorem resblk_1_7 (c : Dev nD) (t : Fin cfg1.N) :
    (iblk1 V c 7 t : S64x64.Idx → EReal) = (V c (Pipeline.arrRef spec1 7) : S64x64.Idx → EReal) := by
  obtain ⟨e0, e1⟩ := idx_1_7 t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 64 + 1 * (y 1).val = (y 1).val; omega

/-- Window 8's block is its whole array at every point. -/
theorem resblk_1_8 (c : Dev nD) (t : Fin cfg1.N) :
    (iblk1 V c 8 t : S64x64.Idx → EReal) = (V c (Pipeline.arrRef spec1 8) : S64x64.Idx → EReal) := by
  obtain ⟨e0, e1⟩ := idx_1_8 t
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 64 + 1 * (y 0).val = (y 0).val; omega
  | ⟨1, _⟩ => show win1_8.index t (1 : Fin 2) * 64 + 1 * (y 1).val = (y 1).val; omega

/-- Window 9's block is its whole array at every point. -/
theorem resblk_1_9 (c : Dev nD) (t : Fin cfg1.N) :
    (iblk1 V c 9 t : S64x64.Idx → EReal) = (V c (Pipeline.arrRef spec1 9) : S64x64.Idx → EReal) := by
  obtain ⟨e0, e1⟩ := idx_1_9 t
  funext y
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 64 + 1 * (y 0).val = (y 0).val; omega
  | ⟨1, _⟩ => show win1_9.index t (1 : Fin 2) * 64 + 1 * (y 1).val = (y 1).val; omega

/-- Window 10's block is its whole array at every point. -/
theorem resblk_1_10 (c : Dev nD) (t : Fin cfg1.N) :
    (iblk1 V c 10 t : S1x64.Idx → EReal) = (V c (Pipeline.arrRef spec1 10) : S1x64.Idx → EReal) := by
  obtain ⟨e0, e1⟩ := idx_1_10 t
  funext y
  show V c (Pipeline.arrRef spec1 10) (((cfg1.win 10).blk t).view.emb y) = V c (Pipeline.arrRef spec1 10) y
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 64 + 1 * (y 1).val = (y 1).val; omega

/-- Window 11's block is its whole array at every point. -/
theorem resblk_1_11 (c : Dev nD) (t : Fin cfg1.N) :
    (iblk1 V c 11 t : S1x64.Idx → EReal) = (V c (Pipeline.arrRef spec1 11) : S1x64.Idx → EReal) := by
  obtain ⟨e0, e1⟩ := idx_1_11 t
  funext y
  show V c (Pipeline.arrRef spec1 11) (((cfg1.win 11).blk t).view.emb y) = V c (Pipeline.arrRef spec1 11) y
  refine congrArg _ (funext fun a => Fin.ext ?_)
  match a with
  | ⟨0, _⟩ => show win1_11.index t (0 : Fin 2) * 1 + 1 * (y 0).val = (y 0).val; omega
  | ⟨1, _⟩ => show win1_11.index t (1 : Fin 2) * 64 + 1 * (y 1).val = (y 1).val; omega

/-- Window 12's block is its whole array at every point. -/
theorem resblk_1_12 (c : Dev nD) (t : Fin cfg1.N) :
    (iblk1 V c 12 t : S1x64.Idx → EReal) = (V c (Pipeline.arrRef spec1 12) : S1x64.Idx → EReal) := by
  obtain ⟨e0, e1⟩ := idx_1_12 t
  funext y
  show V c (Pipeline.arrRef spec1 12) (((cfg1.win 12).blk t).view.emb y) = V c (Pipeline.arrRef spec1 12) y
  refine congrArg _ (funext fun a => Fin.ext ?_)
  match a with
  | ⟨0, _⟩ => show win1_12.index t (0 : Fin 2) * 1 + 1 * (y 0).val = (y 0).val; omega
  | ⟨1, _⟩ => show win1_12.index t (1 : Fin 2) * 64 + 1 * (y 1).val = (y 1).val; omega

/-- Window 13's block is its whole array at every point. -/
theorem resblk_1_13 (c : Dev nD) (t : Fin cfg1.N) :
    (iblk1 V c 13 t : S1x64.Idx → EReal) = (V c (Pipeline.arrRef spec1 13) : S1x64.Idx → EReal) := by
  obtain ⟨e0, e1⟩ := idx_1_13 t
  funext y
  show V c (Pipeline.arrRef spec1 13) (((cfg1.win 13).blk t).view.emb y) = V c (Pipeline.arrRef spec1 13) y
  refine congrArg _ (funext fun a => Fin.ext ?_)
  match a with
  | ⟨0, _⟩ => show win1_13.index t (0 : Fin 2) * 1 + 1 * (y 0).val = (y 0).val; omega
  | ⟨1, _⟩ => show win1_13.index t (1 : Fin 2) * 64 + 1 * (y 1).val = (y 1).val; omega

/-- Window 14's block is its whole array at every point. -/
theorem resblk_1_14 (c : Dev nD) (t : Fin cfg1.N) :
    (iblk1 V c 14 t : S1x64.Idx → EReal) = (V c (Pipeline.arrRef spec1 14) : S1x64.Idx → EReal) := by
  obtain ⟨e0, e1⟩ := idx_1_14 t
  funext y
  show V c (Pipeline.arrRef spec1 14) (((cfg1.win 14).blk t).view.emb y) = V c (Pipeline.arrRef spec1 14) y
  refine congrArg _ (funext fun a => Fin.ext ?_)
  match a with
  | ⟨0, _⟩ => show win1_14.index t (0 : Fin 2) * 1 + 1 * (y 0).val = (y 0).val; omega
  | ⟨1, _⟩ => show win1_14.index t (1 : Fin 2) * 64 + 1 * (y 1).val = (y 1).val; omega

/-- Window 15's block is its whole array at every point. -/
theorem resblk_1_15 (c : Dev nD) (t : Fin cfg1.N) :
    (iblk1 V c 15 t : S1x64.Idx → EReal) = (V c (Pipeline.arrRef spec1 15) : S1x64.Idx → EReal) := by
  obtain ⟨e0, e1⟩ := idx_1_15 t
  funext y
  show V c (Pipeline.arrRef spec1 15) (((cfg1.win 15).blk t).view.emb y) = V c (Pipeline.arrRef spec1 15) y
  refine congrArg _ (funext fun a => Fin.ext ?_)
  match a with
  | ⟨0, _⟩ => show win1_15.index t (0 : Fin 2) * 1 + 1 * (y 0).val = (y 0).val; omega
  | ⟨1, _⟩ => show win1_15.index t (1 : Fin 2) * 64 + 1 * (y 1).val = (y 1).val; omega

set_option maxHeartbeats 2000000 in
/-- The array the kernel leaves: the gated update of every row of the arrays it found. -/
def arr_1 (c : Dev nD) : S50000x64.Idx → EReal := fun i =>
  Cert.Gnn.gruRows (fun v q => (V c (Pipeline.arrRef spec1 0) : S50000x128.Idx → EReal) (ix2 v q)) (fun v k => (V c (Pipeline.arrRef spec1 1) : S50000x64.Idx → EReal) (ix2 v k)) (fun v k => (V c (Pipeline.arrRef spec1 2) : S50000x64.Idx → EReal) (ix2 v k))
          (fun k q => (V c (Pipeline.arrRef spec1 3) : S64x128.Idx → EReal) (ix2 k q)) (fun q j => (V c (Pipeline.arrRef spec1 4) : S128x64.Idx → EReal) (ix2 q j)) (fun q j => (V c (Pipeline.arrRef spec1 5) : S128x64.Idx → EReal) (ix2 q j)) (fun q j => (V c (Pipeline.arrRef spec1 6) : S128x64.Idx → EReal) (ix2 q j))
          (fun k j => (V c (Pipeline.arrRef spec1 7) : S64x64.Idx → EReal) (ix2 k j)) (fun k j => (V c (Pipeline.arrRef spec1 8) : S64x64.Idx → EReal) (ix2 k j)) (fun k j => (V c (Pipeline.arrRef spec1 9) : S64x64.Idx → EReal) (ix2 k j))
          (fun j => (V c (Pipeline.arrRef spec1 10) : S1x64.Idx → EReal) (ix2 (0 : Fin 1) j)) (fun j => (V c (Pipeline.arrRef spec1 11) : S1x64.Idx → EReal) (ix2 (0 : Fin 1) j)) (fun j => (V c (Pipeline.arrRef spec1 12) : S1x64.Idx → EReal) (ix2 (0 : Fin 1) j))
          (fun j => (V c (Pipeline.arrRef spec1 13) : S1x64.Idx → EReal) (ix2 (0 : Fin 1) j)) (fun j => (V c (Pipeline.arrRef spec1 14) : S1x64.Idx → EReal) (ix2 (0 : Fin 1) j)) (fun j => (V c (Pipeline.arrRef spec1 15) : S1x64.Idx → EReal) (ix2 (0 : Fin 1) j)) (i 0) (i 1)

set_option maxHeartbeats 2000000 in
/-- What point t writes back is block t of that array: rows 2000·t … 2000·t + 1999. -/
theorem flushed_1 (c : Dev nD) (t : Fin cfg1.N) :
    (dat1 V c).flushed 16 t = ((cfg1.win 16).blk t).view.read (Elt Ideal) (arr_1 V c) := by
  have hN : cfg1.N = 25 := N_1
  obtain ⟨e0, e1⟩ := idx_1_16 t
  have ht := t.isLt
  show (cfg1.win 16).cut (grid1.coords t) ((dat1 V c).after 16 t) = _
  rw [after1_16]
  funext y
  obtain ⟨r, j, rfl⟩ : ∃ (r : Fin 2000) (j : Fin 64), y = ix2 r j := ⟨y 0, y 1, eq_ix2 y⟩
  have hv : 2000 * t.val + r.val < 50000 := by have := r.isLt; omega
  have hemb : ((cfg1.win 16).blk t).view.emb (ix2 r j) = (ix2 ⟨2000 * t.val + r.val, hv⟩ j : S50000x64.Idx) := by
    funext a; apply Fin.ext
    match a with
    | ⟨0, _⟩ => show win1_16.index t (0 : Fin 2) * 2000 + 1 * r.val = 2000 * t.val + r.val; omega
    | ⟨1, _⟩ => show win1_16.index t (1 : Fin 2) * 64 + 1 * j.val = j.val; omega
  show out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (ix2 r j)
    = arr_1 V c (((cfg1.win 16).blk t).view.emb (ix2 r j))
  rw [hemb]
  exact point_1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) (V c (Pipeline.arrRef spec1 14)) (V c (Pipeline.arrRef spec1 15))
    ⟨2000 * t.val + r.val, hv⟩ r j
    (fun q => rowblk_1_0 V c t r q hv) (fun k => rowblk_1_1 V c t r k hv) (fun k => rowblk_1_2 V c t r k hv)
    (resblk_1_3 V c t) (resblk_1_4 V c t) (resblk_1_5 V c t) (resblk_1_6 V c t) (resblk_1_7 V c t) (resblk_1_8 V c t) (resblk_1_9 V c t) (resblk_1_10 V c t) (resblk_1_11 V c t) (resblk_1_12 V c t) (resblk_1_13 V c t) (resblk_1_14 V c t) (resblk_1_15 V c t)

/-- An entry of the output array lies in point t's block exactly when its row is one of the block's 2000 rows. -/
theorem mem_blk_1 (t : Fin cfg1.N) (i : S50000x64.Idx) :
    i ∈ ((cfg1.win 16).blk t).view.set ↔ ∀ a : Fin 2, win1_16.index t a * S2000x64.size a ≤ (i a).val ∧ (i a).val < win1_16.index t a * S2000x64.size a + S2000x64.size a := by
  show i ∈ ((View.whole main_call0_v75).slice (win1_16.rect t)).set ↔ _
  rw [View.set_slice_whole, Rect.mem_set_unit]
  exact Iff.rfl

/-- Every entry of the output array is written by some point: row v by point v / 2000. -/
theorem cover_1 (i : S50000x64.Idx) :
    ∃ t : Fin cfg1.N, (cfg1.win 16).flush t = true ∧ i ∈ ((cfg1.win 16).blk t).view.set := by
  have hN : cfg1.N = 25 := N_1
  have hi0 : (i 0).val < 50000 := idx2_lt0 i
  have hi1 : (i 1).val < 64 := idx2_lt1 i
  obtain ⟨t, ht⟩ : ∃ t : Fin cfg1.N, t.val = (i 0).val / 2000 := ⟨⟨(i 0).val / 2000, by rw [hN]; omega⟩, rfl⟩
  obtain ⟨e0, e1⟩ := idx_1_16 t
  refine ⟨t, flush1_16 t, ?_⟩
  rw [mem_blk_1]
  intro a
  match a with
  | ⟨0, _⟩ => show win1_16.index t (0 : Fin 2) * 2000 ≤ (i 0).val ∧ (i 0).val < win1_16.index t (0 : Fin 2) * 2000 + 2000; omega
  | ⟨1, _⟩ => show win1_16.index t (1 : Fin 2) * 64 ≤ (i 1).val ∧ (i 1).val < win1_16.index t (1 : Fin 2) * 64 + 64; omega

/-- The output array after the kernel is the gated update of the arrays it found, row by row. -/
theorem array_1 (c : Dev nD) : (dat1 V c).arrAt 16 cfg1.N = arr_1 V c :=
  (dat1 V c).arrAt_eq_of_cover 16 (arr_1 V c) (fun t _ => flushed_1 V c t) cover_1

/-! ## The second update kernel: from blocks to the array -/

/-- Window 0's block index over the grid: block t at point t. -/
theorem idx_3_0 : ∀ t : Fin cfg3.N, win3_0.index t (0 : Fin 2) = t.val ∧ win3_0.index t (1 : Fin 2) = 0 :=
  (by decide +kernel : ∀ t : Fin grid3.N, _)

/-- Window 1's block index over the grid: block t at point t. -/
theorem idx_3_1 : ∀ t : Fin cfg3.N, win3_1.index t (0 : Fin 2) = t.val ∧ win3_1.index t (1 : Fin 2) = 0 :=
  (by decide +kernel : ∀ t : Fin grid3.N, _)

/-- Window 2's block index over the grid: block t at point t. -/
theorem idx_3_2 : ∀ t : Fin cfg3.N, win3_2.index t (0 : Fin 2) = t.val ∧ win3_2.index t (1 : Fin 2) = 0 :=
  (by decide +kernel : ∀ t : Fin grid3.N, _)

/-- Window 3's block index over the grid: always block 0. -/
theorem idx_3_3 : ∀ t : Fin cfg3.N, win3_3.index t (0 : Fin 2) = 0 ∧ win3_3.index t (1 : Fin 2) = 0 :=
  (by decide +kernel : ∀ t : Fin grid3.N, _)

/-- Window 4's block index over the grid: always block 0. -/
theorem idx_3_4 : ∀ t : Fin cfg3.N, win3_4.index t (0 : Fin 2) = 0 ∧ win3_4.index t (1 : Fin 2) = 0 :=
  (by decide +kernel : ∀ t : Fin grid3.N, _)

/-- Window 5's block index over the grid: always block 0. -/
theorem idx_3_5 : ∀ t : Fin cfg3.N, win3_5.index t (0 : Fin 2) = 0 ∧ win3_5.index t (1 : Fin 2) = 0 :=
  (by decide +kernel : ∀ t : Fin grid3.N, _)

/-- Window 6's block index over the grid: always block 0. -/
theorem idx_3_6 : ∀ t : Fin cfg3.N, win3_6.index t (0 : Fin 2) = 0 ∧ win3_6.index t (1 : Fin 2) = 0 :=
  (by decide +kernel : ∀ t : Fin grid3.N, _)

/-- Window 7's block index over the grid: always block 0. -/
theorem idx_3_7 : ∀ t : Fin cfg3.N, win3_7.index t (0 : Fin 2) = 0 ∧ win3_7.index t (1 : Fin 2) = 0 :=
  (by decide +kernel : ∀ t : Fin grid3.N, _)

/-- Window 8's block index over the grid: always block 0. -/
theorem idx_3_8 : ∀ t : Fin cfg3.N, win3_8.index t (0 : Fin 2) = 0 ∧ win3_8.index t (1 : Fin 2) = 0 :=
  (by decide +kernel : ∀ t : Fin grid3.N, _)

/-- Window 9's block index over the grid: always block 0. -/
theorem idx_3_9 : ∀ t : Fin cfg3.N, win3_9.index t (0 : Fin 2) = 0 ∧ win3_9.index t (1 : Fin 2) = 0 :=
  (by decide +kernel : ∀ t : Fin grid3.N, _)

/-- Window 10's block index over the grid: always block 0. -/
theorem idx_3_10 : ∀ t : Fin cfg3.N, win3_10.index t (0 : Fin 2) = 0 ∧ win3_10.index t (1 : Fin 2) = 0 :=
  (by decide +kernel : ∀ t : Fin grid3.N, _)

/-- Window 11's block index over the grid: always block 0. -/
theorem idx_3_11 : ∀ t : Fin cfg3.N, win3_11.index t (0 : Fin 2) = 0 ∧ win3_11.index t (1 : Fin 2) = 0 :=
  (by decide +kernel : ∀ t : Fin grid3.N, _)

/-- Window 12's block index over the grid: always block 0. -/
theorem idx_3_12 : ∀ t : Fin cfg3.N, win3_12.index t (0 : Fin 2) = 0 ∧ win3_12.index t (1 : Fin 2) = 0 :=
  (by decide +kernel : ∀ t : Fin grid3.N, _)

/-- Window 13's block index over the grid: always block 0. -/
theorem idx_3_13 : ∀ t : Fin cfg3.N, win3_13.index t (0 : Fin 2) = 0 ∧ win3_13.index t (1 : Fin 2) = 0 :=
  (by decide +kernel : ∀ t : Fin grid3.N, _)

/-- Window 14's block index over the grid: always block 0. -/
theorem idx_3_14 : ∀ t : Fin cfg3.N, win3_14.index t (0 : Fin 2) = 0 ∧ win3_14.index t (1 : Fin 2) = 0 :=
  (by decide +kernel : ∀ t : Fin grid3.N, _)

/-- Window 15's block index over the grid: always block 0. -/
theorem idx_3_15 : ∀ t : Fin cfg3.N, win3_15.index t (0 : Fin 2) = 0 ∧ win3_15.index t (1 : Fin 2) = 0 :=
  (by decide +kernel : ∀ t : Fin grid3.N, _)

/-- Window 16's block index over the grid: block t at point t. -/
theorem idx_3_16 : ∀ t : Fin cfg3.N, win3_16.index t (0 : Fin 2) = t.val ∧ win3_16.index t (1 : Fin 2) = 0 :=
  (by decide +kernel : ∀ t : Fin grid3.N, _)

/-- Row r of window 0's block at point t is row 2000·t + r of its array. -/
theorem rowblk_3_0 (c : Dev nD) (t : Fin cfg3.N) (r : Fin 2000) (q : Fin 128) (hv : 2000 * t.val + r.val < 50000) :
    (iblk3 V c 0 t : S2000x128.Idx → EReal) (ix2 r q)
      = (V c (Pipeline.arrRef spec3 0) : S50000x128.Idx → EReal) (ix2 ⟨2000 * t.val + r.val, hv⟩ q) := by
  obtain ⟨e0, e1⟩ := idx_3_0 t
  show V c (Pipeline.arrRef spec3 0) (((cfg3.win 0).blk t).view.emb (ix2 r q))
    = V c (Pipeline.arrRef spec3 0) (ix2 ⟨2000 * t.val + r.val, hv⟩ q)
  refine congrArg _ (funext fun a => Fin.ext ?_)
  match a with
  | ⟨0, _⟩ => show win3_0.index t (0 : Fin 2) * 2000 + 1 * r.val = 2000 * t.val + r.val; omega
  | ⟨1, _⟩ => show win3_0.index t (1 : Fin 2) * 128 + 1 * q.val = q.val; omega

/-- Row r of window 1's block at point t is row 2000·t + r of its array. -/
theorem rowblk_3_1 (c : Dev nD) (t : Fin cfg3.N) (r : Fin 2000) (q : Fin 64) (hv : 2000 * t.val + r.val < 50000) :
    (iblk3 V c 1 t : S2000x64.Idx → EReal) (ix2 r q)
      = (V c (Pipeline.arrRef spec3 1) : S50000x64.Idx → EReal) (ix2 ⟨2000 * t.val + r.val, hv⟩ q) := by
  obtain ⟨e0, e1⟩ := idx_3_1 t
  show V c (Pipeline.arrRef spec3 1) (((cfg3.win 1).blk t).view.emb (ix2 r q))
    = V c (Pipeline.arrRef spec3 1) (ix2 ⟨2000 * t.val + r.val, hv⟩ q)
  refine congrArg _ (funext fun a => Fin.ext ?_)
  match a with
  | ⟨0, _⟩ => show win3_1.index t (0 : Fin 2) * 2000 + 1 * r.val = 2000 * t.val + r.val; omega
  | ⟨1, _⟩ => show win3_1.index t (1 : Fin 2) * 64 + 1 * q.val = q.val; omega

/-- Row r of window 2's block at point t is row 2000·t + r of its array. -/
theorem rowblk_3_2 (c : Dev nD) (t : Fin cfg3.N) (r : Fin 2000) (q : Fin 64) (hv : 2000 * t.val + r.val < 50000) :
    (iblk3 V c 2 t : S2000x64.Idx → EReal) (ix2 r q)
      = (V c (Pipeline.arrRef spec3 2) : S50000x64.Idx → EReal) (ix2 ⟨2000 * t.val + r.val, hv⟩ q) := by
  obtain ⟨e0, e1⟩ := idx_3_2 t
  show V c (Pipeline.arrRef spec3 2) (((cfg3.win 2).blk t).view.emb (ix2 r q))
    = V c (Pipeline.arrRef spec3 2) (ix2 ⟨2000 * t.val + r.val, hv⟩ q)
  refine congrArg _ (funext fun a => Fin.ext ?_)
  match a with
  | ⟨0, _⟩ => show win3_2.index t (0 : Fin 2) * 2000 + 1 * r.val = 2000 * t.val + r.val; omega
  | ⟨1, _⟩ => show win3_2.index t (1 : Fin 2) * 64 + 1 * q.val = q.val; omega

/-- Window 3's block is its whole array at every point. -/
theorem resblk_3_3 (c : Dev nD) (t : Fin cfg3.N) :
    (iblk3 V c 3 t : S64x128.Idx → EReal) = (V c (Pipeline.arrRef spec3 3) : S64x128.Idx → EReal) := by
  obtain ⟨e0, e1⟩ := idx_3_3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 128 + 1 * (y 1).val = (y 1).val; omega

/-- Window 4's block is its whole array at every point. -/
theorem resblk_3_4 (c : Dev nD) (t : Fin cfg3.N) :
    (iblk3 V c 4 t : S128x64.Idx → EReal) = (V c (Pipeline.arrRef spec3 4) : S128x64.Idx → EReal) := by
  obtain ⟨e0, e1⟩ := idx_3_4 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 64 + 1 * (y 1).val = (y 1).val; omega

/-- Window 5's block is its whole array at every point. -/
theorem resblk_3_5 (c : Dev nD) (t : Fin cfg3.N) :
    (iblk3 V c 5 t : S128x64.Idx → EReal) = (V c (Pipeline.arrRef spec3 5) : S128x64.Idx → EReal) := by
  obtain ⟨e0, e1⟩ := idx_3_5 t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 64 + 1 * (y 1).val = (y 1).val; omega

/-- Window 6's block is its whole array at every point. -/
theorem resblk_3_6 (c : Dev nD) (t : Fin cfg3.N) :
    (iblk3 V c 6 t : S128x64.Idx → EReal) = (V c (Pipeline.arrRef spec3 6) : S128x64.Idx → EReal) := by
  obtain ⟨e0, e1⟩ := idx_3_6 t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 128 + 1 * (y 0).val = (y 0).val; omega
  | ⟨1, _⟩ => show win3_6.index t (1 : Fin 2) * 64 + 1 * (y 1).val = (y 1).val; omega

/-- Window 7's block is its whole array at every point. -/
theorem resblk_3_7 (c : Dev nD) (t : Fin cfg3.N) :
    (iblk3 V c 7 t : S64x64.Idx → EReal) = (V c (Pipeline.arrRef spec3 7) : S64x64.Idx → EReal) := by
  obtain ⟨e0, e1⟩ := idx_3_7 t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 64 + 1 * (y 0).val = (y 0).val; omega
  | ⟨1, _⟩ => show win3_7.index t (1 : Fin 2) * 64 + 1 * (y 1).val = (y 1).val; omega

/-- Window 8's block is its whole array at every point. -/
theorem resblk_3_8 (c : Dev nD) (t : Fin cfg3.N) :
    (iblk3 V c 8 t : S64x64.Idx → EReal) = (V c (Pipeline.arrRef spec3 8) : S64x64.Idx → EReal) := by
  obtain ⟨e0, e1⟩ := idx_3_8 t
  funext y
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 64 + 1 * (y 0).val = (y 0).val; omega
  | ⟨1, _⟩ => show win3_8.index t (1 : Fin 2) * 64 + 1 * (y 1).val = (y 1).val; omega

/-- Window 9's block is its whole array at every point. -/
theorem resblk_3_9 (c : Dev nD) (t : Fin cfg3.N) :
    (iblk3 V c 9 t : S64x64.Idx → EReal) = (V c (Pipeline.arrRef spec3 9) : S64x64.Idx → EReal) := by
  obtain ⟨e0, e1⟩ := idx_3_9 t
  funext y
  show V c (Pipeline.arrRef spec3 9) (((cfg3.win 9).blk t).view.emb y) = V c (Pipeline.arrRef spec3 9) y
  refine congrArg _ (funext fun a => Fin.ext ?_)
  match a with
  | ⟨0, _⟩ => show win3_9.index t (0 : Fin 2) * 64 + 1 * (y 0).val = (y 0).val; omega
  | ⟨1, _⟩ => show win3_9.index t (1 : Fin 2) * 64 + 1 * (y 1).val = (y 1).val; omega

/-- Window 10's block is its whole array at every point. -/
theorem resblk_3_10 (c : Dev nD) (t : Fin cfg3.N) :
    (iblk3 V c 10 t : S1x64.Idx → EReal) = (V c (Pipeline.arrRef spec3 10) : S1x64.Idx → EReal) := by
  obtain ⟨e0, e1⟩ := idx_3_10 t
  funext y
  show V c (Pipeline.arrRef spec3 10) (((cfg3.win 10).blk t).view.emb y) = V c (Pipeline.arrRef spec3 10) y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 64 + 1 * (y 1).val = (y 1).val; omega

/-- Window 11's block is its whole array at every point. -/
theorem resblk_3_11 (c : Dev nD) (t : Fin cfg3.N) :
    (iblk3 V c 11 t : S1x64.Idx → EReal) = (V c (Pipeline.arrRef spec3 11) : S1x64.Idx → EReal) := by
  obtain ⟨e0, e1⟩ := idx_3_11 t
  funext y
  show V c (Pipeline.arrRef spec3 11) (((cfg3.win 11).blk t).view.emb y) = V c (Pipeline.arrRef spec3 11) y
  refine congrArg _ (funext fun a => Fin.ext ?_)
  match a with
  | ⟨0, _⟩ => show win3_11.index t (0 : Fin 2) * 1 + 1 * (y 0).val = (y 0).val; omega
  | ⟨1, _⟩ => show win3_11.index t (1 : Fin 2) * 64 + 1 * (y 1).val = (y 1).val; omega

/-- Window 12's block is its whole array at every point. -/
theorem resblk_3_12 (c : Dev nD) (t : Fin cfg3.N) :
    (iblk3 V c 12 t : S1x64.Idx → EReal) = (V c (Pipeline.arrRef spec3 12) : S1x64.Idx → EReal) := by
  obtain ⟨e0, e1⟩ := idx_3_12 t
  funext y
  show V c (Pipeline.arrRef spec3 12) (((cfg3.win 12).blk t).view.emb y) = V c (Pipeline.arrRef spec3 12) y
  refine congrArg _ (funext fun a => Fin.ext ?_)
  match a with
  | ⟨0, _⟩ => show win3_12.index t (0 : Fin 2) * 1 + 1 * (y 0).val = (y 0).val; omega
  | ⟨1, _⟩ => show win3_12.index t (1 : Fin 2) * 64 + 1 * (y 1).val = (y 1).val; omega

/-- Window 13's block is its whole array at every point. -/
theorem resblk_3_13 (c : Dev nD) (t : Fin cfg3.N) :
    (iblk3 V c 13 t : S1x64.Idx → EReal) = (V c (Pipeline.arrRef spec3 13) : S1x64.Idx → EReal) := by
  obtain ⟨e0, e1⟩ := idx_3_13 t
  funext y
  show V c (Pipeline.arrRef spec3 13) (((cfg3.win 13).blk t).view.emb y) = V c (Pipeline.arrRef spec3 13) y
  refine congrArg _ (funext fun a => Fin.ext ?_)
  match a with
  | ⟨0, _⟩ => show win3_13.index t (0 : Fin 2) * 1 + 1 * (y 0).val = (y 0).val; omega
  | ⟨1, _⟩ => show win3_13.index t (1 : Fin 2) * 64 + 1 * (y 1).val = (y 1).val; omega

/-- Window 14's block is its whole array at every point. -/
theorem resblk_3_14 (c : Dev nD) (t : Fin cfg3.N) :
    (iblk3 V c 14 t : S1x64.Idx → EReal) = (V c (Pipeline.arrRef spec3 14) : S1x64.Idx → EReal) := by
  obtain ⟨e0, e1⟩ := idx_3_14 t
  funext y
  show V c (Pipeline.arrRef spec3 14) (((cfg3.win 14).blk t).view.emb y) = V c (Pipeline.arrRef spec3 14) y
  refine congrArg _ (funext fun a => Fin.ext ?_)
  match a with
  | ⟨0, _⟩ => show win3_14.index t (0 : Fin 2) * 1 + 1 * (y 0).val = (y 0).val; omega
  | ⟨1, _⟩ => show win3_14.index t (1 : Fin 2) * 64 + 1 * (y 1).val = (y 1).val; omega

/-- Window 15's block is its whole array at every point. -/
theorem resblk_3_15 (c : Dev nD) (t : Fin cfg3.N) :
    (iblk3 V c 15 t : S1x64.Idx → EReal) = (V c (Pipeline.arrRef spec3 15) : S1x64.Idx → EReal) := by
  obtain ⟨e0, e1⟩ := idx_3_15 t
  funext y
  show V c (Pipeline.arrRef spec3 15) (((cfg3.win 15).blk t).view.emb y) = V c (Pipeline.arrRef spec3 15) y
  refine congrArg _ (funext fun a => Fin.ext ?_)
  match a with
  | ⟨0, _⟩ => show win3_15.index t (0 : Fin 2) * 1 + 1 * (y 0).val = (y 0).val; omega
  | ⟨1, _⟩ => show win3_15.index t (1 : Fin 2) * 64 + 1 * (y 1).val = (y 1).val; omega

set_option maxHeartbeats 2000000 in
/-- The array the kernel leaves: the gated update of every row of the arrays it found. -/
def arr_3 (c : Dev nD) : S50000x64.Idx → EReal := fun i =>
  Cert.Gnn.gruRows (fun v q => (V c (Pipeline.arrRef spec3 0) : S50000x128.Idx → EReal) (ix2 v q)) (fun v k => (V c (Pipeline.arrRef spec3 1) : S50000x64.Idx → EReal) (ix2 v k)) (fun v k => (V c (Pipeline.arrRef spec3 2) : S50000x64.Idx → EReal) (ix2 v k))
          (fun k q => (V c (Pipeline.arrRef spec3 3) : S64x128.Idx → EReal) (ix2 k q)) (fun q j => (V c (Pipeline.arrRef spec3 4) : S128x64.Idx → EReal) (ix2 q j)) (fun q j => (V c (Pipeline.arrRef spec3 5) : S128x64.Idx → EReal) (ix2 q j)) (fun q j => (V c (Pipeline.arrRef spec3 6) : S128x64.Idx → EReal) (ix2 q j))
          (fun k j => (V c (Pipeline.arrRef spec3 7) : S64x64.Idx → EReal) (ix2 k j)) (fun k j => (V c (Pipeline.arrRef spec3 8) : S64x64.Idx → EReal) (ix2 k j)) (fun k j => (V c (Pipeline.arrRef spec3 9) : S64x64.Idx → EReal) (ix2 k j))
          (fun j => (V c (Pipeline.arrRef spec3 10) : S1x64.Idx → EReal) (ix2 (0 : Fin 1) j)) (fun j => (V c (Pipeline.arrRef spec3 11) : S1x64.Idx → EReal) (ix2 (0 : Fin 1) j)) (fun j => (V c (Pipeline.arrRef spec3 12) : S1x64.Idx → EReal) (ix2 (0 : Fin 1) j))
          (fun j => (V c (Pipeline.arrRef spec3 13) : S1x64.Idx → EReal) (ix2 (0 : Fin 1) j)) (fun j => (V c (Pipeline.arrRef spec3 14) : S1x64.Idx → EReal) (ix2 (0 : Fin 1) j)) (fun j => (V c (Pipeline.arrRef spec3 15) : S1x64.Idx → EReal) (ix2 (0 : Fin 1) j)) (i 0) (i 1)

set_option maxHeartbeats 2000000 in
/-- What point t writes back is block t of that array: rows 2000·t … 2000·t + 1999. -/
theorem flushed_3 (c : Dev nD) (t : Fin cfg3.N) :
    (dat3 V c).flushed 16 t = ((cfg3.win 16).blk t).view.read (Elt Ideal) (arr_3 V c) := by
  have hN : cfg3.N = 25 := N_3
  obtain ⟨e0, e1⟩ := idx_3_16 t
  have ht := t.isLt
  show (cfg3.win 16).cut (grid3.coords t) ((dat3 V c).after 16 t) = _
  rw [after3_16]
  funext y
  obtain ⟨r, j, rfl⟩ : ∃ (r : Fin 2000) (j : Fin 64), y = ix2 r j := ⟨y 0, y 1, eq_ix2 y⟩
  have hv : 2000 * t.val + r.val < 50000 := by have := r.isLt; omega
  have hemb : ((cfg3.win 16).blk t).view.emb (ix2 r j) = (ix2 ⟨2000 * t.val + r.val, hv⟩ j : S50000x64.Idx) := by
    funext a; apply Fin.ext
    match a with
    | ⟨0, _⟩ => show win3_16.index t (0 : Fin 2) * 2000 + 1 * r.val = 2000 * t.val + r.val; omega
    | ⟨1, _⟩ => show win3_16.index t (1 : Fin 2) * 64 + 1 * j.val = j.val; omega
  show out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (ix2 r j)
    = arr_3 V c (((cfg3.win 16).blk t).view.emb (ix2 r j))
  rw [hemb]
  exact point_3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14)) (V c (Pipeline.arrRef spec3 15))
    ⟨2000 * t.val + r.val, hv⟩ r j
    (fun q => rowblk_3_0 V c t r q hv) (fun k => rowblk_3_1 V c t r k hv) (fun k => rowblk_3_2 V c t r k hv)
    (resblk_3_3 V c t) (resblk_3_4 V c t) (resblk_3_5 V c t) (resblk_3_6 V c t) (resblk_3_7 V c t) (resblk_3_8 V c t) (resblk_3_9 V c t) (resblk_3_10 V c t) (resblk_3_11 V c t) (resblk_3_12 V c t) (resblk_3_13 V c t) (resblk_3_14 V c t) (resblk_3_15 V c t)

/-- An entry of the output array lies in point t's block exactly when its row is one of the block's 2000 rows. -/
theorem mem_blk_3 (t : Fin cfg3.N) (i : S50000x64.Idx) :
    i ∈ ((cfg3.win 16).blk t).view.set ↔ ∀ a : Fin 2, win3_16.index t a * S2000x64.size a ≤ (i a).val ∧ (i a).val < win3_16.index t a * S2000x64.size a + S2000x64.size a := by
  show i ∈ ((View.whole main_v0).slice (win3_16.rect t)).set ↔ _
  rw [View.set_slice_whole, Rect.mem_set_unit]
  exact Iff.rfl

/-- Every entry of the output array is written by some point: row v by point v / 2000. -/
theorem cover_3 (i : S50000x64.Idx) :
    ∃ t : Fin cfg3.N, (cfg3.win 16).flush t = true ∧ i ∈ ((cfg3.win 16).blk t).view.set := by
  have hN : cfg3.N = 25 := N_3
  have hi0 : (i 0).val < 50000 := idx2_lt0 i
  have hi1 : (i 1).val < 64 := idx2_lt1 i
  obtain ⟨t, ht⟩ : ∃ t : Fin cfg3.N, t.val = (i 0).val / 2000 := ⟨⟨(i 0).val / 2000, by rw [hN]; omega⟩, rfl⟩
  obtain ⟨e0, e1⟩ := idx_3_16 t
  refine ⟨t, flush3_16 t, ?_⟩
  rw [mem_blk_3]
  intro a
  match a with
  | ⟨0, _⟩ => show win3_16.index t (0 : Fin 2) * 2000 ≤ (i 0).val ∧ (i 0).val < win3_16.index t (0 : Fin 2) * 2000 + 2000; omega
  | ⟨1, _⟩ => show win3_16.index t (1 : Fin 2) * 64 ≤ (i 1).val ∧ (i 1).val < win3_16.index t (1 : Fin 2) * 64 + 64; omega

/-- The output array after the kernel is the gated update of the arrays it found, row by row. -/
theorem array_3 (c : Dev nD) : (dat3 V c).arrAt 16 cfg3.N = arr_3 V c :=
  (dat3 V c).arrAt_eq_of_cover 16 (arr_3 V c) (fun t _ => flushed_3 V c t) cover_3

/-! ## The two statements -/

set_option maxHeartbeats 2000000 in
/-- After the first update kernel, entry (v, j) of its output array is the gated update of node v, column j,
    computed from the arrays the kernel found. -/
theorem final1 (c : Dev nD) (v : Fin 50000) (j : Fin 64) :
    ((dat1 (F := Ideal) V c).arrAt 16 cfg1.N : S50000x64.Idx → EReal) (ix2 v j)
      = Cert.Gnn.gruRows
          (fun v q => (V c (Pipeline.arrRef spec1 0) : S50000x128.Idx → EReal) (ix2 v q))
          (fun v k => (V c (Pipeline.arrRef spec1 1) : S50000x64.Idx → EReal) (ix2 v k))
          (fun v k => (V c (Pipeline.arrRef spec1 2) : S50000x64.Idx → EReal) (ix2 v k))
          (fun k q => (V c (Pipeline.arrRef spec1 3) : S64x128.Idx → EReal) (ix2 k q))
          (fun q j => (V c (Pipeline.arrRef spec1 4) : S128x64.Idx → EReal) (ix2 q j))
          (fun q j => (V c (Pipeline.arrRef spec1 5) : S128x64.Idx → EReal) (ix2 q j))
          (fun q j => (V c (Pipeline.arrRef spec1 6) : S128x64.Idx → EReal) (ix2 q j))
          (fun k j => (V c (Pipeline.arrRef spec1 7) : S64x64.Idx → EReal) (ix2 k j))
          (fun k j => (V c (Pipeline.arrRef spec1 8) : S64x64.Idx → EReal) (ix2 k j))
          (fun k j => (V c (Pipeline.arrRef spec1 9) : S64x64.Idx → EReal) (ix2 k j))
          (fun j => (V c (Pipeline.arrRef spec1 10) : S1x64.Idx → EReal) (ix2 (0 : Fin 1) j))
          (fun j => (V c (Pipeline.arrRef spec1 11) : S1x64.Idx → EReal) (ix2 (0 : Fin 1) j))
          (fun j => (V c (Pipeline.arrRef spec1 12) : S1x64.Idx → EReal) (ix2 (0 : Fin 1) j))
          (fun j => (V c (Pipeline.arrRef spec1 13) : S1x64.Idx → EReal) (ix2 (0 : Fin 1) j))
          (fun j => (V c (Pipeline.arrRef spec1 14) : S1x64.Idx → EReal) (ix2 (0 : Fin 1) j))
          (fun j => (V c (Pipeline.arrRef spec1 15) : S1x64.Idx → EReal) (ix2 (0 : Fin 1) j)) v j :=
  congrFun (array_1 V c) (ix2 v j)

set_option maxHeartbeats 2000000 in
/-- After the second update kernel, entry (v, j) of its output array is the gated update of node v, column j,
    computed from the arrays the kernel found. -/
theorem final3 (c : Dev nD) (v : Fin 50000) (j : Fin 64) :
    ((dat3 (F := Ideal) V c).arrAt 16 cfg3.N : S50000x64.Idx → EReal) (ix2 v j)
      = Cert.Gnn.gruRows
          (fun v q => (V c (Pipeline.arrRef spec3 0) : S50000x128.Idx → EReal) (ix2 v q))
          (fun v k => (V c (Pipeline.arrRef spec3 1) : S50000x64.Idx → EReal) (ix2 v k))
          (fun v k => (V c (Pipeline.arrRef spec3 2) : S50000x64.Idx → EReal) (ix2 v k))
          (fun k q => (V c (Pipeline.arrRef spec3 3) : S64x128.Idx → EReal) (ix2 k q))
          (fun q j => (V c (Pipeline.arrRef spec3 4) : S128x64.Idx → EReal) (ix2 q j))
          (fun q j => (V c (Pipeline.arrRef spec3 5) : S128x64.Idx → EReal) (ix2 q j))
          (fun q j => (V c (Pipeline.arrRef spec3 6) : S128x64.Idx → EReal) (ix2 q j))
          (fun k j => (V c (Pipeline.arrRef spec3 7) : S64x64.Idx → EReal) (ix2 k j))
          (fun k j => (V c (Pipeline.arrRef spec3 8) : S64x64.Idx → EReal) (ix2 k j))
          (fun k j => (V c (Pipeline.arrRef spec3 9) : S64x64.Idx → EReal) (ix2 k j))
          (fun j => (V c (Pipeline.arrRef spec3 10) : S1x64.Idx → EReal) (ix2 (0 : Fin 1) j))
          (fun j => (V c (Pipeline.arrRef spec3 11) : S1x64.Idx → EReal) (ix2 (0 : Fin 1) j))
          (fun j => (V c (Pipeline.arrRef spec3 12) : S1x64.Idx → EReal) (ix2 (0 : Fin 1) j))
          (fun j => (V c (Pipeline.arrRef spec3 13) : S1x64.Idx → EReal) (ix2 (0 : Fin 1) j))
          (fun j => (V c (Pipeline.arrRef spec3 14) : S1x64.Idx → EReal) (ix2 (0 : Fin 1) j))
          (fun j => (V c (Pipeline.arrRef spec3 15) : S1x64.Idx → EReal) (ix2 (0 : Fin 1) j)) v j :=
  congrFun (array_3 V c) (ix2 v j)

end Cert.KernelIdeal.GruValue

end
-- ==== Proof.Weights.lean ====
/-
  What the weight and bias windows of the four kernel launches hold.

  Before each launch the host cuts the launch's operands out of the stacked parameter arrays of the two rounds:
  it takes the matrix (or vector) of round t out of the stack, cuts a band of 64 consecutive columns or rows
  (or 64 consecutive entries of a vector), transposes a matrix band, converts it to the narrow float format, and gives
  a vector a leading unit axis.  On extended reals a change of float format is the identity, a transpose swaps the two
  coordinates, a band starting at offset o reads the source at o plus the coordinate, and dropping or adding a unit axis
  does not move an entry.  So every window entry is one entry of a stacked parameter array as it was when the program
  was launched:

    message kernel of round t:   Ws[k, q] = w_msg[t, q, 64 + k],   We[k, q] = w_msg[t, q, 128 + k],   b[0, q] = b_msg[t, q];
    update kernel of round t:    Wd[k, q] = w_msg[t, q, k],
                                 W_ih^g[q, j] = w_ih[t, o_g + j, q],   W_hh^g[k, j] = w_hh[t, o_g + j, k],
                                 b_ih^g[0, j] = b_ih[t, o_g + j],      b_hh^g[0, j] = b_hh[t, o_g + j],
                                 with o_g = 0, 64, 128 for the reset, update and candidate gates g = r, z, n.
-/
import proofs.«163931_j15083925143987_2_alg».proof.Proof.KeptArgs
import Idealize.ShloMosaic.Lib.ValueLayout

set_option maxRecDepth 16384

noncomputable section

namespace Cert.KernelIdeal.HostSide

open Idealize.ShloMosaic Idealize.ShloMosaic.TcCoe Idealize.ShloMosaic.ValueIdx Idealize.SL.Sem Cert.KernelIdeal Cert.KernelIdeal.Gen

/-! ## Bands, transposes and unit axes read at an entry -/

section Layout

variable {α : Type}

/-- A stack of matrices cut along the stacking axis from `o` reads, at `(j, a, e)`, the stack at `(k, a, e)` with
    `k = o + j`. -/
theorem slice3_axis0_apply {n0 n1 n2 w : Nat} (o : Nat) (X : (⟨3, ![n0, n1, n2]⟩ : Shape).Idx → α)
    (h : (⟨3, ![n0, n1, n2]⟩ : Shape).Slices ![o, 0, 0] ⟨3, ![w, n1, n2]⟩)
    (j : Fin w) (a : Fin n1) (e : Fin n2) (k : Fin n0) (hk : k.val = o + j.val) :
    extractStridedSlice ⟨3, ![w, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A vector cut from `o` reads, at `j`, the vector at `k = o + j`. -/
theorem slice1_apply {n w : Nat} (o : Nat) (X : (⟨1, ![n]⟩ : Shape).Idx → α)
    (h : (⟨1, ![n]⟩ : Shape).Slices ![o] ⟨1, ![w]⟩) (j : Fin w) (k : Fin n) (hk : k.val = o + j.val) :
    extractStridedSlice ⟨1, ![w]⟩ ![o] X h (ix1 j) = X (ix1 k) :=
  extractStridedSlice_apply _ _ _ _ _ (fun ax => by
    match ax with
    | ⟨0, _⟩ => exact hk)

end Layout

/-- Matrix `t` of a stack `[T, R, C]`, its columns `col … col + w - 1`, transposed and converted: entry `(k, q)` is the
    stack's entry `(t, q, col + k)`. -/
theorem colBand_apply {T R C w : Nat} (t col : Nat) (X : (⟨3, ![T, R, C]⟩ : Shape).Idx → EReal)
    (h1 : (⟨3, ![T, R, C]⟩ : Shape).Slices ![t, 0, 0] ⟨3, ![1, R, C]⟩)
    (h2 : (⟨3, ![1, R, C]⟩ : Shape).ShapeCasts ⟨2, ![R, C]⟩)
    (h3 : (⟨2, ![R, C]⟩ : Shape).Slices ![0, col] ⟨2, ![R, w]⟩)
    (h4 : (⟨2, ![R, w]⟩ : Shape).Transposes [1, 0] ⟨2, ![w, R]⟩) (hb : FTy.bf16.bits < FTy.f32.bits)
    (k : Fin w) (q : Fin R) (tt : Fin T) (kk : Fin C) (ht : tt.val = t) (hk : kk.val = col + k.val) :
    (truncf (F := Ideal) .bf16 (φ := .f32) (transpose ⟨2, ![w, R]⟩ [1, 0] (extractStridedSlice ⟨2, ![R, w]⟩ ![0, col]
        (shapeCast ⟨2, ![R, C]⟩ (extractStridedSlice ⟨3, ![1, R, C]⟩ ![t, 0, 0] X h1) h2) h3) h4) hb
      : (⟨2, ![w, R]⟩ : Shape).Idx → EReal) (ix2 k q) = X (ix3 tt q kk) := by
  refine (truncf_apply (φ := .f32) (ψ := .bf16) _ hb _).trans ?_
  refine (transpose_ix2_apply _ h4 k q).trans ?_
  refine (slice2_axis1_apply col _ h3 q k kk hk).trans ?_
  refine (shapeCast_1ab_ab_apply _ h2 q kk).trans ?_
  exact slice3_axis0_apply t X h1 (0 : Fin 1) q kk tt (by rw [ht]; rfl)

/-- Matrix `t` of a stack `[T, R, C]`, its rows `row … row + w - 1`, transposed and converted: entry `(q, j)` is the
    stack's entry `(t, row + j, q)`. -/
theorem rowBand_apply {T R C w : Nat} (t row : Nat) (X : (⟨3, ![T, R, C]⟩ : Shape).Idx → EReal)
    (h1 : (⟨3, ![T, R, C]⟩ : Shape).Slices ![t, 0, 0] ⟨3, ![1, R, C]⟩)
    (h2 : (⟨3, ![1, R, C]⟩ : Shape).ShapeCasts ⟨2, ![R, C]⟩)
    (h3 : (⟨2, ![R, C]⟩ : Shape).Slices ![row, 0] ⟨2, ![w, C]⟩)
    (h4 : (⟨2, ![w, C]⟩ : Shape).Transposes [1, 0] ⟨2, ![C, w]⟩) (hb : FTy.bf16.bits < FTy.f32.bits)
    (q : Fin C) (j : Fin w) (tt : Fin T) (jj : Fin R) (ht : tt.val = t) (hj : jj.val = row + j.val) :
    (truncf (F := Ideal) .bf16 (φ := .f32) (transpose ⟨2, ![C, w]⟩ [1, 0] (extractStridedSlice ⟨2, ![w, C]⟩ ![row, 0]
        (shapeCast ⟨2, ![R, C]⟩ (extractStridedSlice ⟨3, ![1, R, C]⟩ ![t, 0, 0] X h1) h2) h3) h4) hb
      : (⟨2, ![C, w]⟩ : Shape).Idx → EReal) (ix2 q j) = X (ix3 tt jj q) := by
  refine (truncf_apply (φ := .f32) (ψ := .bf16) _ hb _).trans ?_
  refine (transpose_ix2_apply _ h4 q j).trans ?_
  refine (slice2_axis0_apply row _ h3 j q jj hj).trans ?_
  refine (shapeCast_1ab_ab_apply _ h2 jj q).trans ?_
  exact slice3_axis0_apply t X h1 (0 : Fin 1) jj q tt (by rw [ht]; rfl)

/-- Vector `t` of a stack `[T, L]`, its entries `o … o + w - 1`, as a row: entry `(u, j)` is the stack's entry
    `(t, o + j)`. -/
theorem vecBand_apply {T L w : Nat} (t o : Nat) (X : (⟨2, ![T, L]⟩ : Shape).Idx → EReal)
    (h1 : (⟨2, ![T, L]⟩ : Shape).Slices ![t, 0] ⟨2, ![1, L]⟩)
    (h2 : (⟨2, ![1, L]⟩ : Shape).ShapeCasts ⟨1, ![L]⟩)
    (h3 : (⟨1, ![L]⟩ : Shape).Slices ![o] ⟨1, ![w]⟩)
    (h4 : (⟨1, ![w]⟩ : Shape).ShapeCasts ⟨2, ![1, w]⟩)
    (u : Fin 1) (j : Fin w) (tt : Fin T) (jj : Fin L) (ht : tt.val = t) (hj : jj.val = o + j.val) :
    shapeCast ⟨2, ![1, w]⟩ (extractStridedSlice ⟨1, ![w]⟩ ![o]
        (shapeCast ⟨1, ![L]⟩ (extractStridedSlice ⟨2, ![1, L]⟩ ![t, 0] X h1) h2) h3) h4 (ix2 u j) = X (ix2 tt jj) := by
  refine (shapeCast_a_1a_apply _ h4 u j).trans ?_
  refine (slice1_apply o _ h3 j jj hj).trans ?_
  refine (shapeCast_1a_a_apply _ h2 jj).trans ?_
  exact slice2_axis0_apply t X h1 (0 : Fin 1) jj tt (by rw [ht]; rfl)

/-- Vector `t` of a stack `[T, L]` as a row: entry `(u, q)` is the stack's entry `(t, q)`. -/
theorem vecRow_apply {T L : Nat} (t : Nat) (X : (⟨2, ![T, L]⟩ : Shape).Idx → EReal)
    (h1 : (⟨2, ![T, L]⟩ : Shape).Slices ![t, 0] ⟨2, ![1, L]⟩)
    (h2 : (⟨2, ![1, L]⟩ : Shape).ShapeCasts ⟨1, ![L]⟩)
    (h4 : (⟨1, ![L]⟩ : Shape).ShapeCasts ⟨2, ![1, L]⟩)
    (u : Fin 1) (q : Fin L) (tt : Fin T) (ht : tt.val = t) :
    shapeCast ⟨2, ![1, L]⟩ (shapeCast ⟨1, ![L]⟩ (extractStridedSlice ⟨2, ![1, L]⟩ ![t, 0] X h1) h2) h4 (ix2 u q)
      = X (ix2 tt q) := by
  refine (shapeCast_a_1a_apply _ h4 u q).trans ?_
  refine (shapeCast_1a_a_apply _ h2 q).trans ?_
  exact slice2_axis0_apply t X h1 (0 : Fin 1) q tt (by rw [ht]; rfl)

variable (m : (ℓ : Loc nD τ sig) → Buf (Elt Ideal) ℓ) (ρ : Dev nD → PrngReg)

/-- The source-state weights of the first round's message kernel: entry (k, q) is w_msg[0, q, 64 + k]. -/
theorem ws0 (c : Dev nD) (k : Fin 64) (q : Fin 128) :
    (V1 m ρ c (Pipeline.arrRef spec0 2) : S64x128.Idx → EReal) (ix2 k q)
      = (m ((c : Thread nD τ).loc main_arg4) : S2x128x192.Idx → EReal) (ix3 (0 : Fin 2) q (⟨64 + k.val, by omega⟩ : Fin 192)) := by
  have e : (V1 m ρ c (Pipeline.arrRef spec0 2) : S64x128.Idx → EReal)
      = truncf (F := Ideal) .bf16 (φ := .f32) (transpose S64x128 [1, 0] (extractStridedSlice S128x64 ![0, 64]
          (shapeCast S128x192 (extractStridedSlice S1x128x192 ![0, 0, 0] (W0 m ρ c (Proc.devRef .tc main_arg4) : S2x128x192.Idx → EReal)
            slices_S2x128x192_S1x128x192_0_0_0) shapeCasts_S1x128x192_S128x192) slices_S128x192_S128x64_0_64) transposes_S128x64_S64x128_1_0) bitsLt_bf16_f32 := by
    show StableHlo.after hostOps0 (W0 m ρ c) (Proc.devRef .tc main_call0_v22) = _
    after_results
    rfl
  rw [e]
  exact colBand_apply 0 64 _ _ _ _ _ _ k q (0 : Fin 2) _ rfl rfl

/-- The edge-feature weights of the first round's message kernel: entry (k, q) is w_msg[0, q, 128 + k]. -/
theorem we0 (c : Dev nD) (k : Fin 64) (q : Fin 128) :
    (V1 m ρ c (Pipeline.arrRef spec0 3) : S64x128.Idx → EReal) (ix2 k q)
      = (m ((c : Thread nD τ).loc main_arg4) : S2x128x192.Idx → EReal) (ix3 (0 : Fin 2) q (⟨128 + k.val, by omega⟩ : Fin 192)) := by
  have e : (V1 m ρ c (Pipeline.arrRef spec0 3) : S64x128.Idx → EReal)
      = truncf (F := Ideal) .bf16 (φ := .f32) (transpose S64x128 [1, 0] (extractStridedSlice S128x64 ![0, 128]
          (shapeCast S128x192 (extractStridedSlice S1x128x192 ![0, 0, 0] (W0 m ρ c (Proc.devRef .tc main_arg4) : S2x128x192.Idx → EReal)
            slices_S2x128x192_S1x128x192_0_0_0) shapeCasts_S1x128x192_S128x192) slices_S128x192_S128x64_0_128) transposes_S128x64_S64x128_1_0) bitsLt_bf16_f32 := by
    show StableHlo.after hostOps0 (W0 m ρ c) (Proc.devRef .tc main_call0_v25) = _
    after_results
    rfl
  rw [e]
  exact colBand_apply 0 128 _ _ _ _ _ _ k q (0 : Fin 2) _ rfl rfl

/-- The bias row of the first round's message kernel: entry (0, q) is b_msg[0, q]. -/
theorem bm0 (c : Dev nD) (q : Fin 128) :
    (V1 m ρ c (Pipeline.arrRef spec0 4) : S1x128.Idx → EReal) (ix2 (0 : Fin 1) q)
      = (m ((c : Thread nD τ).loc main_arg5) : S2x128.Idx → EReal) (ix2 (0 : Fin 2) q) := by
  have e : (V1 m ρ c (Pipeline.arrRef spec0 4) : S1x128.Idx → EReal)
      = shapeCast S1x128 (shapeCast S128 (extractStridedSlice S1x128 ![0, 0] (W0 m ρ c (Proc.devRef .tc main_arg5) : S2x128.Idx → EReal)
            slices_S2x128_S1x128_0_0) shapeCasts_S1x128_S128) shapeCasts_S128_S1x128 := by
    show StableHlo.after hostOps0 (W0 m ρ c) (Proc.devRef .tc main_call0_v26) = _
    after_results
    rfl
  rw [e]
  exact vecRow_apply 0 _ _ _ _ (0 : Fin 1) q (0 : Fin 2) rfl

/-- The destination-state weights folded into the first round's update kernel: entry (k, q) is w_msg[0, q, k]. -/
theorem wd1 (c : Dev nD) (k : Fin 64) (q : Fin 128) :
    (V3 m ρ c (Pipeline.arrRef spec1 3) : S64x128.Idx → EReal) (ix2 k q)
      = (m ((c : Thread nD τ).loc main_arg4) : S2x128x192.Idx → EReal) (ix3 (0 : Fin 2) q (⟨k.val, by omega⟩ : Fin 192)) := by
  have e : (V3 m ρ c (Pipeline.arrRef spec1 3) : S64x128.Idx → EReal)
      = truncf (F := Ideal) .bf16 (φ := .f32) (transpose S64x128 [1, 0] (extractStridedSlice S128x64 ![0, 0]
          (shapeCast S128x192 (extractStridedSlice S1x128x192 ![0, 0, 0] (W2 m ρ c (Proc.devRef .tc main_arg4) : S2x128x192.Idx → EReal)
            slices_S2x128x192_S1x128x192_0_0_0) shapeCasts_S1x128x192_S128x192) slices_S128x192_S128x64_0_0) transposes_S128x64_S64x128_1_0) bitsLt_bf16_f32 := by
    show StableHlo.after hostOps1 (W2 m ρ c) (Proc.devRef .tc main_call0_v44) = _
    after_results
    rfl
  rw [e, W2_main_arg4]
  exact colBand_apply 0 0 _ _ _ _ _ _ k q (0 : Fin 2) _ rfl (Nat.zero_add _).symm

/-- The input-to-hidden weights of the reset gate, first round: entry (q, j) is w_ih[0, j, q]. -/
theorem wih1_r (c : Dev nD) (q : Fin 128) (j : Fin 64) :
    (V3 m ρ c (Pipeline.arrRef spec1 4) : S128x64.Idx → EReal) (ix2 q j)
      = (m ((c : Thread nD τ).loc main_arg6) : S2x192x128.Idx → EReal) (ix3 (0 : Fin 2) (⟨j.val, by omega⟩ : Fin 192) q) := by
  have e : (V3 m ρ c (Pipeline.arrRef spec1 4) : S128x64.Idx → EReal)
      = truncf (F := Ideal) .bf16 (φ := .f32) (transpose S128x64 [1, 0] (extractStridedSlice S64x128 ![0, 0]
          (shapeCast S192x128 (extractStridedSlice S1x192x128 ![0, 0, 0] (W2 m ρ c (Proc.devRef .tc main_arg6) : S2x192x128.Idx → EReal)
            slices_S2x192x128_S1x192x128_0_0_0) shapeCasts_S1x192x128_S192x128) slices_S192x128_S64x128_0_0) transposes_S64x128_S128x64_1_0) bitsLt_bf16_f32 := by
    show StableHlo.after hostOps1 (W2 m ρ c) (Proc.devRef .tc main_call0_v47) = _
    after_results
    rfl
  rw [e, W2_main_arg6]
  exact rowBand_apply 0 0 _ _ _ _ _ _ q j (0 : Fin 2) _ rfl (Nat.zero_add _).symm

/-- The input-to-hidden weights of the update gate, first round: entry (q, j) is w_ih[0, 64 + j, q]. -/
theorem wih1_z (c : Dev nD) (q : Fin 128) (j : Fin 64) :
    (V3 m ρ c (Pipeline.arrRef spec1 5) : S128x64.Idx → EReal) (ix2 q j)
      = (m ((c : Thread nD τ).loc main_arg6) : S2x192x128.Idx → EReal) (ix3 (0 : Fin 2) (⟨64 + j.val, by omega⟩ : Fin 192) q) := by
  have e : (V3 m ρ c (Pipeline.arrRef spec1 5) : S128x64.Idx → EReal)
      = truncf (F := Ideal) .bf16 (φ := .f32) (transpose S128x64 [1, 0] (extractStridedSlice S64x128 ![64, 0]
          (shapeCast S192x128 (extractStridedSlice S1x192x128 ![0, 0, 0] (W2 m ρ c (Proc.devRef .tc main_arg6) : S2x192x128.Idx → EReal)
            slices_S2x192x128_S1x192x128_0_0_0) shapeCasts_S1x192x128_S192x128) slices_S192x128_S64x128_64_0) transposes_S64x128_S128x64_1_0) bitsLt_bf16_f32 := by
    show StableHlo.after hostOps1 (W2 m ρ c) (Proc.devRef .tc main_call0_v50) = _
    after_results
    rfl
  rw [e, W2_main_arg6]
  exact rowBand_apply 0 64 _ _ _ _ _ _ q j (0 : Fin 2) _ rfl rfl

/-- The input-to-hidden weights of the candidate gate, first round: entry (q, j) is w_ih[0, 128 + j, q]. -/
theorem wih1_n (c : Dev nD) (q : Fin 128) (j : Fin 64) :
    (V3 m ρ c (Pipeline.arrRef spec1 6) : S128x64.Idx → EReal) (ix2 q j)
      = (m ((c : Thread nD τ).loc main_arg6) : S2x192x128.Idx → EReal) (ix3 (0 : Fin 2) (⟨128 + j.val, by omega⟩ : Fin 192) q) := by
  have e : (V3 m ρ c (Pipeline.arrRef spec1 6) : S128x64.Idx → EReal)
      = truncf (F := Ideal) .bf16 (φ := .f32) (transpose S128x64 [1, 0] (extractStridedSlice S64x128 ![128, 0]
          (shapeCast S192x128 (extractStridedSlice S1x192x128 ![0, 0, 0] (W2 m ρ c (Proc.devRef .tc main_arg6) : S2x192x128.Idx → EReal)
            slices_S2x192x128_S1x192x128_0_0_0) shapeCasts_S1x192x128_S192x128) slices_S192x128_S64x128_128_0) transposes_S64x128_S128x64_1_0) bitsLt_bf16_f32 := by
    show StableHlo.after hostOps1 (W2 m ρ c) (Proc.devRef .tc main_call0_v53) = _
    after_results
    rfl
  rw [e, W2_main_arg6]
  exact rowBand_apply 0 128 _ _ _ _ _ _ q j (0 : Fin 2) _ rfl rfl

/-- The hidden-to-hidden weights of the reset gate, first round: entry (k, j) is w_hh[0, j, k]. -/
theorem whh1_r (c : Dev nD) (k j : Fin 64) :
    (V3 m ρ c (Pipeline.arrRef spec1 7) : S64x64.Idx → EReal) (ix2 k j)
      = (m ((c : Thread nD τ).loc main_arg7) : S2x192x64.Idx → EReal) (ix3 (0 : Fin 2) (⟨j.val, by omega⟩ : Fin 192) k) := by
  have e : (V3 m ρ c (Pipeline.arrRef spec1 7) : S64x64.Idx → EReal)
      = truncf (F := Ideal) .bf16 (φ := .f32) (transpose S64x64 [1, 0] (extractStridedSlice S64x64 ![0, 0]
          (shapeCast S192x64 (extractStridedSlice S1x192x64 ![0, 0, 0] (W2 m ρ c (Proc.devRef .tc main_arg7) : S2x192x64.Idx → EReal)
            slices_S2x192x64_S1x192x64_0_0_0) shapeCasts_S1x192x64_S192x64) slices_S192x64_S64x64_0_0) transposes_S64x64_S64x64_1_0) bitsLt_bf16_f32 := by
    show StableHlo.after hostOps1 (W2 m ρ c) (Proc.devRef .tc main_call0_v56) = _
    after_results
    rfl
  rw [e, W2_main_arg7]
  exact rowBand_apply 0 0 _ _ _ _ _ _ k j (0 : Fin 2) _ rfl (Nat.zero_add _).symm

/-- The hidden-to-hidden weights of the update gate, first round: entry (k, j) is w_hh[0, 64 + j, k]. -/
theorem whh1_z (c : Dev nD) (k j : Fin 64) :
    (V3 m ρ c (Pipeline.arrRef spec1 8) : S64x64.Idx → EReal) (ix2 k j)
      = (m ((c : Thread nD τ).loc main_arg7) : S2x192x64.Idx → EReal) (ix3 (0 : Fin 2) (⟨64 + j.val, by omega⟩ : Fin 192) k) := by
  have e : (V3 m ρ c (Pipeline.arrRef spec1 8) : S64x64.Idx → EReal)
      = truncf (F := Ideal) .bf16 (φ := .f32) (transpose S64x64 [1, 0] (extractStridedSlice S64x64 ![64, 0]
          (shapeCast S192x64 (extractStridedSlice S1x192x64 ![0, 0, 0] (W2 m ρ c (Proc.devRef .tc main_arg7) : S2x192x64.Idx → EReal)
            slices_S2x192x64_S1x192x64_0_0_0) shapeCasts_S1x192x64_S192x64) slices_S192x64_S64x64_64_0) transposes_S64x64_S64x64_1_0) bitsLt_bf16_f32 := by
    show StableHlo.after hostOps1 (W2 m ρ c) (Proc.devRef .tc main_call0_v59) = _
    after_results
    rfl
  rw [e, W2_main_arg7]
  exact rowBand_apply 0 64 _ _ _ _ _ _ k j (0 : Fin 2) _ rfl rfl

/-- The hidden-to-hidden weights of the candidate gate, first round: entry (k, j) is w_hh[0, 128 + j, k]. -/
theorem whh1_n (c : Dev nD) (k j : Fin 64) :
    (V3 m ρ c (Pipeline.arrRef spec1 9) : S64x64.Idx → EReal) (ix2 k j)
      = (m ((c : Thread nD τ).loc main_arg7) : S2x192x64.Idx → EReal) (ix3 (0 : Fin 2) (⟨128 + j.val, by omega⟩ : Fin 192) k) := by
  have e : (V3 m ρ c (Pipeline.arrRef spec1 9) : S64x64.Idx → EReal)
      = truncf (F := Ideal) .bf16 (φ := .f32) (transpose S64x64 [1, 0] (extractStridedSlice S64x64 ![128, 0]
          (shapeCast S192x64 (extractStridedSlice S1x192x64 ![0, 0, 0] (W2 m ρ c (Proc.devRef .tc main_arg7) : S2x192x64.Idx → EReal)
            slices_S2x192x64_S1x192x64_0_0_0) shapeCasts_S1x192x64_S192x64) slices_S192x64_S64x64_128_0) transposes_S64x64_S64x64_1_0) bitsLt_bf16_f32 := by
    show StableHlo.after hostOps1 (W2 m ρ c) (Proc.devRef .tc main_call0_v62) = _
    after_results
    rfl
  rw [e, W2_main_arg7]
  exact rowBand_apply 0 128 _ _ _ _ _ _ k j (0 : Fin 2) _ rfl rfl

/-- The input-to-hidden bias of the reset gate, first round: entry (0, j) is b_ih[0, j]. -/
theorem bih1_r (c : Dev nD) (j : Fin 64) :
    (V3 m ρ c (Pipeline.arrRef spec1 10) : S1x64.Idx → EReal) (ix2 (0 : Fin 1) j)
      = (m ((c : Thread nD τ).loc main_arg8) : S2x192.Idx → EReal) (ix2 (0 : Fin 2) (⟨j.val, by omega⟩ : Fin 192)) := by
  have e : (V3 m ρ c (Pipeline.arrRef spec1 10) : S1x64.Idx → EReal)
      = shapeCast S1x64 (extractStridedSlice S64 ![0]
          (shapeCast S192 (extractStridedSlice S1x192 ![0, 0] (W2 m ρ c (Proc.devRef .tc main_arg8) : S2x192.Idx → EReal)
            slices_S2x192_S1x192_0_0) shapeCasts_S1x192_S192) slices_S192_S64_0) shapeCasts_S64_S1x64 := by
    show StableHlo.after hostOps1 (W2 m ρ c) (Proc.devRef .tc main_call0_v64) = _
    after_results
    rfl
  rw [e, W2_main_arg8]
  exact vecBand_apply 0 0 _ _ _ _ _ (0 : Fin 1) j (0 : Fin 2) _ rfl (Nat.zero_add _).symm

/-- The input-to-hidden bias of the update gate, first round: entry (0, j) is b_ih[0, 64 + j]. -/
theorem bih1_z (c : Dev nD) (j : Fin 64) :
    (V3 m ρ c (Pipeline.arrRef spec1 11) : S1x64.Idx → EReal) (ix2 (0 : Fin 1) j)
      = (m ((c : Thread nD τ).loc main_arg8) : S2x192.Idx → EReal) (ix2 (0 : Fin 2) (⟨64 + j.val, by omega⟩ : Fin 192)) := by
  have e : (V3 m ρ c (Pipeline.arrRef spec1 11) : S1x64.Idx → EReal)
      = shapeCast S1x64 (extractStridedSlice S64 ![64]
          (shapeCast S192 (extractStridedSlice S1x192 ![0, 0] (W2 m ρ c (Proc.devRef .tc main_arg8) : S2x192.Idx → EReal)
            slices_S2x192_S1x192_0_0) shapeCasts_S1x192_S192) slices_S192_S64_64) shapeCasts_S64_S1x64 := by
    show StableHlo.after hostOps1 (W2 m ρ c) (Proc.devRef .tc main_call0_v66) = _
    after_results
    rfl
  rw [e, W2_main_arg8]
  exact vecBand_apply 0 64 _ _ _ _ _ (0 : Fin 1) j (0 : Fin 2) _ rfl rfl

/-- The input-to-hidden bias of the candidate gate, first round: entry (0, j) is b_ih[0, 128 + j]. -/
theorem bih1_n (c : Dev nD) (j : Fin 64) :
    (V3 m ρ c (Pipeline.arrRef spec1 12) : S1x64.Idx → EReal) (ix2 (0 : Fin 1) j)
      = (m ((c : Thread nD τ).loc main_arg8) : S2x192.Idx → EReal) (ix2 (0 : Fin 2) (⟨128 + j.val, by omega⟩ : Fin 192)) := by
  have e : (V3 m ρ c (Pipeline.arrRef spec1 12) : S1x64.Idx → EReal)
      = shapeCast S1x64 (extractStridedSlice S64 ![128]
          (shapeCast S192 (extractStridedSlice S1x192 ![0, 0] (W2 m ρ c (Proc.devRef .tc main_arg8) : S2x192.Idx → EReal)
            slices_S2x192_S1x192_0_0) shapeCasts_S1x192_S192) slices_S192_S64_128) shapeCasts_S64_S1x64 := by
    show StableHlo.after hostOps1 (W2 m ρ c) (Proc.devRef .tc main_call0_v68) = _
    after_results
    rfl
  rw [e, W2_main_arg8]
  exact vecBand_apply 0 128 _ _ _ _ _ (0 : Fin 1) j (0 : Fin 2) _ rfl rfl

/-- The hidden-to-hidden bias of the reset gate, first round: entry (0, j) is b_hh[0, j]. -/
theorem bhh1_r (c : Dev nD) (j : Fin 64) :
    (V3 m ρ c (Pipeline.arrRef spec1 13) : S1x64.Idx → EReal) (ix2 (0 : Fin 1) j)
      = (m ((c : Thread nD τ).loc main_arg9) : S2x192.Idx → EReal) (ix2 (0 : Fin 2) (⟨j.val, by omega⟩ : Fin 192)) := by
  have e : (V3 m ρ c (Pipeline.arrRef spec1 13) : S1x64.Idx → EReal)
      = shapeCast S1x64 (extractStridedSlice S64 ![0]
          (shapeCast S192 (extractStridedSlice S1x192 ![0, 0] (W2 m ρ c (Proc.devRef .tc main_arg9) : S2x192.Idx → EReal)
            slices_S2x192_S1x192_0_0) shapeCasts_S1x192_S192) slices_S192_S64_0) shapeCasts_S64_S1x64 := by
    show StableHlo.after hostOps1 (W2 m ρ c) (Proc.devRef .tc main_call0_v70) = _
    after_results
    rfl
  rw [e, W2_main_arg9]
  exact vecBand_apply 0 0 _ _ _ _ _ (0 : Fin 1) j (0 : Fin 2) _ rfl (Nat.zero_add _).symm

/-- The hidden-to-hidden bias of the update gate, first round: entry (0, j) is b_hh[0, 64 + j]. -/
theorem bhh1_z (c : Dev nD) (j : Fin 64) :
    (V3 m ρ c (Pipeline.arrRef spec1 14) : S1x64.Idx → EReal) (ix2 (0 : Fin 1) j)
      = (m ((c : Thread nD τ).loc main_arg9) : S2x192.Idx → EReal) (ix2 (0 : Fin 2) (⟨64 + j.val, by omega⟩ : Fin 192)) := by
  have e : (V3 m ρ c (Pipeline.arrRef spec1 14) : S1x64.Idx → EReal)
      = shapeCast S1x64 (extractStridedSlice S64 ![64]
          (shapeCast S192 (extractStridedSlice S1x192 ![0, 0] (W2 m ρ c (Proc.devRef .tc main_arg9) : S2x192.Idx → EReal)
            slices_S2x192_S1x192_0_0) shapeCasts_S1x192_S192) slices_S192_S64_64) shapeCasts_S64_S1x64 := by
    show StableHlo.after hostOps1 (W2 m ρ c) (Proc.devRef .tc main_call0_v72) = _
    after_results
    rfl
  rw [e, W2_main_arg9]
  exact vecBand_apply 0 64 _ _ _ _ _ (0 : Fin 1) j (0 : Fin 2) _ rfl rfl

/-- The hidden-to-hidden bias of the candidate gate, first round: entry (0, j) is b_hh[0, 128 + j]. -/
theorem bhh1_n (c : Dev nD) (j : Fin 64) :
    (V3 m ρ c (Pipeline.arrRef spec1 15) : S1x64.Idx → EReal) (ix2 (0 : Fin 1) j)
      = (m ((c : Thread nD τ).loc main_arg9) : S2x192.Idx → EReal) (ix2 (0 : Fin 2) (⟨128 + j.val, by omega⟩ : Fin 192)) := by
  have e : (V3 m ρ c (Pipeline.arrRef spec1 15) : S1x64.Idx → EReal)
      = shapeCast S1x64 (extractStridedSlice S64 ![128]
          (shapeCast S192 (extractStridedSlice S1x192 ![0, 0] (W2 m ρ c (Proc.devRef .tc main_arg9) : S2x192.Idx → EReal)
            slices_S2x192_S1x192_0_0) shapeCasts_S1x192_S192) slices_S192_S64_128) shapeCasts_S64_S1x64 := by
    show StableHlo.after hostOps1 (W2 m ρ c) (Proc.devRef .tc main_call0_v74) = _
    after_results
    rfl
  rw [e, W2_main_arg9]
  exact vecBand_apply 0 128 _ _ _ _ _ (0 : Fin 1) j (0 : Fin 2) _ rfl rfl

/-- The source-state weights of the second round's message kernel: entry (k, q) is w_msg[1, q, 64 + k]. -/
theorem ws2 (c : Dev nD) (k : Fin 64) (q : Fin 128) :
    (V5 m ρ c (Pipeline.arrRef spec2 2) : S64x128.Idx → EReal) (ix2 k q)
      = (m ((c : Thread nD τ).loc main_arg4) : S2x128x192.Idx → EReal) (ix3 (1 : Fin 2) q (⟨64 + k.val, by omega⟩ : Fin 192)) := by
  have e : (V5 m ρ c (Pipeline.arrRef spec2 2) : S64x128.Idx → EReal)
      = truncf (F := Ideal) .bf16 (φ := .f32) (transpose S64x128 [1, 0] (extractStridedSlice S128x64 ![0, 64]
          (shapeCast S128x192 (extractStridedSlice S1x128x192 ![1, 0, 0] (W4 m ρ c (Proc.devRef .tc main_arg4) : S2x128x192.Idx → EReal)
            slices_S2x128x192_S1x128x192_1_0_0) shapeCasts_S1x128x192_S128x192) slices_S128x192_S128x64_0_64) transposes_S128x64_S64x128_1_0) bitsLt_bf16_f32 := by
    show StableHlo.after hostOps2 (W4 m ρ c) (Proc.devRef .tc main_call0_v92) = _
    after_results
    rfl
  rw [e, W4_main_arg4]
  exact colBand_apply 1 64 _ _ _ _ _ _ k q (1 : Fin 2) _ rfl rfl

/-- The edge-feature weights of the second round's message kernel: entry (k, q) is w_msg[1, q, 128 + k]. -/
theorem we2 (c : Dev nD) (k : Fin 64) (q : Fin 128) :
    (V5 m ρ c (Pipeline.arrRef spec2 3) : S64x128.Idx → EReal) (ix2 k q)
      = (m ((c : Thread nD τ).loc main_arg4) : S2x128x192.Idx → EReal) (ix3 (1 : Fin 2) q (⟨128 + k.val, by omega⟩ : Fin 192)) := by
  have e : (V5 m ρ c (Pipeline.arrRef spec2 3) : S64x128.Idx → EReal)
      = truncf (F := Ideal) .bf16 (φ := .f32) (transpose S64x128 [1, 0] (extractStridedSlice S128x64 ![0, 128]
          (shapeCast S128x192 (extractStridedSlice S1x128x192 ![1, 0, 0] (W4 m ρ c (Proc.devRef .tc main_arg4) : S2x128x192.Idx → EReal)
            slices_S2x128x192_S1x128x192_1_0_0) shapeCasts_S1x128x192_S128x192) slices_S128x192_S128x64_0_128) transposes_S128x64_S64x128_1_0) bitsLt_bf16_f32 := by
    show StableHlo.after hostOps2 (W4 m ρ c) (Proc.devRef .tc main_call0_v95) = _
    after_results
    rfl
  rw [e, W4_main_arg4]
  exact colBand_apply 1 128 _ _ _ _ _ _ k q (1 : Fin 2) _ rfl rfl

/-- The bias row of the second round's message kernel: entry (0, q) is b_msg[1, q]. -/
theorem bm2 (c : Dev nD) (q : Fin 128) :
    (V5 m ρ c (Pipeline.arrRef spec2 4) : S1x128.Idx → EReal) (ix2 (0 : Fin 1) q)
      = (m ((c : Thread nD τ).loc main_arg5) : S2x128.Idx → EReal) (ix2 (1 : Fin 2) q) := by
  have e : (V5 m ρ c (Pipeline.arrRef spec2 4) : S1x128.Idx → EReal)
      = shapeCast S1x128 (shapeCast S128 (extractStridedSlice S1x128 ![1, 0] (W4 m ρ c (Proc.devRef .tc main_arg5) : S2x128.Idx → EReal)
            slices_S2x128_S1x128_1_0) shapeCasts_S1x128_S128) shapeCasts_S128_S1x128 := by
    show StableHlo.after hostOps2 (W4 m ρ c) (Proc.devRef .tc main_call0_v96) = _
    after_results
    rfl
  rw [e, W4_main_arg5]
  exact vecRow_apply 1 _ _ _ _ (0 : Fin 1) q (1 : Fin 2) rfl

/-- The destination-state weights folded into the second round's update kernel: entry (k, q) is w_msg[1, q, k]. -/
theorem wd3 (c : Dev nD) (k : Fin 64) (q : Fin 128) :
    (V7 m ρ c (Pipeline.arrRef spec3 3) : S64x128.Idx → EReal) (ix2 k q)
      = (m ((c : Thread nD τ).loc main_arg4) : S2x128x192.Idx → EReal) (ix3 (1 : Fin 2) q (⟨k.val, by omega⟩ : Fin 192)) := by
  have e : (V7 m ρ c (Pipeline.arrRef spec3 3) : S64x128.Idx → EReal)
      = truncf (F := Ideal) .bf16 (φ := .f32) (transpose S64x128 [1, 0] (extractStridedSlice S128x64 ![0, 0]
          (shapeCast S128x192 (extractStridedSlice S1x128x192 ![1, 0, 0] (W6 m ρ c (Proc.devRef .tc main_arg4) : S2x128x192.Idx → EReal)
            slices_S2x128x192_S1x128x192_1_0_0) shapeCasts_S1x128x192_S128x192) slices_S128x192_S128x64_0_0) transposes_S128x64_S64x128_1_0) bitsLt_bf16_f32 := by
    show StableHlo.after hostOps3 (W6 m ρ c) (Proc.devRef .tc main_call0_v114) = _
    after_results
    rfl
  rw [e, W6_main_arg4]
  exact colBand_apply 1 0 _ _ _ _ _ _ k q (1 : Fin 2) _ rfl (Nat.zero_add _).symm

/-- The input-to-hidden weights of the reset gate, second round: entry (q, j) is w_ih[1, j, q]. -/
theorem wih3_r (c : Dev nD) (q : Fin 128) (j : Fin 64) :
    (V7 m ρ c (Pipeline.arrRef spec3 4) : S128x64.Idx → EReal) (ix2 q j)
      = (m ((c : Thread nD τ).loc main_arg6) : S2x192x128.Idx → EReal) (ix3 (1 : Fin 2) (⟨j.val, by omega⟩ : Fin 192) q) := by
  have e : (V7 m ρ c (Pipeline.arrRef spec3 4) : S128x64.Idx → EReal)
      = truncf (F := Ideal) .bf16 (φ := .f32) (transpose S128x64 [1, 0] (extractStridedSlice S64x128 ![0, 0]
          (shapeCast S192x128 (extractStridedSlice S1x192x128 ![1, 0, 0] (W6 m ρ c (Proc.devRef .tc main_arg6) : S2x192x128.Idx → EReal)
            slices_S2x192x128_S1x192x128_1_0_0) shapeCasts_S1x192x128_S192x128) slices_S192x128_S64x128_0_0) transposes_S64x128_S128x64_1_0) bitsLt_bf16_f32 := by
    show StableHlo.after hostOps3 (W6 m ρ c) (Proc.devRef .tc main_call0_v117) = _
    after_results
    rfl
  rw [e, W6_main_arg6]
  exact rowBand_apply 1 0 _ _ _ _ _ _ q j (1 : Fin 2) _ rfl (Nat.zero_add _).symm

/-- The input-to-hidden weights of the update gate, second round: entry (q, j) is w_ih[1, 64 + j, q]. -/
theorem wih3_z (c : Dev nD) (q : Fin 128) (j : Fin 64) :
    (V7 m ρ c (Pipeline.arrRef spec3 5) : S128x64.Idx → EReal) (ix2 q j)
      = (m ((c : Thread nD τ).loc main_arg6) : S2x192x128.Idx → EReal) (ix3 (1 : Fin 2) (⟨64 + j.val, by omega⟩ : Fin 192) q) := by
  have e : (V7 m ρ c (Pipeline.arrRef spec3 5) : S128x64.Idx → EReal)
      = truncf (F := Ideal) .bf16 (φ := .f32) (transpose S128x64 [1, 0] (extractStridedSlice S64x128 ![64, 0]
          (shapeCast S192x128 (extractStridedSlice S1x192x128 ![1, 0, 0] (W6 m ρ c (Proc.devRef .tc main_arg6) : S2x192x128.Idx → EReal)
            slices_S2x192x128_S1x192x128_1_0_0) shapeCasts_S1x192x128_S192x128) slices_S192x128_S64x128_64_0) transposes_S64x128_S128x64_1_0) bitsLt_bf16_f32 := by
    show StableHlo.after hostOps3 (W6 m ρ c) (Proc.devRef .tc main_call0_v120) = _
    after_results
    rfl
  rw [e, W6_main_arg6]
  exact rowBand_apply 1 64 _ _ _ _ _ _ q j (1 : Fin 2) _ rfl rfl

/-- The input-to-hidden weights of the candidate gate, second round: entry (q, j) is w_ih[1, 128 + j, q]. -/
theorem wih3_n (c : Dev nD) (q : Fin 128) (j : Fin 64) :
    (V7 m ρ c (Pipeline.arrRef spec3 6) : S128x64.Idx → EReal) (ix2 q j)
      = (m ((c : Thread nD τ).loc main_arg6) : S2x192x128.Idx → EReal) (ix3 (1 : Fin 2) (⟨128 + j.val, by omega⟩ : Fin 192) q) := by
  have e : (V7 m ρ c (Pipeline.arrRef spec3 6) : S128x64.Idx → EReal)
      = truncf (F := Ideal) .bf16 (φ := .f32) (transpose S128x64 [1, 0] (extractStridedSlice S64x128 ![128, 0]
          (shapeCast S192x128 (extractStridedSlice S1x192x128 ![1, 0, 0] (W6 m ρ c (Proc.devRef .tc main_arg6) : S2x192x128.Idx → EReal)
            slices_S2x192x128_S1x192x128_1_0_0) shapeCasts_S1x192x128_S192x128) slices_S192x128_S64x128_128_0) transposes_S64x128_S128x64_1_0) bitsLt_bf16_f32 := by
    show StableHlo.after hostOps3 (W6 m ρ c) (Proc.devRef .tc main_call0_v123) = _
    after_results
    rfl
  rw [e, W6_main_arg6]
  exact rowBand_apply 1 128 _ _ _ _ _ _ q j (1 : Fin 2) _ rfl rfl

/-- The hidden-to-hidden weights of the reset gate, second round: entry (k, j) is w_hh[1, j, k]. -/
theorem whh3_r (c : Dev nD) (k j : Fin 64) :
    (V7 m ρ c (Pipeline.arrRef spec3 7) : S64x64.Idx → EReal) (ix2 k j)
      = (m ((c : Thread nD τ).loc main_arg7) : S2x192x64.Idx → EReal) (ix3 (1 : Fin 2) (⟨j.val, by omega⟩ : Fin 192) k) := by
  have e : (V7 m ρ c (Pipeline.arrRef spec3 7) : S64x64.Idx → EReal)
      = truncf (F := Ideal) .bf16 (φ := .f32) (transpose S64x64 [1, 0] (extractStridedSlice S64x64 ![0, 0]
          (shapeCast S192x64 (extractStridedSlice S1x192x64 ![1, 0, 0] (W6 m ρ c (Proc.devRef .tc main_arg7) : S2x192x64.Idx → EReal)
            slices_S2x192x64_S1x192x64_1_0_0) shapeCasts_S1x192x64_S192x64) slices_S192x64_S64x64_0_0) transposes_S64x64_S64x64_1_0) bitsLt_bf16_f32 := by
    show StableHlo.after hostOps3 (W6 m ρ c) (Proc.devRef .tc main_call0_v126) = _
    after_results
    rfl
  rw [e, W6_main_arg7]
  exact rowBand_apply 1 0 _ _ _ _ _ _ k j (1 : Fin 2) _ rfl (Nat.zero_add _).symm

/-- The hidden-to-hidden weights of the update gate, second round: entry (k, j) is w_hh[1, 64 + j, k]. -/
theorem whh3_z (c : Dev nD) (k j : Fin 64) :
    (V7 m ρ c (Pipeline.arrRef spec3 8) : S64x64.Idx → EReal) (ix2 k j)
      = (m ((c : Thread nD τ).loc main_arg7) : S2x192x64.Idx → EReal) (ix3 (1 : Fin 2) (⟨64 + j.val, by omega⟩ : Fin 192) k) := by
  have e : (V7 m ρ c (Pipeline.arrRef spec3 8) : S64x64.Idx → EReal)
      = truncf (F := Ideal) .bf16 (φ := .f32) (transpose S64x64 [1, 0] (extractStridedSlice S64x64 ![64, 0]
          (shapeCast S192x64 (extractStridedSlice S1x192x64 ![1, 0, 0] (W6 m ρ c (Proc.devRef .tc main_arg7) : S2x192x64.Idx → EReal)
            slices_S2x192x64_S1x192x64_1_0_0) shapeCasts_S1x192x64_S192x64) slices_S192x64_S64x64_64_0) transposes_S64x64_S64x64_1_0) bitsLt_bf16_f32 := by
    show StableHlo.after hostOps3 (W6 m ρ c) (Proc.devRef .tc main_call0_v129) = _
    after_results
    rfl
  rw [e, W6_main_arg7]
  exact rowBand_apply 1 64 _ _ _ _ _ _ k j (1 : Fin 2) _ rfl rfl

/-- The hidden-to-hidden weights of the candidate gate, second round: entry (k, j) is w_hh[1, 128 + j, k]. -/
theorem whh3_n (c : Dev nD) (k j : Fin 64) :
    (V7 m ρ c (Pipeline.arrRef spec3 9) : S64x64.Idx → EReal) (ix2 k j)
      = (m ((c : Thread nD τ).loc main_arg7) : S2x192x64.Idx → EReal) (ix3 (1 : Fin 2) (⟨128 + j.val, by omega⟩ : Fin 192) k) := by
  have e : (V7 m ρ c (Pipeline.arrRef spec3 9) : S64x64.Idx → EReal)
      = truncf (F := Ideal) .bf16 (φ := .f32) (transpose S64x64 [1, 0] (extractStridedSlice S64x64 ![128, 0]
          (shapeCast S192x64 (extractStridedSlice S1x192x64 ![1, 0, 0] (W6 m ρ c (Proc.devRef .tc main_arg7) : S2x192x64.Idx → EReal)
            slices_S2x192x64_S1x192x64_1_0_0) shapeCasts_S1x192x64_S192x64) slices_S192x64_S64x64_128_0) transposes_S64x64_S64x64_1_0) bitsLt_bf16_f32 := by
    show StableHlo.after hostOps3 (W6 m ρ c) (Proc.devRef .tc main_call0_v132) = _
    after_results
    rfl
  rw [e, W6_main_arg7]
  exact rowBand_apply 1 128 _ _ _ _ _ _ k j (1 : Fin 2) _ rfl rfl

/-- The input-to-hidden bias of the reset gate, second round: entry (0, j) is b_ih[1, j]. -/
theorem bih3_r (c : Dev nD) (j : Fin 64) :
    (V7 m ρ c (Pipeline.arrRef spec3 10) : S1x64.Idx → EReal) (ix2 (0 : Fin 1) j)
      = (m ((c : Thread nD τ).loc main_arg8) : S2x192.Idx → EReal) (ix2 (1 : Fin 2) (⟨j.val, by omega⟩ : Fin 192)) := by
  have e : (V7 m ρ c (Pipeline.arrRef spec3 10) : S1x64.Idx → EReal)
      = shapeCast S1x64 (extractStridedSlice S64 ![0]
          (shapeCast S192 (extractStridedSlice S1x192 ![1, 0] (W6 m ρ c (Proc.devRef .tc main_arg8) : S2x192.Idx → EReal)
            slices_S2x192_S1x192_1_0) shapeCasts_S1x192_S192) slices_S192_S64_0) shapeCasts_S64_S1x64 := by
    show StableHlo.after hostOps3 (W6 m ρ c) (Proc.devRef .tc main_call0_v134) = _
    after_results
    rfl
  rw [e, W6_main_arg8]
  exact vecBand_apply 1 0 _ _ _ _ _ (0 : Fin 1) j (1 : Fin 2) _ rfl (Nat.zero_add _).symm

/-- The input-to-hidden bias of the update gate, second round: entry (0, j) is b_ih[1, 64 + j]. -/
theorem bih3_z (c : Dev nD) (j : Fin 64) :
    (V7 m ρ c (Pipeline.arrRef spec3 11) : S1x64.Idx → EReal) (ix2 (0 : Fin 1) j)
      = (m ((c : Thread nD τ).loc main_arg8) : S2x192.Idx → EReal) (ix2 (1 : Fin 2) (⟨64 + j.val, by omega⟩ : Fin 192)) := by
  have e : (V7 m ρ c (Pipeline.arrRef spec3 11) : S1x64.Idx → EReal)
      = shapeCast S1x64 (extractStridedSlice S64 ![64]
          (shapeCast S192 (extractStridedSlice S1x192 ![1, 0] (W6 m ρ c (Proc.devRef .tc main_arg8) : S2x192.Idx → EReal)
            slices_S2x192_S1x192_1_0) shapeCasts_S1x192_S192) slices_S192_S64_64) shapeCasts_S64_S1x64 := by
    show StableHlo.after hostOps3 (W6 m ρ c) (Proc.devRef .tc main_call0_v136) = _
    after_results
    rfl
  rw [e, W6_main_arg8]
  exact vecBand_apply 1 64 _ _ _ _ _ (0 : Fin 1) j (1 : Fin 2) _ rfl rfl

/-- The input-to-hidden bias of the candidate gate, second round: entry (0, j) is b_ih[1, 128 + j]. -/
theorem bih3_n (c : Dev nD) (j : Fin 64) :
    (V7 m ρ c (Pipeline.arrRef spec3 12) : S1x64.Idx → EReal) (ix2 (0 : Fin 1) j)
      = (m ((c : Thread nD τ).loc main_arg8) : S2x192.Idx → EReal) (ix2 (1 : Fin 2) (⟨128 + j.val, by omega⟩ : Fin 192)) := by
  have e : (V7 m ρ c (Pipeline.arrRef spec3 12) : S1x64.Idx → EReal)
      = shapeCast S1x64 (extractStridedSlice S64 ![128]
          (shapeCast S192 (extractStridedSlice S1x192 ![1, 0] (W6 m ρ c (Proc.devRef .tc main_arg8) : S2x192.Idx → EReal)
            slices_S2x192_S1x192_1_0) shapeCasts_S1x192_S192) slices_S192_S64_128) shapeCasts_S64_S1x64 := by
    show StableHlo.after hostOps3 (W6 m ρ c) (Proc.devRef .tc main_call0_v138) = _
    after_results
    rfl
  rw [e, W6_main_arg8]
  exact vecBand_apply 1 128 _ _ _ _ _ (0 : Fin 1) j (1 : Fin 2) _ rfl rfl

/-- The hidden-to-hidden bias of the reset gate, second round: entry (0, j) is b_hh[1, j]. -/
theorem bhh3_r (c : Dev nD) (j : Fin 64) :
    (V7 m ρ c (Pipeline.arrRef spec3 13) : S1x64.Idx → EReal) (ix2 (0 : Fin 1) j)
      = (m ((c : Thread nD τ).loc main_arg9) : S2x192.Idx → EReal) (ix2 (1 : Fin 2) (⟨j.val, by omega⟩ : Fin 192)) := by
  have e : (V7 m ρ c (Pipeline.arrRef spec3 13) : S1x64.Idx → EReal)
      = shapeCast S1x64 (extractStridedSlice S64 ![0]
          (shapeCast S192 (extractStridedSlice S1x192 ![1, 0] (W6 m ρ c (Proc.devRef .tc main_arg9) : S2x192.Idx → EReal)
            slices_S2x192_S1x192_1_0) shapeCasts_S1x192_S192) slices_S192_S64_0) shapeCasts_S64_S1x64 := by
    show StableHlo.after hostOps3 (W6 m ρ c) (Proc.devRef .tc main_call0_v140) = _
    after_results
    rfl
  rw [e, W6_main_arg9]
  exact vecBand_apply 1 0 _ _ _ _ _ (0 : Fin 1) j (1 : Fin 2) _ rfl (Nat.zero_add _).symm

/-- The hidden-to-hidden bias of the update gate, second round: entry (0, j) is b_hh[1, 64 + j]. -/
theorem bhh3_z (c : Dev nD) (j : Fin 64) :
    (V7 m ρ c (Pipeline.arrRef spec3 14) : S1x64.Idx → EReal) (ix2 (0 : Fin 1) j)
      = (m ((c : Thread nD τ).loc main_arg9) : S2x192.Idx → EReal) (ix2 (1 : Fin 2) (⟨64 + j.val, by omega⟩ : Fin 192)) := by
  have e : (V7 m ρ c (Pipeline.arrRef spec3 14) : S1x64.Idx → EReal)
      = shapeCast S1x64 (extractStridedSlice S64 ![64]
          (shapeCast S192 (extractStridedSlice S1x192 ![1, 0] (W6 m ρ c (Proc.devRef .tc main_arg9) : S2x192.Idx → EReal)
            slices_S2x192_S1x192_1_0) shapeCasts_S1x192_S192) slices_S192_S64_64) shapeCasts_S64_S1x64 := by
    show StableHlo.after hostOps3 (W6 m ρ c) (Proc.devRef .tc main_call0_v142) = _
    after_results
    rfl
  rw [e, W6_main_arg9]
  exact vecBand_apply 1 64 _ _ _ _ _ (0 : Fin 1) j (1 : Fin 2) _ rfl rfl

/-- The hidden-to-hidden bias of the candidate gate, second round: entry (0, j) is b_hh[1, 128 + j]. -/
theorem bhh3_n (c : Dev nD) (j : Fin 64) :
    (V7 m ρ c (Pipeline.arrRef spec3 15) : S1x64.Idx → EReal) (ix2 (0 : Fin 1) j)
      = (m ((c : Thread nD τ).loc main_arg9) : S2x192.Idx → EReal) (ix2 (1 : Fin 2) (⟨128 + j.val, by omega⟩ : Fin 192)) := by
  have e : (V7 m ρ c (Pipeline.arrRef spec3 15) : S1x64.Idx → EReal)
      = shapeCast S1x64 (extractStridedSlice S64 ![128]
          (shapeCast S192 (extractStridedSlice S1x192 ![1, 0] (W6 m ρ c (Proc.devRef .tc main_arg9) : S2x192.Idx → EReal)
            slices_S2x192_S1x192_1_0) shapeCasts_S1x192_S192) slices_S192_S64_128) shapeCasts_S64_S1x64 := by
    show StableHlo.after hostOps3 (W6 m ρ c) (Proc.devRef .tc main_call0_v144) = _
    after_results
    rfl
  rw [e, W6_main_arg9]
  exact vecBand_apply 1 128 _ _ _ _ _ (0 : Fin 1) j (1 : Fin 2) _ rfl rfl

end Cert.KernelIdeal.HostSide
-- ==== Proof.SpecCongr.lean ====
/-
  The round's building blocks depend on their array arguments only through their entries: entrywise equal
  arguments give equal results.
-/
import proofs.«163931_j15083925143987_2_alg».proof.Proof.Spec

noncomputable section

namespace Cert.Gnn

theorem msgRows_congr {xs xs' xe xe' : Fin 800000 → Fin 64 → EReal} {ws ws' we we' : Fin 64 → Fin 128 → EReal}
    {b b' : Fin 128 → EReal} (h0 : ∀ e k, xs e k = xs' e k) (h1 : ∀ e k, xe e k = xe' e k)
    (h2 : ∀ k q, ws k q = ws' k q) (h3 : ∀ k q, we k q = we' k q) (h4 : ∀ q, b q = b' q)
    (e : Fin 800000) (q : Fin 128) : msgRows xs xe ws we b e q = msgRows xs' xe' ws' we' b' e q := by
  obtain rfl : xs = xs' := funext fun e => funext fun k => h0 e k
  obtain rfl : xe = xe' := funext fun e => funext fun k => h1 e k
  obtain rfl : ws = ws' := funext fun k => funext fun q => h2 k q
  obtain rfl : we = we' := funext fun k => funext fun q => h3 k q
  obtain rfl : b = b' := funext h4
  rfl

theorem segSum_congr {n : Nat} (dst : Fin 800000 → BitVec 32) {x x' : Fin 800000 → Fin n → EReal}
    (h : ∀ e q, x e q = x' e q) (v : Fin 50000) (q : Fin n) : segSum dst x v q = segSum dst x' v q := by
  obtain rfl : x = x' := funext fun e => funext fun q => h e q
  rfl

theorem gruRows_congr {asrc asrc' : Fin 50000 → Fin 128 → EReal} {dhv dhv' hv hv' : Fin 50000 → Fin 64 → EReal}
    {wd wd' : Fin 64 → Fin 128 → EReal} {wir wir' wiz wiz' win win' : Fin 128 → Fin 64 → EReal}
    {whr whr' whz whz' whn whn' : Fin 64 → Fin 64 → EReal}
    {bir bir' biz biz' bin bin' bhr bhr' bhz bhz' bhn bhn' : Fin 64 → EReal}
    (h0 : ∀ v q, asrc v q = asrc' v q) (h1 : ∀ v k, dhv v k = dhv' v k) (h2 : ∀ v k, hv v k = hv' v k)
    (h3 : ∀ k q, wd k q = wd' k q)
    (h4 : ∀ q j, wir q j = wir' q j) (h5 : ∀ q j, wiz q j = wiz' q j) (h6 : ∀ q j, win q j = win' q j)
    (h7 : ∀ k j, whr k j = whr' k j) (h8 : ∀ k j, whz k j = whz' k j) (h9 : ∀ k j, whn k j = whn' k j)
    (h10 : ∀ j, bir j = bir' j) (h11 : ∀ j, biz j = biz' j) (h12 : ∀ j, bin j = bin' j)
    (h13 : ∀ j, bhr j = bhr' j) (h14 : ∀ j, bhz j = bhz' j) (h15 : ∀ j, bhn j = bhn' j)
    (v : Fin 50000) (j : Fin 64) :
    gruRows asrc dhv hv wd wir wiz win whr whz whn bir biz bin bhr bhz bhn v j
      = gruRows asrc' dhv' hv' wd' wir' wiz' win' whr' whz' whn' bir' biz' bin' bhr' bhz' bhn' v j := by
  obtain rfl : asrc = asrc' := funext fun v => funext fun q => h0 v q
  obtain rfl : dhv = dhv' := funext fun v => funext fun k => h1 v k
  obtain rfl : hv = hv' := funext fun v => funext fun k => h2 v k
  obtain rfl : wd = wd' := funext fun k => funext fun q => h3 k q
  obtain rfl : wir = wir' := funext fun q => funext fun j => h4 q j
  obtain rfl : wiz = wiz' := funext fun q => funext fun j => h5 q j
  obtain rfl : win = win' := funext fun q => funext fun j => h6 q j
  obtain rfl : whr = whr' := funext fun k => funext fun j => h7 k j
  obtain rfl : whz = whz' := funext fun k => funext fun j => h8 k j
  obtain rfl : whn = whn' := funext fun k => funext fun j => h9 k j
  obtain rfl : bir = bir' := funext h10
  obtain rfl : biz = biz' := funext h11
  obtain rfl : bin = bin' := funext h12
  obtain rfl : bhr = bhr' := funext h13
  obtain rfl : bhz = bhz' := funext h14
  obtain rfl : bhn = bhn' := funext h15
  rfl

end Cert.Gnn

end
-- ==== Proof.KernelValue.lean ====
/-
  The idealized kernel program's result array is two rounds of the kernel's arrangement applied to the argument
  arrays: each region's array is read through the blocks its grid points write, each window through the host
  operations that fill it, and the two rounds are composed.
-/
import proofs.«163931_j15083925143987_2_alg».proof.Proof.DataPath
import proofs.«163931_j15083925143987_2_alg».proof.Proof.MsgValue
import proofs.«163931_j15083925143987_2_alg».proof.Proof.GruValue
import proofs.«163931_j15083925143987_2_alg».proof.Proof.Weights
import proofs.«163931_j15083925143987_2_alg».proof.Proof.SpecCongr

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.HostSide Cert.KernelIdeal.DataPath Cert.Gnn

variable (m : (ℓ : Loc nD τ sig) → Buf (Elt Ideal) ℓ) (ρ : Dev nD → PrngReg)

/-- Region 0 leaves every edge's first-round message: the gathered source state and the edge feature through their
    two thirds of the message weights, plus the bias. -/
theorem msgs0_eq (c : Dev nD) (e : Fin 800000) (q : Fin 128) :
    msgs0 m ρ c (ix2 e q)
      = msgRows (fun e k => (argsOf m c).hv0 (rowOf ((argsOf m c).src (ix1 e))) k)
          (fun e k => (argsOf m c).he (ix2 e k))
          (fun k q => (argsOf m c).wm (ix3 (0 : Fin 2) q ⟨64 + k.val, by omega⟩))
          (fun k q => (argsOf m c).wm (ix3 (0 : Fin 2) q ⟨128 + k.val, by omega⟩))
          (fun q => (argsOf m c).bm (ix2 (0 : Fin 2) q)) e q :=
  (Cert.KernelIdeal.MsgValue.final0 (V1 m ρ) c e q).trans
    (msgRows_congr (src_rows0 m ρ c) (he_rows0 m ρ c) (ws0 m ρ c) (we0 m ρ c) (bm0 m ρ c) e q)

/-- Region 1 leaves the first round's state. -/
theorem state1_eq (c : Dev nD) (v : Fin 50000) (j : Fin 64) :
    state1 m ρ c (ix2 v j) = (argsOf m c).kerRoundOf 0 (argsOf m c).hv0 v j :=
  (Cert.KernelIdeal.GruValue.final1 (V3 m ρ) c v j).trans
    (gruRows_congr
      (fun v q => (agg1 m ρ c v q).trans (segSum_congr _ (msgs0_eq m ρ c) v q))
      (dhv1 m ρ c) (fun v k => congrFun (hv1 m ρ c) (ix2 v k))
      (wd1 m ρ c) (wih1_r m ρ c) (wih1_z m ρ c) (wih1_n m ρ c) (whh1_r m ρ c) (whh1_z m ρ c) (whh1_n m ρ c)
      (bih1_r m ρ c) (bih1_z m ρ c) (bih1_n m ρ c) (bhh1_r m ρ c) (bhh1_z m ρ c) (bhh1_n m ρ c) v j)

/-- Region 2 leaves every edge's second-round message, from the first round's state. -/
theorem msgs2_eq (c : Dev nD) (e : Fin 800000) (q : Fin 128) :
    msgs2 m ρ c (ix2 e q)
      = msgRows
          (fun e k => (argsOf m c).kerRoundOf 0 (argsOf m c).hv0 (rowOf ((argsOf m c).src (ix1 e))) k)
          (fun e k => (argsOf m c).he (ix2 e k))
          (fun k q => (argsOf m c).wm (ix3 (1 : Fin 2) q ⟨64 + k.val, by omega⟩))
          (fun k q => (argsOf m c).wm (ix3 (1 : Fin 2) q ⟨128 + k.val, by omega⟩))
          (fun q => (argsOf m c).bm (ix2 (1 : Fin 2) q)) e q :=
  (Cert.KernelIdeal.MsgValue.final2 (V5 m ρ) c e q).trans
    (msgRows_congr (fun e k => (src_rows2 m ρ c e k).trans (state1_eq m ρ c _ k))
      (he_rows2 m ρ c) (ws2 m ρ c) (we2 m ρ c) (bm2 m ρ c) e q)

/-- Region 3 leaves the second round's state: the kernel's result. -/
theorem result_eq (c : Dev nD) (v : Fin 50000) (j : Fin 64) :
    ((dat3 (F := Ideal) (V7 m ρ) c).arrAt 16 cfg3.N : S50000x64.Idx → EReal) (ix2 v j) = (argsOf m c).kerResult v j :=
  (Cert.KernelIdeal.GruValue.final3 (V7 m ρ) c v j).trans
    (gruRows_congr
      (fun v q => (agg3 m ρ c v q).trans (segSum_congr _ (msgs2_eq m ρ c) v q))
      (fun v k => (dhv3 m ρ c v k).trans (congrArg (fun y : EReal => degree (fun e => (argsOf m c).dst (ix1 e)) v * y) (state1_eq m ρ c v k)))
      (fun v k => (congrFun (hv3 m ρ c) (ix2 v k)).trans (state1_eq m ρ c v k))
      (wd3 m ρ c) (wih3_r m ρ c) (wih3_z m ρ c) (wih3_n m ρ c) (whh3_r m ρ c) (whh3_z m ρ c) (whh3_n m ρ c)
      (bih3_r m ρ c) (bih3_z m ρ c) (bih3_n m ρ c) (bhh3_r m ρ c) (bhh3_z m ρ c) (bhh3_n m ρ c) v j)

/-- THE KERNEL'S VALUE: the contents of the result's buffer at the last boundary of @main. -/
theorem kernel_value (c : Dev nD) :
    @Eq (S50000x64.Idx → EReal) (W8 m ρ c (Proc.devRef .tc main_v0)) (argsOf m c).kerArr := by
  funext i
  obtain ⟨v, j, rfl⟩ : ∃ (v : Fin 50000) (j : Fin 64), i = ix2 v j := ⟨i 0, i 1, eq_ix2 i⟩
  exact (congrFun (W8_arr m ρ c 16) (ix2 v j)).trans (result_eq m ρ c v j)

end Cert.KernelIdeal.KValue

end
-- ==== Proof.RefValueA.lean ====
/-
  The host operations of one round of the reference, each read at an entry of its result, over arbitrary operands of
  the literal shapes the program uses: the wrapped index word, the row gather, the three-piece concatenation, the
  slices of the stacked weights, the three matrix products, the broadcast biases, the per-destination sum, the column
  slices of the gate pre-activations and the gates themselves.
-/
import proofs.«163931_j15083925143987_2_alg».proof.Proof.Spec
import proofs.«163931_j15083925143987_2_alg».proof.Proof.LibHostGather
import proofs.«163931_j15083925143987_2_alg».proof.Proof.LibHostSegmentSum
import Idealize.ShloMosaic.Lib.Pipeline.Value
import Idealize.ShloMosaic.Lib.IdealHost
import Idealize.ShloMosaic.PureOps.Ideal.Laws

noncomputable section

open scoped BigOperators

namespace Cert.Gnn.Stage

open Idealize.ShloMosaic Idealize.ShloMosaic.ValueIdx Cert.HostInt

/-! ## Index words -/

/-- A word compared with the zero splat, the splat of the node count added, and the sum selected where the
    comparison holds: at an entry, the wrapped word. -/
theorem wrap_apply (w : IVec ⟨1, ![800000]⟩ 32) (h : (⟨0, ![]⟩ : Shape).BroadcastsInDim ⟨1, ![800000]⟩ ![])
    (e : Fin 800000) :
    select (cmpi .slt w (broadcastInDim ⟨1, ![800000]⟩ ![] h (constantI ⟨0, ![]⟩ 32 0#32)))
        (addi w (broadcastInDim ⟨1, ![800000]⟩ ![] h (constantI ⟨0, ![]⟩ 32 50000#32))) w (ix1 e)
      = wrapWord (w (ix1 e)) := rfl

/-- A vector laid out as a column reads, at row `e`, its entry `e`. -/
theorem col_apply {α : Type} (x : (⟨1, ![800000]⟩ : Shape).Idx → α)
    (h : (⟨1, ![800000]⟩ : Shape).BroadcastsInDim ⟨2, ![800000, 1]⟩ ![0]) (e : Fin 800000) :
    broadcastInDim ⟨2, ![800000, 1]⟩ ![0] h x (ix2 e ⟨0, Nat.one_pos⟩) = x (ix1 e) :=
  broadcastInDim_apply _ h x _ (ix1 e) fun a => by
    match a with
    | ⟨0, _⟩ => exact (if_neg (show ¬ (800000 : Nat) = 1 by decide)).symm

/-! ## The row gather -/

/-- A gather of state rows through a column of index words whose entry for edge `e` is the wrapped word of `raw`:
    entry `(e, f)` is the table at the row `raw` names. -/
theorem gather_rows_of_word
    (wf : GatherDims.WF ⟨2, ![50000, 64]⟩ ⟨2, ![800000, 1]⟩ ⟨2, ![800000, 64]⟩ [1] [0] [] [0] [] 1 ![1, 64])
    (x : (⟨2, ![50000, 64]⟩ : Shape).Idx → EReal) (idx : IVec ⟨2, ![800000, 1]⟩ 32) (raw : BitVec 32)
    (e : Fin 800000) (f : Fin 64) (h : idx (colIdx e) = wrapWord raw) :
    Host.gather (rowGatherDims 50000 64 800000 wf) x idx (ix2 e f) = x (ix2 (rowOf raw) f) := by
  refine (gather_rows_apply (by norm_num) wf x idx e f).trans ?_
  have hr : (⟨min (idx (colIdx e)).toInt.toNat (50000 - 1), by omega⟩ : Fin 50000) = rowOf raw :=
    Fin.ext (by show min (idx (colIdx e)).toInt.toNat (50000 - 1) = min (wrapWord raw).toInt.toNat 49999; rw [h])
  exact congrArg (fun r => x (ix2 r f)) hr

/-! ## The concatenated input row -/

/-- Three 64-wide pieces laid side by side: column `k` of row `e` comes from the first, second or third piece
    according to which third of the 192 columns holds it. -/
theorem cat3_apply (a b c : (⟨2, ![800000, 64]⟩ : Shape).Idx → EReal)
    (h : Shape.Concatenates [(⟨2, ![800000, 64]⟩ : Shape), ⟨2, ![800000, 64]⟩, ⟨2, ![800000, 64]⟩] ⟨2, ![800000, 192]⟩ 1)
    (e : Fin 800000) (k : Fin 192) :
    concatenate ⟨2, ![800000, 192]⟩ 1
        [⟨⟨2, ![800000, 64]⟩, a⟩, ⟨⟨2, ![800000, 64]⟩, b⟩, ⟨⟨2, ![800000, 64]⟩, c⟩] h (ix2 e k)
      = if h1 : k.val < 64 then a (ix2 e ⟨k.val, h1⟩)
        else if h2 : k.val < 128 then b (ix2 e ⟨k.val - 64, by omega⟩)
        else c (ix2 e ⟨k.val - 128, by omega⟩) := by
  have hk := k.isLt
  by_cases h1 : k.val < 64
  · rw [dif_pos h1]
    refine concatenate_apply_piece 1 [⟨⟨2, ![800000, 64]⟩, a⟩, ⟨⟨2, ![800000, 64]⟩, b⟩, ⟨⟨2, ![800000, 64]⟩, c⟩] h (ix2 e k) 0 (by simp) ⟨2, ![800000, 64]⟩ a rfl rfl 0 rfl
      (ix2 e ⟨k.val, h1⟩) (fun b hb => ?_) (Nat.zero_add _)
    match b with
    | ⟨0, _⟩ => rfl
    | ⟨1, _⟩ => exact absurd rfl hb
  · rw [dif_neg h1]
    by_cases h2 : k.val < 128
    · rw [dif_pos h2]
      refine concatenate_apply_piece 1 [⟨⟨2, ![800000, 64]⟩, a⟩, ⟨⟨2, ![800000, 64]⟩, b⟩, ⟨⟨2, ![800000, 64]⟩, c⟩] h (ix2 e k) 1 (by simp) ⟨2, ![800000, 64]⟩ b rfl rfl 64 rfl
        (ix2 e ⟨k.val - 64, by omega⟩) (fun b hb => ?_) (by show 64 + (k.val - 64) = k.val; omega)
      match b with
      | ⟨0, _⟩ => rfl
      | ⟨1, _⟩ => exact absurd rfl hb
    · rw [dif_neg h2]
      refine concatenate_apply_piece 1 [⟨⟨2, ![800000, 64]⟩, a⟩, ⟨⟨2, ![800000, 64]⟩, b⟩, ⟨⟨2, ![800000, 64]⟩, c⟩] h (ix2 e k) 2 (by simp) ⟨2, ![800000, 64]⟩ c rfl rfl 128 rfl
        (ix2 e ⟨k.val - 128, by omega⟩) (fun b hb => ?_) (by show 128 + (k.val - 128) = k.val; omega)
      match b with
      | ⟨0, _⟩ => rfl
      | ⟨1, _⟩ => exact absurd rfl hb

/-! ## Slices of the stacked weights and biases -/

/-- Round `o`'s matrix cut out of a stack of two, the unit axis dropped, then transposed: entry `(k, q)` is the
    stack's entry `(o, q, k)`. -/
theorem wslice_T_apply {A B : Nat} (W : (⟨3, ![2, A, B]⟩ : Shape).Idx → EReal) (o : Nat) (ho : o < 2)
    (hs : (⟨3, ![2, A, B]⟩ : Shape).Slices ![o, 0, 0] ⟨3, ![1, A, B]⟩)
    (hc : (⟨3, ![1, A, B]⟩ : Shape).ShapeCasts ⟨2, ![A, B]⟩)
    (ht : (⟨2, ![A, B]⟩ : Shape).Transposes [1, 0] ⟨2, ![B, A]⟩) (k : Fin B) (q : Fin A) :
    transpose ⟨2, ![B, A]⟩ [1, 0]
        (shapeCast ⟨2, ![A, B]⟩ (extractStridedSlice ⟨3, ![1, A, B]⟩ ![o, 0, 0] W hs) hc) ht (ix2 k q)
      = W (ix3 ⟨o, ho⟩ q k) := by
  refine (transpose_apply [1, 0] _ ht (ix2 k q) (ix2 q k) fun b => ?_).trans ?_
  · match b with
    | ⟨0, _⟩ => rfl
    | ⟨1, _⟩ => rfl
  refine (shapeCast_dropUnit_apply ![A, B] _ hc (ix2 q k)).trans ?_
  refine extractStridedSlice_apply _ W hs _ (ix3 ⟨o, ho⟩ q k) fun a => ?_
  match a with
  | ⟨0, _⟩ => rfl
  | ⟨1, _⟩ => exact (Nat.zero_add _).symm
  | ⟨2, _⟩ => exact (Nat.zero_add _).symm

/-- Round `o`'s bias row cut out of a stack of two and broadcast down the rows: entry `(r, q)` is the stack's
    entry `(o, q)`. -/
theorem bias_apply {R Q : Nat} (Bv : (⟨2, ![2, Q]⟩ : Shape).Idx → EReal) (o : Nat) (ho : o < 2)
    (hs : (⟨2, ![2, Q]⟩ : Shape).Slices ![o, 0] ⟨2, ![1, Q]⟩)
    (hc : (⟨2, ![1, Q]⟩ : Shape).ShapeCasts ⟨1, ![Q]⟩)
    (h1 : (⟨1, ![Q]⟩ : Shape).BroadcastsInDim ⟨2, ![1, Q]⟩ ![1])
    (h2 : (⟨2, ![1, Q]⟩ : Shape).BroadcastsInDim ⟨2, ![R, Q]⟩ ![0, 1]) (r : Fin R) (q : Fin Q) :
    broadcastInDim ⟨2, ![R, Q]⟩ ![0, 1] h2
        (broadcastInDim ⟨2, ![1, Q]⟩ ![1] h1
          (shapeCast ⟨1, ![Q]⟩ (extractStridedSlice ⟨2, ![1, Q]⟩ ![o, 0] Bv hs) hc)) (ix2 r q)
      = Bv (ix2 ⟨o, ho⟩ q) := by
  have hq := q.isLt
  refine (broadcastInDim_apply _ h2 _ (ix2 r q) (ix2 ⟨0, Nat.one_pos⟩ q) fun a => ?_).trans ?_
  · match a with
    | ⟨0, _⟩ => exact (if_pos rfl).symm
    | ⟨1, _⟩ =>
      show q.val = if Q = 1 then 0 else q.val
      split <;> omega
  refine (broadcastInDim_apply _ h1 _ (ix2 ⟨0, Nat.one_pos⟩ q) (ix1 q) fun a => ?_).trans ?_
  · match a with
    | ⟨0, _⟩ =>
      show q.val = if Q = 1 then 0 else q.val
      split <;> omega
  refine (shapeCast_dropUnit_apply ![Q] _ hc (ix1 q)).trans ?_
  refine extractStridedSlice_apply _ Bv hs _ (ix2 ⟨o, ho⟩ q) fun a => ?_
  match a with
  | ⟨0, _⟩ => rfl
  | ⟨1, _⟩ => exact (Nat.zero_add _).symm

/-- A 64-wide column slice at offset `off` of a 192-wide array. -/
theorem colslice_apply (G : (⟨2, ![50000, 192]⟩ : Shape).Idx → EReal) (off : Nat) (hoff : off + 64 ≤ 192)
    (hs : (⟨2, ![50000, 192]⟩ : Shape).Slices ![0, off] ⟨2, ![50000, 64]⟩) (v : Fin 50000) (j : Fin 64) :
    extractStridedSlice ⟨2, ![50000, 64]⟩ ![0, off] G hs (ix2 v j)
      = G (ix2 v ⟨off + j.val, by have := j.isLt; omega⟩) := by
  refine extractStridedSlice_apply _ G hs _ _ fun a => ?_
  match a with
  | ⟨0, _⟩ => exact (Nat.zero_add _).symm
  | ⟨1, _⟩ => rfl

/-! ## Matrix products -/

/-- A product of an `m × k` by a `k × n` matrix on the host, read at an entry. -/
theorem dot2_apply {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The per-destination sum -/

/-- The scatter-add of the message rows onto a zero array through the column of raw destination words: entry
    `(v, q)` is the sum of column `q` over the edges whose word, read signed, is `v`. -/
theorem segsum_apply
    (wf : ScatterDims.WF ⟨2, ![50000, 128]⟩ ⟨2, ![800000, 1]⟩ ⟨2, ![800000, 128]⟩ [1] [0] [0] 1)
    (h0 : (⟨0, ![]⟩ : Shape).BroadcastsInDim ⟨2, ![50000, 128]⟩ ![])
    (h1 : (⟨1, ![800000]⟩ : Shape).BroadcastsInDim ⟨2, ![800000, 1]⟩ ![0])
    (dst : IVec ⟨1, ![800000]⟩ 32) (upd : FVec Ideal ⟨2, ![800000, 128]⟩ .f32) (v : Fin 50000) (q : Fin 128) :
    Host.scatterAdd (F := Ideal) (segSumDims 50000 128 800000 wf)
        (broadcastInDim ⟨2, ![50000, 128]⟩ ![] h0 (constant (F := Ideal) ⟨0, ![]⟩ .f32 0x00000000#32))
        (broadcastInDim ⟨2, ![800000, 1]⟩ ![0] h1 dst) upd (ix2 v q)
      = segSum (fun e => dst (ix1 e)) (fun e q => upd (ix2 e q)) v q := by
  rw [scatterAdd_rows_apply wf]
  have hz : broadcastInDim ⟨2, ![50000, 128]⟩ ![] h0 (constant (F := Ideal) ⟨0, ![]⟩ .f32 0x00000000#32) (ix2 v q)
      = 0 := Ideal.ofBits_zero_f32
  rw [hz, zero_add]
  unfold segSum
  refine Finset.sum_congr rfl fun e _ => ?_
  rw [show broadcastInDim ⟨2, ![800000, 1]⟩ ![0] h1 dst (rowIdx e) = dst (ix1 e) from col_apply dst h1 e]

/-! ## The gates -/

/-- The quotient `1 / (1 + exp (−x))` with both ones the float word of one is the logistic function. -/
theorem sigmoid_eq (x : EReal) :
    Ideal.div (Ideal.ofBits .f32 0x3F800000#32) (Ideal.ofBits .f32 0x3F800000#32 + Ideal.exp (-x))
      = Ideal.logistic x := by
  rw [Ideal.ofBits_one_f32]
  rfl

end Cert.Gnn.Stage

end
-- ==== Proof.RefValueB.lean ====
/-
  One round of the reference as a function of arrays.

  The host operations of a round are grouped into five arrays — the messages, their per-destination sums, the two
  affine maps of the update, and the gated combination — each a function of the argument arrays, of the state the
  round starts from and of the round's number, which only selects the slices of the stacked weights. Each is read at an
  entry; together they give the round of the specification.
-/
import proofs.«163931_j15083925143987_2_alg».proof.Proof.RefValueA
import proofs.«163931_j15083925143987_2_alg».proof.Proof.Gen.ReferenceIdeal

noncomputable section

open scoped BigOperators

namespace Cert.ReferenceIdeal.RefValue

open Cert.ReferenceIdeal Cert.ReferenceIdeal.Gen Idealize.ShloMosaic Idealize.ShloMosaic.ValueIdx Idealize.SL.Sem
  Cert.Gnn Cert.Gnn.Stage Cert.HostInt

/-! ## The program's dimension records, read through the general lemmas -/

/-- The program's row gather at an entry. -/
theorem gatherP_apply (x : S50000x64.Idx → EReal) (idx : IVec S800000x1 32) (raw : BitVec 32) (e : Fin 800000)
    (f : Fin 64) (h : idx (colIdx e) = wrapWord raw) :
    Host.gather gather_S50000x64_S800000x1_S800000x64_1_0_n_n_0_1_164 x idx (ix2 e f) = x (ix2 (rowOf raw) f) :=
  gather_rows_of_word gather_S50000x64_S800000x1_S800000x64_1_0_n_n_0_1_164_wf x idx raw e f h

/-- The program's message product at an entry. -/
theorem dotA_apply (X : FVec Ideal S800000x192 .f32) (Y : FVec Ideal S192x128 .f32) (a : Fin 800000) (b : Fin 128) :
    Host.dotGeneral (F := Ideal) dot_S800000x192_S192x128_S800000x128_1_0_0_1_n_n none X Y (ix2 a b) = ∑ c : Fin 192, X (ix2 a c) * Y (ix2 c b) :=
  dot2_apply dot_S800000x192_S192x128_S800000x128_1_0_0_1_n_n_wf none X Y a b

/-- The program's input-gate product at an entry. -/
theorem dotB_apply (X : FVec Ideal S50000x128 .f32) (Y : FVec Ideal S128x192 .f32) (a : Fin 50000) (b : Fin 192) :
    Host.dotGeneral (F := Ideal) dot_S50000x128_S128x192_S50000x192_1_0_0_1_n_n none X Y (ix2 a b) = ∑ c : Fin 128, X (ix2 a c) * Y (ix2 c b) :=
  dot2_apply dot_S50000x128_S128x192_S50000x192_1_0_0_1_n_n_wf none X Y a b

/-- The program's state-gate product at an entry. -/
theorem dotC_apply (X : FVec Ideal S50000x64 .f32) (Y : FVec Ideal S64x192 .f32) (a : Fin 50000) (b : Fin 192) :
    Host.dotGeneral (F := Ideal) dot_S50000x64_S64x192_S50000x192_1_0_0_1_n_n none X Y (ix2 a b) = ∑ c : Fin 64, X (ix2 a c) * Y (ix2 c b) :=
  dot2_apply dot_S50000x64_S64x192_S50000x192_1_0_0_1_n_n_wf none X Y a b

/-- The program's per-destination sum at an entry. -/
theorem scatP_apply (dst : IVec S800000 32) (upd : FVec Ideal S800000x128 .f32) (v : Fin 50000) (q : Fin 128) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 dst) upd (ix2 v q)
      = segSum (fun e => dst (ix1 e)) (fun e q => upd (ix2 e q)) v q :=
  segsum_apply scatter_S50000x128_S800000x1_S800000x128_1_0_0_1_wf bcast_S_S50000x128 bcast_S800000_S800000x1_0 dst upd v q

/-! ## The arrays of a round -/

variable (o : Nat) (A : Args) (H : FVec Ideal S50000x64 .f32)

/-- The messages: each edge's concatenated row times round `o`'s message weights, plus the bias. -/
def msgArr (hM : S2x128x192.Slices ![o, 0, 0] S1x128x192) (hMb : S2x128.Slices ![o, 0] S1x128) :
    FVec Ideal S800000x128 .f32 :=
  addf (Host.dotGeneral (φ₁ := .f32) (φ₂ := .f32) dot_S800000x192_S192x128_S800000x128_1_0_0_1_n_n none (concatenate S800000x192 1 [⟨S800000x64, (Host.gather gather_S50000x64_S800000x1_S800000x64_1_0_n_n_0_1_164 H (broadcastInDim S800000x1 ![0] bcast_S800000_S800000x1_0 (select (cmpi .slt A.dst (broadcastInDim S800000 ![] bcast_S_S800000 (constantI S_ 32 0#32))) (addi A.dst (broadcastInDim S800000 ![] bcast_S_S800000 (constantI S_ 32 50000#32))) A.dst)))⟩, ⟨S800000x64, (Host.gather gather_S50000x64_S800000x1_S800000x64_1_0_n_n_0_1_164 H (broadcastInDim S800000x1 ![0] bcast_S800000_S800000x1_0 (select (cmpi .slt A.src (broadcastInDim S800000 ![] bcast_S_S800000 (constantI S_ 32 0#32))) (addi A.src (broadcastInDim S800000 ![] bcast_S_S800000 (constantI S_ 32 50000#32))) A.src)))⟩, ⟨S800000x64, A.he⟩] concatenates_S800000x64_S800000x64_S800000x64_S800000x192_d1) (transpose S192x128 [1, 0] (shapeCast _ (extractStridedSlice S1x128x192 ![o, 0, 0] A.wm hM) shapeCasts_S1x128x192_S128x192) transposes_S128x192_S192x128_1_0)) (broadcastInDim S800000x128 ![0, 1] bcast_S1x128_S800000x128_0_1 (broadcastInDim S1x128 ![1] bcast_S128_S1x128_1 (shapeCast _ (extractStridedSlice S1x128 ![o, 0] A.bm hMb) shapeCasts_S1x128_S128)))

/-- The aggregate: the messages summed per destination. -/
def aggArr (hM : S2x128x192.Slices ![o, 0, 0] S1x128x192) (hMb : S2x128.Slices ![o, 0] S1x128) :
    FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 A.dst) (msgArr o A H hM hMb)

/-- The aggregate's affine map: the three input-side gate pre-activations side by side. -/
def giArr (hI : S2x192x128.Slices ![o, 0, 0] S1x192x128) (hb : S2x192.Slices ![o, 0] S1x192)
    (agg : FVec Ideal S50000x128 .f32) : FVec Ideal S50000x192 .f32 :=
  addf (Host.dotGeneral (φ₁ := .f32) (φ₂ := .f32) dot_S50000x128_S128x192_S50000x192_1_0_0_1_n_n none agg (transpose S128x192 [1, 0] (shapeCast _ (extractStridedSlice S1x192x128 ![o, 0, 0] A.wih hI) shapeCasts_S1x192x128_S192x128) transposes_S192x128_S128x192_1_0)) (broadcastInDim S50000x192 ![0, 1] bcast_S1x192_S50000x192_0_1 (broadcastInDim S1x192 ![1] bcast_S192_S1x192_1 (shapeCast _ (extractStridedSlice S1x192 ![o, 0] A.bih hb) shapeCasts_S1x192_S192)))

/-- The state's affine map: the three state-side gate pre-activations side by side. -/
def ghArr (hH : S2x192x64.Slices ![o, 0, 0] S1x192x64) (hb : S2x192.Slices ![o, 0] S1x192) :
    FVec Ideal S50000x192 .f32 :=
  addf (Host.dotGeneral (φ₁ := .f32) (φ₂ := .f32) dot_S50000x64_S64x192_S50000x192_1_0_0_1_n_n none H (transpose S64x192 [1, 0] (shapeCast _ (extractStridedSlice S1x192x64 ![o, 0, 0] A.whh hH) shapeCasts_S1x192x64_S192x64) transposes_S192x64_S64x192_1_0)) (broadcastInDim S50000x192 ![0, 1] bcast_S1x192_S50000x192_0_1 (broadcastInDim S1x192 ![1] bcast_S192_S1x192_1 (shapeCast _ (extractStridedSlice S1x192 ![o, 0] A.bhh hb) shapeCasts_S1x192_S192)))

/-- The update gate, from the middle thirds of the two pre-activation arrays. -/
def zArr (gi gh : FVec Ideal S50000x192 .f32) : FVec Ideal S50000x64 .f32 :=
  Host.divf (broadcastInDim S50000x64 ![] bcast_S_S50000x64 (constant (F := Ideal) S_ .f32 0x3F800000#32)) (addf (broadcastInDim S50000x64 ![] bcast_S_S50000x64 (constant (F := Ideal) S_ .f32 0x3F800000#32)) (Host.exp (Host.negf (addf (extractStridedSlice S50000x64 ![0, 64] gi slices_S50000x192_S50000x64_0_64) (extractStridedSlice S50000x64 ![0, 64] gh slices_S50000x192_S50000x64_0_64)))))

/-- The new state: the gates combined with the old state. -/
def outArr (gi gh : FVec Ideal S50000x192 .f32) (z : FVec Ideal S50000x64 .f32) : FVec Ideal S50000x64 .f32 :=
  addf (mulf (subf (broadcastInDim S50000x64 ![] bcast_S_S50000x64 (constant (F := Ideal) S_ .f32 0x3F800000#32)) z) (Host.tanh (addf (extractStridedSlice S50000x64 ![0, 128] gi slices_S50000x192_S50000x64_0_128) (mulf (Host.divf (broadcastInDim S50000x64 ![] bcast_S_S50000x64 (constant (F := Ideal) S_ .f32 0x3F800000#32)) (addf (broadcastInDim S50000x64 ![] bcast_S_S50000x64 (constant (F := Ideal) S_ .f32 0x3F800000#32)) (Host.exp (Host.negf (addf (extractStridedSlice S50000x64 ![0, 0] gi slices_S50000x192_S50000x64_0_0) (extractStridedSlice S50000x64 ![0, 0] gh slices_S50000x192_S50000x64_0_0)))))) (extractStridedSlice S50000x64 ![0, 128] gh slices_S50000x192_S50000x64_0_128))))) (mulf z H)

/-! ## Each array at an entry -/

section Entries
variable {o : Nat} (ho : o < 2) (A : Args) (H : FVec Ideal S50000x64 .f32)

/-- A message at an entry: the edge's concatenated row against row `q` of round `o`'s message weights, plus the
    bias. -/
theorem msgArr_apply (hM : S2x128x192.Slices ![o, 0, 0] S1x128x192) (hMb : S2x128.Slices ![o, 0] S1x128)
    (e : Fin 800000) (q : Fin 128) :
    msgArr o A H hM hMb (ix2 e q)
      = (∑ k : Fin 192, catRow (fun v k => H (ix2 v k)) (fun e k => A.he (ix2 e k)) (fun e => rowOf (A.src (ix1 e)))
          (fun e => rowOf (A.dst (ix1 e))) e k * A.wm (ix3 ⟨o, ho⟩ q k)) + A.bm (ix2 ⟨o, ho⟩ q) := by
  unfold msgArr
  rw [addf_apply, dotA_apply, bias_apply A.bm o ho hMb]
  refine congrArg (· + A.bm (ix2 ⟨o, ho⟩ q)) (Finset.sum_congr rfl fun k _ => ?_)
  rw [wslice_T_apply A.wm o ho hM, cat3_apply]
  refine congrArg (· * A.wm (ix3 ⟨o, ho⟩ q k)) ?_
  unfold catRow
  by_cases h1 : k.val < 64
  · rw [dif_pos h1, dif_pos h1]
    exact gatherP_apply H _ (A.dst (ix1 e)) e ⟨k.val, h1⟩ ((col_apply _ _ e).trans (wrap_apply A.dst _ e))
  · rw [dif_neg h1, dif_neg h1]
    by_cases h2 : k.val < 128
    · rw [dif_pos h2, dif_pos h2]
      exact gatherP_apply H _ (A.src (ix1 e)) e ⟨k.val - 64, by omega⟩
        ((col_apply _ _ e).trans (wrap_apply A.src _ e))
    · rw [dif_neg h2, dif_neg h2]

/-- The aggregate at an entry: the specification's per-destination sum of the messages. -/
theorem aggArr_apply (hM : S2x128x192.Slices ![o, 0, 0] S1x128x192) (hMb : S2x128.Slices ![o, 0] S1x128)
    (v : Fin 50000) (q : Fin 128) :
    aggArr o A H hM hMb (ix2 v q)
      = refAgg (fun v k => H (ix2 v k)) (fun e k => A.he (ix2 e k)) (fun e => rowOf (A.src (ix1 e)))
          (fun e => rowOf (A.dst (ix1 e))) (fun e => A.dst (ix1 e)) (fun q k => A.wm (ix3 ⟨o, ho⟩ q k))
          (fun q => A.bm (ix2 ⟨o, ho⟩ q)) v q := by
  unfold aggArr
  rw [scatP_apply]
  unfold refAgg
  refine congrArg (fun x => segSum (fun e => A.dst (ix1 e)) x v q) (funext fun e => funext fun q' => ?_)
  exact msgArr_apply ho A H hM hMb e q'

/-- The aggregate's affine map at an entry. -/
theorem giArr_apply (hI : S2x192x128.Slices ![o, 0, 0] S1x192x128) (hb : S2x192.Slices ![o, 0] S1x192)
    (agg : FVec Ideal S50000x128 .f32) (v : Fin 50000) (p : Fin 192) :
    giArr o A hI hb agg (ix2 v p)
      = (∑ q : Fin 128, agg (ix2 v q) * A.wih (ix3 ⟨o, ho⟩ p q)) + A.bih (ix2 ⟨o, ho⟩ p) := by
  unfold giArr
  rw [addf_apply, dotB_apply, bias_apply A.bih o ho hb]
  refine congrArg (· + A.bih (ix2 ⟨o, ho⟩ p)) (Finset.sum_congr rfl fun q _ => ?_)
  rw [wslice_T_apply A.wih o ho hI]

/-- The state's affine map at an entry. -/
theorem ghArr_apply (hH : S2x192x64.Slices ![o, 0, 0] S1x192x64) (hb : S2x192.Slices ![o, 0] S1x192)
    (v : Fin 50000) (p : Fin 192) :
    ghArr o A H hH hb (ix2 v p)
      = (∑ k : Fin 64, H (ix2 v k) * A.whh (ix3 ⟨o, ho⟩ p k)) + A.bhh (ix2 ⟨o, ho⟩ p) := by
  unfold ghArr
  rw [addf_apply, dotC_apply, bias_apply A.bhh o ho hb]
  refine congrArg (· + A.bhh (ix2 ⟨o, ho⟩ p)) (Finset.sum_congr rfl fun k _ => ?_)
  rw [wslice_T_apply A.whh o ho hH]

end Entries

/-- The first 64-wide column slice of a 192-wide array. -/
theorem colslice0_apply (G : FVec Ideal S50000x192 .f32) (v : Fin 50000) (j : Fin 64) :
    extractStridedSlice S50000x64 ![0, 0] G slices_S50000x192_S50000x64_0_0 (ix2 v j)
      = G (ix2 v ⟨j.val, by have := j.isLt; omega⟩) := by
  refine extractStridedSlice_apply _ G _ _ _ fun a => ?_
  match a with
  | ⟨0, _⟩ => exact (Nat.zero_add _).symm
  | ⟨1, _⟩ => exact (Nat.zero_add _).symm

/-- The update gate at an entry: the logistic function of the sum of the two middle pre-activations. -/
theorem zArr_apply (gi gh : FVec Ideal S50000x192 .f32) (v : Fin 50000) (j : Fin 64) :
    zArr gi gh (ix2 v j)
      = Ideal.logistic (gi (ix2 v ⟨64 + j.val, by have := j.isLt; omega⟩)
          + gh (ix2 v ⟨64 + j.val, by have := j.isLt; omega⟩)) := by
  unfold zArr
  show Ideal.div (Ideal.ofBits .f32 0x3F800000#32) (Ideal.ofBits .f32 0x3F800000#32
    + Ideal.exp (-(extractStridedSlice S50000x64 ![0, 64] gi slices_S50000x192_S50000x64_0_64 (ix2 v j)
      + extractStridedSlice S50000x64 ![0, 64] gh slices_S50000x192_S50000x64_0_64 (ix2 v j)))) = _
  rw [sigmoid_eq, colslice_apply gi 64 (by norm_num), colslice_apply gh 64 (by norm_num)]

/-- The new state at an entry: the gates combined as the specification combines them. -/
theorem outArr_apply (H : FVec Ideal S50000x64 .f32) (gi gh : FVec Ideal S50000x192 .f32)
    (z : FVec Ideal S50000x64 .f32) (v : Fin 50000) (j : Fin 64) :
    outArr H gi gh z (ix2 v j)
      = (one32 - z (ix2 v j))
          * Ideal.tanh (gi (ix2 v ⟨128 + j.val, by have := j.isLt; omega⟩)
            + Ideal.logistic (gi (ix2 v ⟨j.val, by have := j.isLt; omega⟩) + gh (ix2 v ⟨j.val, by have := j.isLt; omega⟩))
              * gh (ix2 v ⟨128 + j.val, by have := j.isLt; omega⟩))
        + z (ix2 v j) * H (ix2 v j) := by
  unfold outArr
  show (Ideal.ofBits .f32 0x3F800000#32 - z (ix2 v j))
      * Ideal.tanh (extractStridedSlice S50000x64 ![0, 128] gi slices_S50000x192_S50000x64_0_128 (ix2 v j)
        + Ideal.div (Ideal.ofBits .f32 0x3F800000#32) (Ideal.ofBits .f32 0x3F800000#32
            + Ideal.exp (-(extractStridedSlice S50000x64 ![0, 0] gi slices_S50000x192_S50000x64_0_0 (ix2 v j)
              + extractStridedSlice S50000x64 ![0, 0] gh slices_S50000x192_S50000x64_0_0 (ix2 v j))))
          * extractStridedSlice S50000x64 ![0, 128] gh slices_S50000x192_S50000x64_0_128 (ix2 v j))
    + z (ix2 v j) * H (ix2 v j) = _
  rw [sigmoid_eq, colslice0_apply gi, colslice0_apply gh, colslice_apply gi 128 (by norm_num),
    colslice_apply gh 128 (by norm_num)]

/-! ## The round -/

/-- One round on arrays: from the state `H` and the argument arrays to the new state, with round `o`'s weights. -/
def roundArr (o : Nat) (A : Args) (H : FVec Ideal S50000x64 .f32)
    (hM : S2x128x192.Slices ![o, 0, 0] S1x128x192) (hMb : S2x128.Slices ![o, 0] S1x128)
    (hI : S2x192x128.Slices ![o, 0, 0] S1x192x128) (hH : S2x192x64.Slices ![o, 0, 0] S1x192x64)
    (hb : S2x192.Slices ![o, 0] S1x192) : FVec Ideal S50000x64 .f32 :=
  outArr H (giArr o A hI hb (aggArr o A H hM hMb)) (ghArr o A H hH hb)
    (zArr (giArr o A hI hb (aggArr o A H hM hMb)) (ghArr o A H hH hb))

/-- THE ROUND AT AN ENTRY is the specification's round `o` of the reference from the same state. -/
theorem roundArr_apply {o : Nat} (ho : o < 2) (A : Args) (H : FVec Ideal S50000x64 .f32)
    (hM : S2x128x192.Slices ![o, 0, 0] S1x128x192) (hMb : S2x128.Slices ![o, 0] S1x128)
    (hI : S2x192x128.Slices ![o, 0, 0] S1x192x128) (hH : S2x192x64.Slices ![o, 0, 0] S1x192x64)
    (hb : S2x192.Slices ![o, 0] S1x192) (v : Fin 50000) (j : Fin 64) :
    roundArr o A H hM hMb hI hH hb (ix2 v j) = A.refRoundOf ⟨o, ho⟩ (fun v k => H (ix2 v k)) v j := by
  unfold roundArr
  rw [outArr_apply, zArr_apply]
  simp only [giArr_apply ho, ghArr_apply ho, aggArr_apply ho]
  rfl

end Cert.ReferenceIdeal.RefValue

end
-- ==== Proof.RefValueRun.lean ====
/-
  The reference's line of host operations, read stretch by stretch.

  The 166 operations are six consecutive stretches: per round, the two row gathers, then the messages and their
  per-destination sums, then the gated update. Each stretch is read from an arbitrary state of the buffers at its entry:
  the one or two arrays it leaves for the later stretches are the round's arrays of the buffers it finds, and it writes
  no argument and none of the arrays a later stretch still reads. Chained, the contents of the result buffer after the
  whole line are two rounds on arrays, and every argument buffer holds what it held.
-/
import proofs.«163931_j15083925143987_2_alg».proof.Proof.RefValueB
import proofs.«163931_j15083925143987_2_alg».proof.Proof.RefValueOps

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo Cert.Gnn Cert.ReferenceIdeal.RefOps

/-- The contents after two lines run in a row. -/
theorem after_app : ∀ (l₁ l₂ : List (HloOp τ sig (Elt Ideal))) (V : Valuation τ sig (Elt Ideal)),
    after (l₁ ++ l₂) V = after l₂ (after l₁ V)
  | [], _, _ => rfl
  | _ :: l₁, l₂, V => after_app l₁ l₂ _

/-- The ten argument arrays as a valuation of the buffers holds them. -/
def argsV (W : Valuation τ sig (Elt Ideal)) : Args where
  hv := W (Proc.devRef .tc main_arg0)
  he := W (Proc.devRef .tc main_arg1)
  src := W (Proc.devRef .tc main_arg2)
  dst := W (Proc.devRef .tc main_arg3)
  wm := W (Proc.devRef .tc main_arg4)
  bm := W (Proc.devRef .tc main_arg5)
  wih := W (Proc.devRef .tc main_arg6)
  whh := W (Proc.devRef .tc main_arg7)
  bih := W (Proc.devRef .tc main_arg8)
  bhh := W (Proc.devRef .tc main_arg9)

/-- State rows gathered through the column of the wrapped words of `w`. -/
def gatherArr (H : FVec Ideal S50000x64 .f32) (w : IVec S800000 32) : FVec Ideal S800000x64 .f32 :=
  Host.gather gather_S50000x64_S800000x1_S800000x64_1_0_n_n_0_1_164 H (broadcastInDim S800000x1 ![0] bcast_S800000_S800000x1_0 (select (cmpi .slt w (broadcastInDim S800000 ![] bcast_S_S800000 (constantI S_ 32 0#32))) (addi w (broadcastInDim S800000 ![] bcast_S_S800000 (constantI S_ 32 50000#32))) w))

/-- The aggregate from already gathered destination and source rows. -/
def aggOf (o : Nat) (A : Args) (g1 g2 : FVec Ideal S800000x64 .f32)
    (hM : S2x128x192.Slices ![o, 0, 0] S1x128x192) (hMb : S2x128.Slices ![o, 0] S1x128) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 A.dst) (addf (Host.dotGeneral (φ₁ := .f32) (φ₂ := .f32) dot_S800000x192_S192x128_S800000x128_1_0_0_1_n_n none (concatenate S800000x192 1 [⟨S800000x64, g1⟩, ⟨S800000x64, g2⟩, ⟨S800000x64, A.he⟩] concatenates_S800000x64_S800000x64_S800000x64_S800000x192_d1) (transpose S192x128 [1, 0] (shapeCast _ (extractStridedSlice S1x128x192 ![o, 0, 0] A.wm hM) shapeCasts_S1x128x192_S128x192) transposes_S128x192_S192x128_1_0)) (broadcastInDim S800000x128 ![0, 1] bcast_S1x128_S800000x128_0_1 (broadcastInDim S1x128 ![1] bcast_S128_S1x128_1 (shapeCast _ (extractStridedSlice S1x128 ![o, 0] A.bm hMb) shapeCasts_S1x128_S128))))

/-- With the rows gathered from the state `H`, it is the round's aggregate. -/
theorem aggOf_gather (o : Nat) (A : Args) (H : FVec Ideal S50000x64 .f32)
    (hM : S2x128x192.Slices ![o, 0, 0] S1x128x192) (hMb : S2x128.Slices ![o, 0] S1x128) :
    aggOf o A (gatherArr H A.dst) (gatherArr H A.src) hM hMb = aggArr o A H hM hMb := by
  unfold aggOf gatherArr aggArr msgArr
  rfl

/-! ## What each stretch writes -/

/-- The buffers stretch A1 writes. -/
abbrev wrA1 : List (Ref sig .tc) := [main_c, main_v0, main_v1, main_c_0, main_v2, main_v3, main_v4, main_v5, main_v6, main_c_1, main_v7, main_v8, main_c_2, main_v9, main_v10, main_v11, main_v12, main_v13]
/-- The buffers stretch A2 writes. -/
abbrev wrA2 : List (Ref sig .tc) := [main_v14, main_v15, main_v16, main_v17, main_v18, main_v19, main_v20, main_v21, main_v22, main_v23, main_cst, main_v24, main_v25, main_v26]
/-- The buffers stretch B writes. -/
abbrev wrB : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_cst_3, main_v54, main_v55, main_cst_4, main_v56, main_v57, main_v58, main_v59, main_v60, main_cst_5, main_v61, main_v62, main_cst_6, main_v63, main_v64, main_v65, main_v66, main_v67, main_cst_7, main_v68, main_v69, main_v70, main_v71, main_v72]
/-- The buffers stretch C1 writes. -/
abbrev wrC1 : List (Ref sig .tc) := [main_c_8, main_v73, main_v74, main_c_9, main_v75, main_v76, main_v77, main_v78, main_v79, main_c_10, main_v80, main_v81, main_c_11, main_v82, main_v83, main_v84, main_v85, main_v86]
/-- The buffers stretch C2 writes. -/
abbrev wrC2 : List (Ref sig .tc) := [main_v87, main_v88, main_v89, main_v90, main_v91, main_v92, main_v93, main_v94, main_v95, main_v96, main_cst_12, main_v97, main_v98, main_v99]
/-- The buffers stretch D writes. -/
abbrev wrD : List (Ref sig .tc) := [main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_cst_13, main_v127, main_v128, main_cst_14, main_v129, main_v130, main_v131, main_v132, main_v133, main_cst_15, main_v134, main_v135, main_cst_16, main_v136, main_v137, main_v138, main_v139, main_v140, main_cst_17, main_v141, main_v142, main_v143, main_v144, main_v145]

set_option maxRecDepth 8192 in
theorem wrA1_sub : (opsA1 (F := Ideal)).Forall fun op =>
    op.writes ⊆ (wrA1.map (Proc.devRef (τ := τ) .tc)).toFinset := by
  simp only [opsA1, List.Forall, nullary_writes, unary_writes, binary_writes, ternary_writes, reshape_writes, nary_writes, Finset.singleton_subset_iff, List.mem_toFinset, List.mem_map]
  repeat' apply And.intro
  all_goals exact ⟨_, by decide, rfl⟩

/-- A buffer stretch A1 does not write keeps its contents. -/
theorem keepA1 (W : Valuation τ sig (Elt Ideal)) (r : Ref sig .tc) (hr : r ∉ wrA1) :
    after opsA1 W (Proc.devRef .tc r) = W (Proc.devRef .tc r) :=
  after_of_writes_sub opsA1 W wrA1_sub hr

/-- Stretch A1 writes no argument. -/
theorem argsA1 (W : Valuation τ sig (Elt Ideal)) : argsV (after opsA1 W) = argsV W := by
  unfold argsV
  rw [keepA1 W main_arg0 (by decide), keepA1 W main_arg1 (by decide), keepA1 W main_arg2 (by decide), keepA1 W main_arg3 (by decide), keepA1 W main_arg4 (by decide), keepA1 W main_arg5 (by decide), keepA1 W main_arg6 (by decide), keepA1 W main_arg7 (by decide), keepA1 W main_arg8 (by decide), keepA1 W main_arg9 (by decide)]

set_option maxRecDepth 8192 in
theorem wrA2_sub : (opsA2 (F := Ideal)).Forall fun op =>
    op.writes ⊆ (wrA2.map (Proc.devRef (τ := τ) .tc)).toFinset := by
  simp only [opsA2, List.Forall, nullary_writes, unary_writes, binary_writes, ternary_writes, reshape_writes, nary_writes, Finset.singleton_subset_iff, List.mem_toFinset, List.mem_map]
  repeat' apply And.intro
  all_goals exact ⟨_, by decide, rfl⟩

/-- A buffer stretch A2 does not write keeps its contents. -/
theorem keepA2 (W : Valuation τ sig (Elt Ideal)) (r : Ref sig .tc) (hr : r ∉ wrA2) :
    after opsA2 W (Proc.devRef .tc r) = W (Proc.devRef .tc r) :=
  after_of_writes_sub opsA2 W wrA2_sub hr

/-- Stretch A2 writes no argument. -/
theorem argsA2 (W : Valuation τ sig (Elt Ideal)) : argsV (after opsA2 W) = argsV W := by
  unfold argsV
  rw [keepA2 W main_arg0 (by decide), keepA2 W main_arg1 (by decide), keepA2 W main_arg2 (by decide), keepA2 W main_arg3 (by decide), keepA2 W main_arg4 (by decide), keepA2 W main_arg5 (by decide), keepA2 W main_arg6 (by decide), keepA2 W main_arg7 (by decide), keepA2 W main_arg8 (by decide), keepA2 W main_arg9 (by decide)]

set_option maxRecDepth 8192 in
theorem wrB_sub : (opsB (F := Ideal)).Forall fun op =>
    op.writes ⊆ (wrB.map (Proc.devRef (τ := τ) .tc)).toFinset := by
  simp only [opsB, List.Forall, nullary_writes, unary_writes, binary_writes, ternary_writes, reshape_writes, nary_writes, Finset.singleton_subset_iff, List.mem_toFinset, List.mem_map]
  repeat' apply And.intro
  all_goals exact ⟨_, by decide, rfl⟩

/-- A buffer stretch B does not write keeps its contents. -/
theorem keepB (W : Valuation τ sig (Elt Ideal)) (r : Ref sig .tc) (hr : r ∉ wrB) :
    after opsB W (Proc.devRef .tc r) = W (Proc.devRef .tc r) :=
  after_of_writes_sub opsB W wrB_sub hr

/-- Stretch B writes no argument. -/
theorem argsB (W : Valuation τ sig (Elt Ideal)) : argsV (after opsB W) = argsV W := by
  unfold argsV
  rw [keepB W main_arg0 (by decide), keepB W main_arg1 (by decide), keepB W main_arg2 (by decide), keepB W main_arg3 (by decide), keepB W main_arg4 (by decide), keepB W main_arg5 (by decide), keepB W main_arg6 (by decide), keepB W main_arg7 (by decide), keepB W main_arg8 (by decide), keepB W main_arg9 (by decide)]

set_option maxRecDepth 8192 in
theorem wrC1_sub : (opsC1 (F := Ideal)).Forall fun op =>
    op.writes ⊆ (wrC1.map (Proc.devRef (τ := τ) .tc)).toFinset := by
  simp only [opsC1, List.Forall, nullary_writes, unary_writes, binary_writes, ternary_writes, reshape_writes, nary_writes, Finset.singleton_subset_iff, List.mem_toFinset, List.mem_map]
  repeat' apply And.intro
  all_goals exact ⟨_, by decide, rfl⟩

/-- A buffer stretch C1 does not write keeps its contents. -/
theorem keepC1 (W : Valuation τ sig (Elt Ideal)) (r : Ref sig .tc) (hr : r ∉ wrC1) :
    after opsC1 W (Proc.devRef .tc r) = W (Proc.devRef .tc r) :=
  after_of_writes_sub opsC1 W wrC1_sub hr

/-- Stretch C1 writes no argument. -/
theorem argsC1 (W : Valuation τ sig (Elt Ideal)) : argsV (after opsC1 W) = argsV W := by
  unfold argsV
  rw [keepC1 W main_arg0 (by decide), keepC1 W main_arg1 (by decide), keepC1 W main_arg2 (by decide), keepC1 W main_arg3 (by decide), keepC1 W main_arg4 (by decide), keepC1 W main_arg5 (by decide), keepC1 W main_arg6 (by decide), keepC1 W main_arg7 (by decide), keepC1 W main_arg8 (by decide), keepC1 W main_arg9 (by decide)]

set_option maxRecDepth 8192 in
theorem wrC2_sub : (opsC2 (F := Ideal)).Forall fun op =>
    op.writes ⊆ (wrC2.map (Proc.devRef (τ := τ) .tc)).toFinset := by
  simp only [opsC2, List.Forall, nullary_writes, unary_writes, binary_writes, ternary_writes, reshape_writes, nary_writes, Finset.singleton_subset_iff, List.mem_toFinset, List.mem_map]
  repeat' apply And.intro
  all_goals exact ⟨_, by decide, rfl⟩

/-- A buffer stretch C2 does not write keeps its contents. -/
theorem keepC2 (W : Valuation τ sig (Elt Ideal)) (r : Ref sig .tc) (hr : r ∉ wrC2) :
    after opsC2 W (Proc.devRef .tc r) = W (Proc.devRef .tc r) :=
  after_of_writes_sub opsC2 W wrC2_sub hr

/-- Stretch C2 writes no argument. -/
theorem argsC2 (W : Valuation τ sig (Elt Ideal)) : argsV (after opsC2 W) = argsV W := by
  unfold argsV
  rw [keepC2 W main_arg0 (by decide), keepC2 W main_arg1 (by decide), keepC2 W main_arg2 (by decide), keepC2 W main_arg3 (by decide), keepC2 W main_arg4 (by decide), keepC2 W main_arg5 (by decide), keepC2 W main_arg6 (by decide), keepC2 W main_arg7 (by decide), keepC2 W main_arg8 (by decide), keepC2 W main_arg9 (by decide)]

set_option maxRecDepth 8192 in
theorem wrD_sub : (opsD (F := Ideal)).Forall fun op =>
    op.writes ⊆ (wrD.map (Proc.devRef (τ := τ) .tc)).toFinset := by
  simp only [opsD, List.Forall, nullary_writes, unary_writes, binary_writes, ternary_writes, reshape_writes, nary_writes, Finset.singleton_subset_iff, List.mem_toFinset, List.mem_map]
  repeat' apply And.intro
  all_goals exact ⟨_, by decide, rfl⟩

/-- A buffer stretch D does not write keeps its contents. -/
theorem keepD (W : Valuation τ sig (Elt Ideal)) (r : Ref sig .tc) (hr : r ∉ wrD) :
    after opsD W (Proc.devRef .tc r) = W (Proc.devRef .tc r) :=
  after_of_writes_sub opsD W wrD_sub hr

/-- Stretch D writes no argument. -/
theorem argsD (W : Valuation τ sig (Elt Ideal)) : argsV (after opsD W) = argsV W := by
  unfold argsV
  rw [keepD W main_arg0 (by decide), keepD W main_arg1 (by decide), keepD W main_arg2 (by decide), keepD W main_arg3 (by decide), keepD W main_arg4 (by decide), keepD W main_arg5 (by decide), keepD W main_arg6 (by decide), keepD W main_arg7 (by decide), keepD W main_arg8 (by decide), keepD W main_arg9 (by decide)]

/-! ## What each stretch computes -/

set_option maxRecDepth 8192 in
/-- Round one's destination rows. -/
theorem stageA1d (W : Valuation τ sig (Elt Ideal)) :
    after opsA1 W (Proc.devRef .tc main_v6) = gatherArr (argsV W).hv (argsV W).dst := by
  unfold gatherArr
  after_results_simp
  rfl

set_option maxRecDepth 8192 in
/-- Round one's source rows. -/
theorem stageA1s (W : Valuation τ sig (Elt Ideal)) :
    after opsA1 W (Proc.devRef .tc main_v13) = gatherArr (argsV W).hv (argsV W).src := by
  unfold gatherArr
  after_results_simp
  rfl

set_option maxRecDepth 8192 in
/-- Round one's aggregate, from the gathered rows it finds. -/
theorem stageA2 (W : Valuation τ sig (Elt Ideal)) :
    after opsA2 W (Proc.devRef .tc main_v26)
      = aggOf 0 (argsV W) (W (Proc.devRef .tc main_v6)) (W (Proc.devRef .tc main_v13)) slices_S2x128x192_S1x128x192_0_0_0 slices_S2x128_S1x128_0_0 := by
  unfold aggOf
  after_results_simp
  rfl

set_option maxRecDepth 8192 in
/-- Round one's new state, from the aggregate it finds. -/
theorem stageB (W : Valuation τ sig (Elt Ideal)) :
    after opsB W (Proc.devRef .tc main_v72)
      = outArr (argsV W).hv (giArr 0 (argsV W) slices_S2x192x128_S1x192x128_0_0_0 slices_S2x192_S1x192_0_0 (W (Proc.devRef .tc main_v26)))
          (ghArr 0 (argsV W) (argsV W).hv slices_S2x192x64_S1x192x64_0_0_0 slices_S2x192_S1x192_0_0)
          (zArr (giArr 0 (argsV W) slices_S2x192x128_S1x192x128_0_0_0 slices_S2x192_S1x192_0_0 (W (Proc.devRef .tc main_v26)))
            (ghArr 0 (argsV W) (argsV W).hv slices_S2x192x64_S1x192x64_0_0_0 slices_S2x192_S1x192_0_0)) := by
  unfold outArr zArr giArr ghArr
  after_results_simp
  rfl

set_option maxRecDepth 8192 in
/-- Round two's destination rows, from the state it finds. -/
theorem stageC1d (W : Valuation τ sig (Elt Ideal)) :
    after opsC1 W (Proc.devRef .tc main_v79) = gatherArr (W (Proc.devRef .tc main_v72)) (argsV W).dst := by
  unfold gatherArr
  after_results_simp
  rfl

set_option maxRecDepth 8192 in
/-- Round two's source rows, from the state it finds. -/
theorem stageC1s (W : Valuation τ sig (Elt Ideal)) :
    after opsC1 W (Proc.devRef .tc main_v86) = gatherArr (W (Proc.devRef .tc main_v72)) (argsV W).src := by
  unfold gatherArr
  after_results_simp
  rfl

set_option maxRecDepth 8192 in
/-- Round two's aggregate, from the gathered rows it finds. -/
theorem stageC2 (W : Valuation τ sig (Elt Ideal)) :
    after opsC2 W (Proc.devRef .tc main_v99)
      = aggOf 1 (argsV W) (W (Proc.devRef .tc main_v79)) (W (Proc.devRef .tc main_v86)) slices_S2x128x192_S1x128x192_1_0_0 slices_S2x128_S1x128_1_0 := by
  unfold aggOf
  after_results_simp
  rfl

set_option maxRecDepth 8192 in
/-- Round two's new state, from the state and the aggregate it finds. -/
theorem stageD (W : Valuation τ sig (Elt Ideal)) :
    after opsD W (Proc.devRef .tc main_v145)
      = outArr (W (Proc.devRef .tc main_v72)) (giArr 1 (argsV W) slices_S2x192x128_S1x192x128_1_0_0 slices_S2x192_S1x192_1_0 (W (Proc.devRef .tc main_v99)))
          (ghArr 1 (argsV W) (W (Proc.devRef .tc main_v72)) slices_S2x192x64_S1x192x64_1_0_0 slices_S2x192_S1x192_1_0)
          (zArr (giArr 1 (argsV W) slices_S2x192x128_S1x192x128_1_0_0 slices_S2x192_S1x192_1_0 (W (Proc.devRef .tc main_v99)))
            (ghArr 1 (argsV W) (W (Proc.devRef .tc main_v72)) slices_S2x192x64_S1x192x64_1_0_0 slices_S2x192_S1x192_1_0)) := by
  unfold outArr zArr giArr ghArr
  after_results_simp
  rfl

/-! ## The whole line -/

/-- After the whole line the result buffer holds two rounds on arrays. -/
theorem after_result (V : Valuation τ sig (Elt Ideal)) :
    after ops V (Proc.devRef .tc main_v145)
      = roundArr 1 (argsV V) (roundArr 0 (argsV V) (argsV V).hv slices_S2x128x192_S1x128x192_0_0_0 slices_S2x128_S1x128_0_0 slices_S2x192x128_S1x192x128_0_0_0 slices_S2x192x64_S1x192x64_0_0_0 slices_S2x192_S1x192_0_0) slices_S2x128x192_S1x128x192_1_0_0 slices_S2x128_S1x128_1_0 slices_S2x192x128_S1x192x128_1_0_0 slices_S2x192x64_S1x192x64_1_0_0 slices_S2x192_S1x192_1_0 := by
  show after (opsA1 ++ (opsA2 ++ (opsB ++ (opsC1 ++ (opsC2 ++ opsD))))) V _ = _
  rw [after_app, after_app, after_app, after_app, after_app]
  have h6 := stageA1d V
  have h13 := stageA1s V
  have a1 := argsA1 V
  generalize after opsA1 V = W1 at h6 h13 a1 ⊢
  have h26 := stageA2 W1
  have a2 := argsA2 W1
  generalize after opsA2 W1 = W2 at h26 a2 ⊢
  have h72 := stageB W2
  have a3 := argsB W2
  generalize after opsB W2 = W3 at h72 a3 ⊢
  have h79 := stageC1d W3
  have h86 := stageC1s W3
  have k4 := keepC1 W3 main_v72 (by decide)
  have a4 := argsC1 W3
  generalize after opsC1 W3 = W4 at h79 h86 k4 a4 ⊢
  have h99 := stageC2 W4
  have k5 := keepC2 W4 main_v72 (by decide)
  have a5 := argsC2 W4
  generalize after opsC2 W4 = W5 at h99 k5 a5 ⊢
  rw [stageD, a5, h99, k5, a4, h79, h86, k4, a3, h72, a2, h26, a1, h6, h13, aggOf_gather, aggOf_gather]
  rfl

/-- After the whole line every argument buffer holds what it held. -/
theorem after_args (V : Valuation τ sig (Elt Ideal)) : argsV (after ops V) = argsV V := by
  show argsV (after (opsA1 ++ (opsA2 ++ (opsB ++ (opsC1 ++ (opsC2 ++ opsD))))) V) = _
  rw [after_app, after_app, after_app, after_app, after_app, argsD, argsC2, argsC1, argsB, argsA2, argsA1]

end Cert.ReferenceIdeal.RefValue

end
-- ==== Proof.RefValue.lean ====
/-
  The reference program's run, read as mathematics.

  The reference performs two rounds. In each round every edge gathers the state rows of its destination and its source
  (the index word wrapped when negative, then clamped), concatenates them with the edge's feature row, multiplies the
  192-wide row by the round's message weights and adds the bias; the messages are summed per destination node, the word
  of the destination read as a signed integer and dropped when it is no node; the sums and the old state go through the
  two affine maps of a gated recurrent unit, whose three gates combine them into the new state. This module shows that
  the array the run leaves as its result is, entry by entry, two applications of that round to the argument arrays, and
  that the arguments are left as they were.
-/
import proofs.«163931_j15083925143987_2_alg».proof.Proof.RefValueRun

noncomputable section

namespace Cert.ReferenceIdeal.RefValue

open Idealize.ShloMosaic Idealize.ShloMosaic.ValueIdx Idealize.SL.Sem Cert.ReferenceIdeal

/-- The ten argument arrays of core `c` in the memory `m`. -/
def argsOf (m : (ℓ : Loc nD τ sig) → Buf (Elt Ideal) ℓ) (c : Dev nD) : Cert.Gnn.Args where
  hv := m ((c.tc : Thread nD τ).loc main_arg0)
  he := m ((c.tc : Thread nD τ).loc main_arg1)
  src := m ((c.tc : Thread nD τ).loc main_arg2)
  dst := m ((c.tc : Thread nD τ).loc main_arg3)
  wm := m ((c.tc : Thread nD τ).loc main_arg4)
  bm := m ((c.tc : Thread nD τ).loc main_arg5)
  wih := m ((c.tc : Thread nD τ).loc main_arg6)
  whh := m ((c.tc : Thread nD τ).loc main_arg7)
  bih := m ((c.tc : Thread nD τ).loc main_arg8)
  bhh := m ((c.tc : Thread nD τ).loc main_arg9)

open Cert.ReferenceIdeal.Gen Cert.Gnn in
/-- Two rounds on arrays are the specification's result array. -/
theorem rounds_eq (A : Cert.Gnn.Args) :
    roundArr 1 A (roundArr 0 A A.hv slices_S2x128x192_S1x128x192_0_0_0 slices_S2x128_S1x128_0_0 slices_S2x192x128_S1x192x128_0_0_0 slices_S2x192x64_S1x192x64_0_0_0 slices_S2x192_S1x192_0_0) slices_S2x128x192_S1x128x192_1_0_0 slices_S2x128_S1x128_1_0 slices_S2x192x128_S1x192x128_1_0_0 slices_S2x192x64_S1x192x64_1_0_0 slices_S2x192_S1x192_1_0 = A.refArr := by
  funext i
  obtain ⟨v, j, rfl⟩ : ∃ (v : Fin 50000) (j : Fin 64), i = ix2 v j := ⟨i 0, i 1, eq_ix2 i⟩
  rw [roundArr_apply (by norm_num : 1 < 2)]
  have h0 : (fun (v : Fin 50000) (k : Fin 64) => roundArr 0 A A.hv slices_S2x128x192_S1x128x192_0_0_0 slices_S2x128_S1x128_0_0 slices_S2x192x128_S1x192x128_0_0_0 slices_S2x192x64_S1x192x64_0_0_0 slices_S2x192_S1x192_0_0 (ix2 v k))
      = A.refRoundOf 0 A.hv0 :=
    funext fun v => funext fun k => roundArr_apply (by norm_num : 0 < 2) A A.hv _ _ _ _ _ v k
  rw [h0]
  rfl

open Cert.ReferenceIdeal.Gen Cert.ReferenceIdeal.RefOps Idealize.ShloMosaic.StableHlo Cert.Gnn in
/-- Every weakly fair execution of the reference terminates without a fault, with its result array equal to two
    rounds of message passing and gated update applied to its arguments, and the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v145) = (argsOf m c).refArr
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run (Cert.ReferenceIdeal.defs (F := Ideal)) _ _).mono
    (fun _ h c => ⟨(h c main_v145).trans ((after_result (launchContents m c)).trans (rounds_eq (argsOf m c))),
      (h c main_arg0).trans (congrArg Args.hv (after_args (launchContents m c))),
      (h c main_arg1).trans (congrArg Args.he (after_args (launchContents m c))),
      (h c main_arg2).trans (congrArg Args.src (after_args (launchContents m c))),
      (h c main_arg3).trans (congrArg Args.dst (after_args (launchContents m c))),
      (h c main_arg4).trans (congrArg Args.wm (after_args (launchContents m c))),
      (h c main_arg5).trans (congrArg Args.bm (after_args (launchContents m c))),
      (h c main_arg6).trans (congrArg Args.wih (after_args (launchContents m c))),
      (h c main_arg7).trans (congrArg Args.whh (after_args (launchContents m c))),
      (h c main_arg8).trans (congrArg Args.bih (after_args (launchContents m c))),
      (h c main_arg9).trans (congrArg Args.bhh (after_args (launchContents m c)))⟩)
    (run_seq scopedRefs_eq scopedSems_eq (Cert.ReferenceIdeal.defs (F := Ideal)) (Cert.ReferenceIdeal.main (F := Ideal))
      (fun _ => ops) main_eq (fun _ => ops_sub) m ρ)

end Cert.ReferenceIdeal.RefValue

end
-- ==== Proof.lean ====
/-
  Two rounds of graph message passing with a gated recurrent update: the tiled kernels agree with the plain reference
  over the extended reals.

  In each round the reference sends, along every edge, the full linear map of (destination state, source state, edge
  feature) plus a bias, and sums the messages per destination node. The kernel program leaves the destination-state
  third of that map out of the per-edge message: within one destination's sum it is the same for every edge, so the sum
  of those thirds is the in-degree times the destination state through that third of the weights, which the kernel adds
  on the node side. Over the extended reals this regrouping needs only that addition is a commutative monoid and that a
  natural number of equal summands is that number times the summand — no entry needs to be finite. The gated update is
  then the same function of the aggregate and the state on both sides, the kernel computing its six 64-wide gate
  products separately where the reference computes two 192-wide ones and splits them.

  The claim's five parts: the three programs run without fault and keep their arguments (the two kernel programs by their
  generated frame certificates, the reference by its run); the idealization rewrote nothing, so it is
  preserved trivially; and the two idealized programs end with equal results: the kernel program's result array, read
  through its four regions and the host operations between them, is `Args.kerArr` of the argument arrays, the
  reference's is `Args.refArr`, and the two are one function (`Args.kerArr_eq_refArr`).
-/
import proofs.«163931_j15083925143987_2_alg».proof.Defs
import proofs.«163931_j15083925143987_2_alg».proof.Proof.Gen.Kernel
import proofs.«163931_j15083925143987_2_alg».proof.Proof.Gen.Kernel.Skeleton
import proofs.«163931_j15083925143987_2_alg».proof.Proof.Gen.Kernel.Launch
import proofs.«163931_j15083925143987_2_alg».proof.Proof.Gen.Kernel.Points
import proofs.«163931_j15083925143987_2_alg».proof.Proof.Gen.Kernel.Frame
import proofs.«163931_j15083925143987_2_alg».proof.Proof.Gen.KernelIdeal
import proofs.«163931_j15083925143987_2_alg».proof.Proof.Gen.KernelIdeal.Skeleton
import proofs.«163931_j15083925143987_2_alg».proof.Proof.Gen.KernelIdeal.Launch
import proofs.«163931_j15083925143987_2_alg».proof.Proof.Gen.KernelIdeal.Points
import proofs.«163931_j15083925143987_2_alg».proof.Proof.Gen.KernelIdeal.Frame
import proofs.«163931_j15083925143987_2_alg».proof.Proof.Gen.ReferenceIdeal
import proofs.«163931_j15083925143987_2_alg».proof.Proof.Gen.Pre_finite_inputs
import proofs.«163931_j15083925143987_2_alg».proof.Proof.RoundAlgebra
import proofs.«163931_j15083925143987_2_alg».proof.Proof.KernelRun
import proofs.«163931_j15083925143987_2_alg».proof.Proof.KernelValue
import proofs.«163931_j15083925143987_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, with the statement about the result dropped. -/
theorem frame_ri : Cert.frame_ReferenceIdeal := fun m ρ _ =>
  (θ_run Cert.ReferenceIdeal.defs _ _).mono (fun _ h c => (h c).2) (Cert.ReferenceIdeal.RefValue.ref_run m ρ)

/-- Memories that agree on the ten arguments give the two programs the same argument arrays. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefValue.argsOf m' c = Cert.KernelIdeal.DataPath.argsOf m c := by
  obtain ⟨h0, h1, h2, h3, h4, h5, h6, h7, h8, h9⟩ := h
  unfold Cert.ReferenceIdeal.RefValue.argsOf Cert.KernelIdeal.DataPath.argsOf
  rw [h0, h1, h2, h3, h4, h5, h6, h7, h8, h9]

/-- From memories agreeing on the arguments both idealized programs run, keep their arguments, and end with the same
    result array: two rounds of the kernel's arrangement on one side, of the reference's on the other, one function. -/
theorem algebraic : Cert.algebraic_KernelIdeal_ReferenceIdeal := by
  intro m ρ m' ρ' _ hagree
  refine ⟨fun c => (Cert.KernelIdeal.DataPath.argsOf m c).kerArr, ?_, ?_⟩
  · exact (θ_run Cert.KernelIdeal.defs _ _).mono
      (fun r h c => ⟨(h c).1.trans (Cert.KernelIdeal.KValue.kernel_value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefValue.ref_run m' ρ')
    show (Cert.ReferenceIdeal.RefValue.argsOf m' c).refArr = (Cert.KernelIdeal.DataPath.argsOf m c).kerArr
    rw [Cert.Gnn.Args.kerArr_eq_refArr, args_agree m m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
